-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x16x56x56 : Shape := ⟨5, ![4, 256, 16, 56, 56]⟩
abbrev S256x16x3x3 : Shape := ⟨4, ![256, 16, 3, 3]⟩
abbrev S_ : Shape := ⟨0, ![]⟩

class Facts : Prop where
  bcast_S_S4x256x16x56x56 : S_.BroadcastsInDim S4x256x16x56x56 (![] : Fin 0 → Fin S4x256x16x56x56.rank)
  reducesTo_S4x256x16x56x56_S_d0_1_2_3_4 : S4x256x16x56x56.ReducesTo [0, 1, 2, 3, 4] S_
  h_S_ : 0 < S_.numel
  bcast_S_S256x16x3x3 : S_.BroadcastsInDim S256x16x3x3 (![] : Fin 0 → Fin S256x16x3x3.rank)
  reducesTo_S256x16x3x3_S_d0_1_2_3 : S256x16x3x3.ReducesTo [0, 1, 2, 3] S_

variable [Facts]

def fn {F : FTy → Type} [FloatOps F] (main_arg0 : FVec F S4x256x16x56x56 .f32) (main_arg1 : FVec F S256x16x3x3 .f32) : IVec S_ 1 :=
  let main_v0 : FVec F S4x256x16x56x56 .f32 := Host.absf main_arg0
  let main_cst : FVec F S_ .f32 := constant S_ .f32 0x7F800000#32
  let main_v1 : FVec F S4x256x16x56x56 .f32 := broadcastInDim S4x256x16x56x56 ![] bcast_S_S4x256x16x56x56 main_cst
  let main_v2 : IVec S4x256x16x56x56 1 := cmpf .olt main_v0 main_v1
  let main_c : IVec S_ 1 := constantI S_ 1 1#1
  let main_v3 : IVec S_ 1 := (fun x v => Host.reduce IntOp.andi x v reducesTo_S4x256x16x56x56_S_d0_1_2_3_4 h_S_) main_v2 main_c
  let main_v4 : FVec F S256x16x3x3 .f32 := Host.absf main_arg1
  let main_cst_0 : FVec F S_ .f32 := constant S_ .f32 0x7F800000#32
  let main_v5 : FVec F S256x16x3x3 .f32 := broadcastInDim S256x16x3x3 ![] bcast_S_S256x16x3x3 main_cst_0
  let main_v6 : IVec S256x16x3x3 1 := cmpf .olt main_v4 main_v5
  let main_c_1 : IVec S_ 1 := constantI S_ 1 1#1
  let main_v7 : IVec S_ 1 := (fun x v => Host.reduce IntOp.andi x v reducesTo_S256x16x3x3_S_d0_1_2_3 h_S_) main_v6 main_c_1
  let main_v8 : IVec S_ 1 := andi main_v3 main_v7
  main_v8
-- ==== Kernel.lean ====
abbrev S4x256x16x56x56 : Shape := ⟨5, ![4, 256, 16, 56, 56]⟩
abbrev S256x16x3x3 : Shape := ⟨4, ![256, 16, 3, 3]⟩
abbrev S_ : Shape := ⟨0, ![]⟩
abbrev S4x256x16x58x58 : Shape := ⟨5, ![4, 256, 16, 58, 58]⟩
abbrev S4x72x16x56x56 : Shape := ⟨5, ![4, 72, 16, 56, 56]⟩
abbrev S1x64x1x58x58 : Shape := ⟨5, ![1, 64, 1, 58, 58]⟩
abbrev S64x1x3x3 : Shape := ⟨4, ![64, 1, 3, 3]⟩
abbrev S1x18x1x56x56 : Shape := ⟨5, ![1, 18, 1, 56, 56]⟩
abbrev S64x58x58 : Shape := ⟨3, ![64, 58, 58]⟩
abbrev S64x3x3 : Shape := ⟨3, ![64, 3, 3]⟩
abbrev S64x56x56 : Shape := ⟨3, ![64, 56, 56]⟩
abbrev S64x1x1 : Shape := ⟨3, ![64, 1, 1]⟩
abbrev S64 : Shape := ⟨1, ![64]⟩
abbrev S2x32x56x56 : Shape := ⟨4, ![2, 32, 56, 56]⟩
abbrev S2x56x56 : Shape := ⟨3, ![2, 56, 56]⟩
abbrev S1x2x56x56 : Shape := ⟨4, ![1, 2, 56, 56]⟩
abbrev S9x2x56x56 : Shape := ⟨4, ![9, 2, 56, 56]⟩
abbrev S2x9x56x56 : Shape := ⟨4, ![2, 9, 56, 56]⟩
abbrev S18x56x56 : Shape := ⟨3, ![18, 56, 56]⟩

abbrev nBuf : Space → Nat
  | .hbm => 6
  | .vmem => 8
  | .smem => 0
  | _ => 0

abbrev bufTy : (tb : Table) → Fin (tcTables nBuf tb) → BufTy
  | .hbm, ⟨0, _⟩ => ⟨S4x256x16x56x56, .f32⟩
  | .hbm, ⟨1, _⟩ => ⟨S256x16x3x3, .f32⟩
  | .hbm, ⟨2, _⟩ => ⟨S_, .i32⟩
  | .hbm, ⟨3, _⟩ => ⟨S_, .f32⟩
  | .hbm, ⟨4, _⟩ => ⟨S4x256x16x58x58, .f32⟩
  | .hbm, ⟨5, _⟩ => ⟨S4x72x16x56x56, .f32⟩
  | .local _ .vmem, ⟨0, _⟩ => ⟨S1x64x1x58x58, .f32⟩
  | .local _ .vmem, ⟨1, _⟩ => ⟨S1x64x1x58x58, .f32⟩
  | .local _ .vmem, ⟨2, _⟩ => ⟨S1x64x1x58x58, .f32⟩
  | .local _ .vmem, ⟨3, _⟩ => ⟨S1x64x1x58x58, .f32⟩
  | .local _ .vmem, ⟨4, _⟩ => ⟨S64x1x3x3, .f32⟩
  | .local _ .vmem, ⟨5, _⟩ => ⟨S64x1x3x3, .f32⟩
  | .local _ .vmem, ⟨6, _⟩ => ⟨S1x18x1x56x56, .f32⟩
  | .local _ .vmem, ⟨7, _⟩ => ⟨S1x18x1x56x56, .f32⟩
  | _, _ => ⟨S4x256x16x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 16, 4], ![false, false, false]⟩

def cc0_transform_0 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![arg0.toNat, arg2.toNat, v1.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg2.toNat, arg1.toNat, c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg2.toNat, arg1.toNat, c0_i32.toNat, c0_i32_0.toNat]

abbrev stage0_0 : Fin 2 → Memref sig .tc .vmem S1x64x1x58x58 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1x58x58 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S64x1x3x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x18x1x56x56 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

class Facts₀ : Prop where
  pads_S4x256x16x56x56_S4x256x16x58x58_000_000_000_110_110 : S4x256x16x56x56.Pads (![0, 0, 0, 1, 1] : Fin 5 → Nat) ![0, 0, 0, 1, 1] ![0, 0, 0, 0, 0] S4x256x16x58x58
  h_S_ : 0 < S_.numel
  inb_S1x64x1x58x58_S1x64x1x58x58_0_0_0_0_0 : ∀ a, (![0, 0, 0, 0, 0] : Fin 5 → Nat) a + S1x64x1x58x58.size a ≤ S1x64x1x58x58.size a
  h_S1x64x1x58x58 : 0 < S1x64x1x58x58.numel
  shapeCasts_S1x64x1x58x58_S64x58x58 : S1x64x1x58x58.ShapeCasts S64x58x58
  inb_S64x1x3x3_S64x1x3x3_0_0_0_0 : ∀ a, (![0, 0, 0, 0] : Fin 4 → Nat) a + S64x1x3x3.size a ≤ S64x1x3x3.size a
  h_S64x1x3x3 : 0 < S64x1x3x3.numel
  shapeCasts_S64x1x3x3_S64x3x3 : S64x1x3x3.ShapeCasts S64x3x3
  slices_S64x58x58_o0_1_1_S64x56x56 : S64x58x58.Slices ![0, 1, 1] S64x56x56
  slices_S64x58x58_o0_0_0_S64x56x56 : S64x58x58.Slices ![0, 0, 0] S64x56x56
  slices_S64x3x3_o0_0_0_S64x1x1 : S64x3x3.Slices ![0, 0, 0] S64x1x1
  shapeCasts_S64x1x1_S64 : S64x1x1.ShapeCasts S64
  shapeCasts_S64_S64x1x1 : S64.ShapeCasts S64x1x1
  broadcasts_S64x1x1_S64x56x56 : S64x1x1.Broadcasts S64x56x56
  shapeCasts_S64x56x56_S2x32x56x56 : S64x56x56.ShapeCasts S2x32x56x56
  reduces_S2x32x56x56_S2x56x56 : S2x32x56x56.Reduces [1] S2x56x56
  slices_S64x58x58_o0_0_1_S64x56x56 : S64x58x58.Slices ![0, 0, 1] S64x56x56
  slices_S64x3x3_o0_0_1_S64x1x1 : S64x3x3.Slices ![0, 0, 1] S64x1x1
  slices_S64x58x58_o0_0_2_S64x56x56 : S64x58x58.Slices ![0, 0, 2] S64x56x56
  slices_S64x3x3_o0_0_2_S64x1x1 : S64x3x3.Slices ![0, 0, 2] S64x1x1
  slices_S64x58x58_o0_1_0_S64x56x56 : S64x58x58.Slices ![0, 1, 0] S64x56x56
  slices_S64x3x3_o0_1_0_S64x1x1 : S64x3x3.Slices ![0, 1, 0] S64x1x1
  slices_S64x3x3_o0_1_1_S64x1x1 : S64x3x3.Slices ![0, 1, 1] S64x1x1
  slices_S64x58x58_o0_1_2_S64x56x56 : S64x58x58.Slices ![0, 1, 2] S64x56x56
  slices_S64x3x3_o0_1_2_S64x1x1 : S64x3x3.Slices ![0, 1, 2] S64x1x1
  slices_S64x58x58_o0_2_0_S64x56x56 : S64x58x58.Slices ![0, 2, 0] S64x56x56
  slices_S64x3x3_o0_2_0_S64x1x1 : S64x3x3.Slices ![0, 2, 0] S64x1x1
  slices_S64x58x58_o0_2_1_S64x56x56 : S64x58x58.Slices ![0, 2, 1] S64x56x56
  slices_S64x3x3_o0_2_1_S64x1x1 : S64x3x3.Slices ![0, 2, 1] S64x1x1
  slices_S64x58x58_o0_2_2_S64x56x56 : S64x58x58.Slices ![0, 2, 2] S64x56x56
  slices_S64x3x3_o0_2_2_S64x1x1 : S64x3x3.Slices ![0, 2, 2] S64x1x1
  shapeCasts_S2x56x56_S1x2x56x56 : S2x56x56.ShapeCasts S1x2x56x56
  concatenates_S1x2x56x56_S1x2x56x56_S1x2x56x56_S1x2x56x56_S1x2x56x56_S1x2x56x56_S1x2x56x56_S1x2x56x56_S1x2x56x56_S9x2x56x56_d0 : Shape.Concatenates [S1x2x56x56, S1x2x56x56, S1x2x56x56, S1x2x56x56, S1x2x56x56, S1x2x56x56, S1x2x56x56, S1x2x56x56, S1x2x56x56] S9x2x56x56 0
  transposes_S9x2x56x56_p1_0_2_3_S2x9x56x56 : S9x2x56x56.Transposes [1, 0, 2, 3] S2x9x56x56
  shapeCasts_S2x9x56x56_S18x56x56 : S2x9x56x56.ShapeCasts S18x56x56
  inb_S1x18x1x56x56_S1x18x1x56x56_0_0_0_0_0 : ∀ a, (![0, 0, 0, 0, 0] : Fin 5 → Nat) a + S1x18x1x56x56.size a ≤ S1x18x1x56x56.size a
  h_S1x18x1x56x56 : 0 < S1x18x1x56x56.numel
  shapeCasts_S1x18x1x56x56_S18x56x56 : S1x18x1x56x56.ShapeCasts S18x56x56
  shapeCasts_S18x56x56_S1x18x1x56x56 : S18x56x56.ShapeCasts S1x18x1x56x56
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x1x58x58.size a ≤ S4x256x16x58x58.size a
  hwx0_0 : ∀ i : grid0.Coords, EltTy.bits .f32 = 32 ∨ (Rect.block (s := S4x256x16x58x58) S1x64x1x58x58.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x1x58x58.size a ≤ S4x256x16x58x58.size a
  hwx0_1 : ∀ i : grid0.Coords, EltTy.bits .f32 = 32 ∨ (Rect.block (s := S4x256x16x58x58) S1x64x1x58x58.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1x3x3.size a ≤ S256x16x3x3.size a
  hwx0_2 : ∀ i : grid0.Coords, EltTy.bits .f32 = 32 ∨ (Rect.block (s := S256x16x3x3) S64x1x3x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x18x1x56x56.size a ≤ S4x72x16x56x56.size a
  hwx0_3 : ∀ i : grid0.Coords, EltTy.bits .f32 = 32 ∨ (Rect.block (s := S4x72x16x56x56) S1x18x1x56x56.size (cc0_transform_3 i) (hinb0_3 i)).WholeWords (EltTy.packing .f32)

variable [Facts₀]

abbrev win0_0 : Pipeline.Window sig grid0 :=
  Pipeline.Window.ofSpec (Memref.whole main_v0) S1x64x1x58x58.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64x1x58x58.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x1x3x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x18x1x56x56.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x256x16x56x56 : Shape := ⟨5, ![4, 256, 16, 56, 56]⟩
abbrev S256x16x3x3 : Shape := ⟨4, ![256, 16, 3, 3]⟩
abbrev S4x256x1x56x56 : Shape := ⟨5, ![4, 256, 1, 56, 56]⟩
abbrev S4x256x15x56x56 : Shape := ⟨5, ![4, 256, 15, 56, 56]⟩
abbrev S_ : Shape := ⟨0, ![]⟩
abbrev S4x256x16x58x58 : Shape := ⟨5, ![4, 256, 16, 58, 58]⟩
abbrev S256x16x1x1 : Shape := ⟨4, ![256, 16, 1, 1]⟩
abbrev S256x16 : Shape := ⟨2, ![256, 16]⟩
abbrev S1x256x16x1x1 : Shape := ⟨5, ![1, 256, 16, 1, 1]⟩
abbrev S4x8x32x16x56x56 : Shape := ⟨6, ![4, 8, 32, 16, 56, 56]⟩
abbrev S4x8x16x56x56 : Shape := ⟨5, ![4, 8, 16, 56, 56]⟩
abbrev S4x8x1x16x56x56 : Shape := ⟨6, ![4, 8, 1, 16, 56, 56]⟩
abbrev S4x8x9x16x56x56 : Shape := ⟨6, ![4, 8, 9, 16, 56, 56]⟩
abbrev S4x72x16x56x56 : Shape := ⟨5, ![4, 72, 16, 56, 56]⟩

abbrev nBuf : Space → Nat
  | .hbm => 109
  | .vmem => 0
  | .smem => 0
  | _ => 0

abbrev bufTy : (tb : Table) → Fin (tcTables nBuf tb) → BufTy
  | .hbm, ⟨0, _⟩ => ⟨S4x256x16x56x56, .f32⟩
  | .hbm, ⟨1, _⟩ => ⟨S256x16x3x3, .f32⟩
  | .hbm, ⟨2, _⟩ => ⟨S4x256x1x56x56, .f32⟩
  | .hbm, ⟨3, _⟩ => ⟨S4x256x15x56x56, .f32⟩
  | .hbm, ⟨4, _⟩ => ⟨S4x256x16x56x56, .f32⟩
  | .hbm, ⟨5, _⟩ => ⟨S_, .i32⟩
  | .hbm, ⟨6, _⟩ => ⟨S_, .f32⟩
  | .hbm, ⟨7, _⟩ => ⟨S4x256x16x58x58, .f32⟩
  | .hbm, ⟨8, _⟩ => ⟨S4x256x16x56x56, .f32⟩
  | .hbm, ⟨9, _⟩ => ⟨S256x16x1x1, .f32⟩
  | .hbm, ⟨10, _⟩ => ⟨S256x16, .f32⟩
  | .hbm, ⟨11, _⟩ => ⟨S4x256x16x56x56, .f32⟩
  | .hbm, ⟨12, _⟩ => ⟨S1x256x16x1x1, .f32⟩
  | .hbm, ⟨13, _⟩ => ⟨S4x256x16x56x56, .f32⟩
  | .hbm, ⟨14, _⟩ => ⟨S4x256x16x56x56, .f32⟩
  | .hbm, ⟨15, _⟩ => ⟨S4x8x32x16x56x56, .f32⟩
  | .hbm, ⟨16, _⟩ => ⟨S_, .f32⟩
  | .hbm, ⟨17, _⟩ => ⟨S4x8x16x56x56, .f32⟩
  | .hbm, ⟨18, _⟩ => ⟨S4x256x16x56x56, .f32⟩
  | .hbm, ⟨19, _⟩ => ⟨S256x16x1x1, .f32⟩
  | .hbm, ⟨20, _⟩ => ⟨S256x16, .f32⟩
  | .hbm, ⟨21, _⟩ => ⟨S4x256x16x56x56, .f32⟩
  | .hbm, ⟨22, _⟩ => ⟨S1x256x16x1x1, .f32⟩
  | .hbm, ⟨23, _⟩ => ⟨S4x256x16x56x56, .f32⟩
  | .hbm, ⟨24, _⟩ => ⟨S4x256x16x56x56, .f32⟩
  | .hbm, ⟨25, _⟩ => ⟨S4x8x32x16x56x56, .f32⟩
  | .hbm, ⟨26, _⟩ => ⟨S_, .f32⟩
  | .hbm, ⟨27, _⟩ => ⟨S4x8x16x56x56, .f32⟩
  | .hbm, ⟨28, _⟩ => ⟨S4x256x16x56x56, .f32⟩
  | .hbm, ⟨29, _⟩ => ⟨S256x16x1x1, .f32⟩
  | .hbm, ⟨30, _⟩ => ⟨S256x16, .f32⟩
  | .hbm, ⟨31, _⟩ => ⟨S4x256x16x56x56, .f32⟩
  | .hbm, ⟨32, _⟩ => ⟨S1x256x16x1x1, .f32⟩
  | .hbm, ⟨33, _⟩ => ⟨S4x256x16x56x56, .f32⟩
  | .hbm, ⟨34, _⟩ => ⟨S4x256x16x56x56, .f32⟩
  | .hbm, ⟨35, _⟩ => ⟨S4x8x32x16x56x56, .f32⟩
  | .hbm, ⟨36, _⟩ => ⟨S_, .f32⟩
  | .hbm, ⟨37, _⟩ => ⟨S4x8x16x56x56, .f32⟩
  | .hbm, ⟨38, _⟩ => ⟨S4x256x16x56x56, .f32⟩
  | .hbm, ⟨39, _⟩ => ⟨S256x16x1x1, .f32⟩
  | .hbm, ⟨40, _⟩ => ⟨S256x16, .f32⟩
  | .hbm, ⟨41, _⟩ => ⟨S4x256x16x56x56, .f32⟩
  | .hbm, ⟨42, _⟩ => ⟨S1x256x16x1x1, .f32⟩
  | .hbm, ⟨43, _⟩ => ⟨S4x256x16x56x56, .f32⟩
  | .hbm, ⟨44, _⟩ => ⟨S4x256x16x56x56, .f32⟩
  | .hbm, ⟨45, _⟩ => ⟨S4x8x32x16x56x56, .f32⟩
  | .hbm, ⟨46, _⟩ => ⟨S_, .f32⟩
  | .hbm, ⟨47, _⟩ => ⟨S4x8x16x56x56, .f32⟩
  | .hbm, ⟨48, _⟩ => ⟨S4x256x16x56x56, .f32⟩
  | .hbm, ⟨49, _⟩ => ⟨S256x16x1x1, .f32⟩
  | .hbm, ⟨50, _⟩ => ⟨S256x16, .f32⟩
  | .hbm, ⟨51, _⟩ => ⟨S4x256x16x56x56, .f32⟩
  | .hbm, ⟨52, _⟩ => ⟨S1x256x16x1x1, .f32⟩
  | .hbm, ⟨53, _⟩ => ⟨S4x256x16x56x56, .f32⟩
  | .hbm, ⟨54, _⟩ => ⟨S4x256x16x56x56, .f32⟩
  | .hbm, ⟨55, _⟩ => ⟨S4x8x32x16x56x56, .f32⟩
  | .hbm, ⟨56, _⟩ => ⟨S_, .f32⟩
  | .hbm, ⟨57, _⟩ => ⟨S4x8x16x56x56, .f32⟩
  | .hbm, ⟨58, _⟩ => ⟨S4x256x16x56x56, .f32⟩
  | .hbm, ⟨59, _⟩ => ⟨S256x16x1x1, .f32⟩
  | .hbm, ⟨60, _⟩ => ⟨S256x16, .f32⟩
  | .hbm, ⟨61, _⟩ => ⟨S4x256x16x56x56, .f32⟩
  | .hbm, ⟨62, _⟩ => ⟨S1x256x16x1x1, .f32⟩
  | .hbm, ⟨63, _⟩ => ⟨S4x256x16x56x56, .f32⟩
  | .hbm, ⟨64, _⟩ => ⟨S4x256x16x56x56, .f32⟩
  | .hbm, ⟨65, _⟩ => ⟨S4x8x32x16x56x56, .f32⟩
  | .hbm, ⟨66, _⟩ => ⟨S_, .f32⟩
  | .hbm, ⟨67, _⟩ => ⟨S4x8x16x56x56, .f32⟩
  | .hbm, ⟨68, _⟩ => ⟨S4x256x16x56x56, .f32⟩
  | .hbm, ⟨69, _⟩ => ⟨S256x16x1x1, .f32⟩
  | .hbm, ⟨70, _⟩ => ⟨S256x16, .f32⟩
  | .hbm, ⟨71, _⟩ => ⟨S4x256x16x56x56, .f32⟩
  | .hbm, ⟨72, _⟩ => ⟨S1x256x16x1x1, .f32⟩
  | .hbm, ⟨73, _⟩ => ⟨S4x256x16x56x56, .f32⟩
  | .hbm, ⟨74, _⟩ => ⟨S4x256x16x56x56, .f32⟩
  | .hbm, ⟨75, _⟩ => ⟨S4x8x32x16x56x56, .f32⟩
  | .hbm, ⟨76, _⟩ => ⟨S_, .f32⟩
  | .hbm, ⟨77, _⟩ => ⟨S4x8x16x56x56, .f32⟩
  | .hbm, ⟨78, _⟩ => ⟨S4x256x16x56x56, .f32⟩
  | .hbm, ⟨79, _⟩ => ⟨S256x16x1x1, .f32⟩
  | .hbm, ⟨80, _⟩ => ⟨S256x16, .f32⟩
  | .hbm, ⟨81, _⟩ => ⟨S4x256x16x56x56, .f32⟩
  | .hbm, ⟨82, _⟩ => ⟨S1x256x16x1x1, .f32⟩
  | .hbm, ⟨83, _⟩ => ⟨S4x256x16x56x56, .f32⟩
  | .hbm, ⟨84, _⟩ => ⟨S4x256x16x56x56, .f32⟩
  | .hbm, ⟨85, _⟩ => ⟨S4x8x32x16x56x56, .f32⟩
  | .hbm, ⟨86, _⟩ => ⟨S_, .f32⟩
  | .hbm, ⟨87, _⟩ => ⟨S4x8x16x56x56, .f32⟩
  | .hbm, ⟨88, _⟩ => ⟨S4x256x16x56x56, .f32⟩
  | .hbm, ⟨89, _⟩ => ⟨S256x16x1x1, .f32⟩
  | .hbm, ⟨90, _⟩ => ⟨S256x16, .f32⟩
  | .hbm, ⟨91, _⟩ => ⟨S4x256x16x56x56, .f32⟩
  | .hbm, ⟨92, _⟩ => ⟨S1x256x16x1x1, .f32⟩
  | .hbm, ⟨93, _⟩ => ⟨S4x256x16x56x56, .f32⟩
  | .hbm, ⟨94, _⟩ => ⟨S4x256x16x56x56, .f32⟩
  | .hbm, ⟨95, _⟩ => ⟨S4x8x32x16x56x56, .f32⟩
  | .hbm, ⟨96, _⟩ => ⟨S_, .f32⟩
  | .hbm, ⟨97, _⟩ => ⟨S4x8x16x56x56, .f32⟩
  | .hbm, ⟨98, _⟩ => ⟨S4x8x1x16x56x56, .f32⟩
  | .hbm, ⟨99, _⟩ => ⟨S4x8x1x16x56x56, .f32⟩
  | .hbm, ⟨100, _⟩ => ⟨S4x8x1x16x56x56, .f32⟩
  | .hbm, ⟨101, _⟩ => ⟨S4x8x1x16x56x56, .f32⟩
  | .hbm, ⟨102, _⟩ => ⟨S4x8x1x16x56x56, .f32⟩
  | .hbm, ⟨103, _⟩ => ⟨S4x8x1x16x56x56, .f32⟩
  | .hbm, ⟨104, _⟩ => ⟨S4x8x1x16x56x56, .f32⟩
  | .hbm, ⟨105, _⟩ => ⟨S4x8x1x16x56x56, .f32⟩
  | .hbm, ⟨106, _⟩ => ⟨S4x8x1x16x56x56, .f32⟩
  | .hbm, ⟨107, _⟩ => ⟨S4x8x9x16x56x56, .f32⟩
  | .hbm, ⟨108, _⟩ => ⟨S4x72x16x56x56, .f32⟩
  | _, _ => ⟨S4x256x16x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_1 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_cst_2 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_cst_3 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_cst_4 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_cst_5 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_cst_6 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_cst_7 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩

abbrev nD : Nat := 1
abbrev τ : Topo := Topo.v7x

variable {F : FTy → Type} [FloatOps F]

class Facts₀ : Prop where
  slices_S4x256x16x56x56_S4x256x1x56x56_0_0_0_0_0 : S4x256x16x56x56.Slices ![0, 0, 0, 0, 0] S4x256x1x56x56
  slices_S4x256x16x56x56_S4x256x15x56x56_0_0_0_0_0 : S4x256x16x56x56.Slices ![0, 0, 0, 0, 0] S4x256x15x56x56
  concatenates_S4x256x1x56x56_S4x256x15x56x56_S4x256x16x56x56_d2 : Shape.Concatenates [S4x256x1x56x56, S4x256x15x56x56] S4x256x16x56x56 2
  pads_S4x256x16x56x56_S4x256x16x58x58_000_000_000_110_110 : S4x256x16x56x56.Pads (![0, 0, 0, 1, 1] : Fin 5 → Nat) ![0, 0, 0, 1, 1] ![0, 0, 0, 0, 0] S4x256x16x58x58
  h_S_ : 0 < S_.numel
  slices_S4x256x16x58x58_S4x256x16x56x56_0_0_0_0_0 : S4x256x16x58x58.Slices ![0, 0, 0, 0, 0] S4x256x16x56x56
  slices_S256x16x3x3_S256x16x1x1_0_0_0_0 : S256x16x3x3.Slices ![0, 0, 0, 0] S256x16x1x1
  shapeCasts_S256x16x1x1_S256x16 : S256x16x1x1.ShapeCasts S256x16
  bcast_S256x16_S1x256x16x1x1_1_2 : S256x16.BroadcastsInDim S1x256x16x1x1 (![1, 2] : Fin 2 → Fin S1x256x16x1x1.rank)
  bcast_S1x256x16x1x1_S4x256x16x56x56_0_1_2_3_4 : S1x256x16x1x1.BroadcastsInDim S4x256x16x56x56 (![0, 1, 2, 3, 4] : Fin 5 → Fin S4x256x16x56x56.rank)
  shapeCasts_S4x256x16x56x56_S4x8x32x16x56x56 : S4x256x16x56x56.ShapeCasts S4x8x32x16x56x56
  reducesTo_S4x8x32x16x56x56_S4x8x16x56x56_d2 : S4x8x32x16x56x56.ReducesTo [2] S4x8x16x56x56
  slices_S4x256x16x58x58_S4x256x16x56x56_0_0_0_0_1 : S4x256x16x58x58.Slices ![0, 0, 0, 0, 1] S4x256x16x56x56
  slices_S256x16x3x3_S256x16x1x1_0_0_0_1 : S256x16x3x3.Slices ![0, 0, 0, 1] S256x16x1x1
  slices_S4x256x16x58x58_S4x256x16x56x56_0_0_0_0_2 : S4x256x16x58x58.Slices ![0, 0, 0, 0, 2] S4x256x16x56x56
  slices_S256x16x3x3_S256x16x1x1_0_0_0_2 : S256x16x3x3.Slices ![0, 0, 0, 2] S256x16x1x1
  slices_S4x256x16x58x58_S4x256x16x56x56_0_0_0_1_0 : S4x256x16x58x58.Slices ![0, 0, 0, 1, 0] S4x256x16x56x56
  slices_S256x16x3x3_S256x16x1x1_0_0_1_0 : S256x16x3x3.Slices ![0, 0, 1, 0] S256x16x1x1
  slices_S4x256x16x58x58_S4x256x16x56x56_0_0_0_1_1 : S4x256x16x58x58.Slices ![0, 0, 0, 1, 1] S4x256x16x56x56
  slices_S256x16x3x3_S256x16x1x1_0_0_1_1 : S256x16x3x3.Slices ![0, 0, 1, 1] S256x16x1x1
  slices_S4x256x16x58x58_S4x256x16x56x56_0_0_0_1_2 : S4x256x16x58x58.Slices ![0, 0, 0, 1, 2] S4x256x16x56x56
  slices_S256x16x3x3_S256x16x1x1_0_0_1_2 : S256x16x3x3.Slices ![0, 0, 1, 2] S256x16x1x1
  slices_S4x256x16x58x58_S4x256x16x56x56_0_0_0_2_0 : S4x256x16x58x58.Slices ![0, 0, 0, 2, 0] S4x256x16x56x56
  slices_S256x16x3x3_S256x16x1x1_0_0_2_0 : S256x16x3x3.Slices ![0, 0, 2, 0] S256x16x1x1
  slices_S4x256x16x58x58_S4x256x16x56x56_0_0_0_2_1 : S4x256x16x58x58.Slices ![0, 0, 0, 2, 1] S4x256x16x56x56
  slices_S256x16x3x3_S256x16x1x1_0_0_2_1 : S256x16x3x3.Slices ![0, 0, 2, 1] S256x16x1x1
  slices_S4x256x16x58x58_S4x256x16x56x56_0_0_0_2_2 : S4x256x16x58x58.Slices ![0, 0, 0, 2, 2] S4x256x16x56x56
  slices_S256x16x3x3_S256x16x1x1_0_0_2_2 : S256x16x3x3.Slices ![0, 0, 2, 2] S256x16x1x1
  bcast_S4x8x16x56x56_S4x8x1x16x56x56_0_1_3_4_5 : S4x8x16x56x56.BroadcastsInDim S4x8x1x16x56x56 (![0, 1, 3, 4, 5] : Fin 5 → Fin S4x8x1x16x56x56.rank)
  concatenates_S4x8x1x16x56x56_S4x8x1x16x56x56_S4x8x1x16x56x56_S4x8x1x16x56x56_S4x8x1x16x56x56_S4x8x1x16x56x56_S4x8x1x16x56x56_S4x8x1x16x56x56_S4x8x1x16x56x56_S4x8x9x16x56x56_d2 : Shape.Concatenates [S4x8x1x16x56x56, S4x8x1x16x56x56, S4x8x1x16x56x56, S4x8x1x16x56x56, S4x8x1x16x56x56, S4x8x1x16x56x56, S4x8x1x16x56x56, S4x8x1x16x56x56, S4x8x1x16x56x56] S4x8x9x16x56x56 2
  shapeCasts_S4x8x9x16x56x56_S4x72x16x56x56 : S4x8x9x16x56x56.ShapeCasts S4x72x16x56x56

variable [Facts₀]

class Facts : Prop extends Facts₀ where

variable [Facts]
-- ==== Proof.StoredBits.lean ====
/-
  What the kernel body stores into its output block, as ONE function of the three blocks it loads: the block `v0` of the padded
  clip at the current frame, the block `v2` of the padded clip at the previous frame and the weight block `v4`. The body's nine
  taps are nine group sums, stacked tap-major, transposed to group-major and flattened to the block's 18 channels.
-/
import proofs.«164966_j19069654794413_2_alg».proof.Proof.Gen.Kernel.Skeleton

noncomputable section

namespace Cert.Kernel.Hand

open Cert.Kernel Cert.Kernel.Gen Idealize.ShloMosaic

variable {F : FTy → Type} [FloatOps F]

/-- The stored value: the nine group sums of `(v2 centre crop · v0 shifted by the tap) · v4 at the tap`, arranged group-major. -/
def stored (v0 v2 : Vec F S1x64x1x58x58 .f32) (v4 : Vec F S64x1x3x3 .f32) : FVec F S1x18x1x56x56 .f32 :=
  k0_pay1 (k0_pay10 (k0_pay2 v0) (k0_pay3 v4) (k0_pay4 v2)) (k0_pay11 (k0_pay2 v0) (k0_pay3 v4) (k0_pay4 v2))
    (k0_pay12 (k0_pay2 v0) (k0_pay3 v4) (k0_pay4 v2)) (k0_pay13 (k0_pay5 v0 v2 v4)) (k0_pay14 (k0_pay6 v0 v2 v4))
    (k0_pay15 (k0_pay7 v0 v2 v4)) (k0_pay16 (k0_pay8 v0 v2) (k0_pay9 v4)) (k0_pay17 (k0_pay2 v0) (k0_pay3 v4) (k0_pay4 v2))
    (k0_pay18 (k0_pay2 v0) (k0_pay3 v4) (k0_pay4 v2))

end Cert.Kernel.Hand

end
-- ==== Proof.LibSharedFrame.lean ====
/-
  The frame run of a one-region pipeline program whose INPUT windows may window ONE array several times
  (a kernel handed one tensor through several `in_specs`, each reading a different block of it).

  When every window has an array of its own, each array is held whole at the full share and the pipeline's
  `arrays` is the buffers behind them, one for one. When two input windows sit on one array that buffer
  is ONE points-to, and the full share has to be dealt between the windows on it; how is the proof's to say
  (`hsplit`). Everything else is as for distinct arrays: no semaphore of the kernel's own, the region's
  invariant entered from the core's scoped rest and returned to it, the unscoped buffers that are no window's
  array bypassing the region and read back at the end. The conclusion is the library's `FramePost`: every
  window's array at `Dat.arrAt w N` (windows on one array end holding the same contents), every other
  unscoped buffer at its region-entry contents.

  `split_two` is the one fact about shares that is needed: a buffer whole at the full share is the same
  buffer held twice, at the two halves of the full share.
-/
import Idealize.ShloMosaic.Lib.Pipeline.Frame

noncomputable section

namespace Idealize.ShloMosaic

open Idealize.SL
open Idealize.SL.BI (sProp bigSep bigSep_map)
open scoped Idealize.SL.BI
open Idealize.SL.BI.BIBase Idealize.SL.BI.Laws Idealize.SL.Sem Idealize.SL.ProofMode
open Idealize.SL.RA
open TcCoe

namespace Pipeline

open Idealize.ShloMosaic.Rounds

variable {nD : Nat} {τ : Topo} {sig : RefSig} {Val : EltTy → Type}
variable {Λ₀ : SL.Sem.Labels} {P : Type} [Fintype P] [DecidableEq P] [∀ e, Nonempty (Val e)]

local notation "𝕄" => MT nD τ sig Unit Val ℕ (UR sig nD τ) ℕ

/-- A location held whole at the full share is held at its left half and at its right half, at the same
    contents: the two halves compose to the full share. -/
theorem split_two {ℓ : Loc nD τ sig} (f : Buf Val ℓ) :
    (ℓ ↦{fullShare} f : sProp 𝕄) ⊢ iprop((ℓ ↦{fullShare.left} f) ∗ ℓ ↦{fullShare.right} f) :=
  (pointsTo_share (PosShare.mem_left_op_right fullShare)).1

/-- The buffers behind the windows' arrays, listed without repetition: `arrBufs` as the list's `∗`-chain. -/
theorem arrBufs_eq_of_list {gr : Nat} {W : Nat} (win : Fin W → WinSpec sig gr) (c : Dev nD)
    (V : (b : Ref sig .tc) → Buf Val ((c.tc : Thread nD τ).loc b)) (l : List (Ref sig .tc))
    (h : Finset.univ.image (arrRef win) = l.toFinset) (hl : l.Nodup) :
    (arrBufs (Ix := Unit) (Name := ℕ) (U := UR sig nD τ) (Lvl := ℕ) win c V : sProp 𝕄)
      = BI.bigSepL l fun b => ((c.tc : Thread nD τ).loc b) ↦{fullShare} V b := by
  unfold arrBufs; exact BI.bigSep_eq_bigSepL_of_eq l h hl _

variable (cfgs : P → Cfg sig Λ₀)
  (dats : (p : P) → (c : Dev nD) → Dat τ Val Unit ℕ (UR sig nD τ) ℕ (cfgs p) c) (p : P)
  (hinj : Function.Injective (cellOf (nD := nD) (τ := τ) cfgs)) (hw : WinFacts₀ (cfgs p).spec)
  (defs₀ : Defs nD τ sig Val Λ₀) (𝒱₀ : Variants)

local notation "cfg" => cfgs p
local notation "𝔻" => Pipeline.defs (fun q => Cfg.toPCfg (Val := Val) (cfgs q)) defs₀

include hinj hw in
/-- THE FRAME RUN for windows that may share arrays. As `θ_run_frame_track`, with the layout facts by name
    (the windows' arrays need not be distinct, so there is no bundle of them) and with `hsplit`: the buffers
    behind the arrays, each whole at the full share at the region-entry contents `V`, make the proof data's
    arrays at entry, each at the share the data give it. The invariant is entered from the scoped rest and
    returned to it. -/
theorem θ_run_frame_sharing
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfg).W, 0 < ((cfg).spec w).block.numel)
    (harr : ∀ w, ((cfg).spec w).arr.IsWhole) (hstage : ∀ w s, (((cfg).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfg).spec c (V c) : sProp 𝕄) ⊢ (dats p c).arrays ((dats p c).arrAt · 0))
    (hin : ∀ c, (scopedRest (cfg).spec c : sProp 𝕄) ⊢ (dats p c).Φ 0)
    (hout : ∀ c, (dats p c).Φ (Fin.last (cfg).N) ⊢ (scopedRest (cfg).spec c : sProp 𝕄)) :
    θ_run 𝔻 (onTc main) (s₀ m g) (FramePost cfgs dats p V) := by
  classical
  exact θ_run_region_noSem_shared cfgs dats () hinj p hw emb₁ defs₀ 𝒱₀ m g main hbody hne harr hstage howed
    (u₀ := initOf (cells cfgs hinj) (launchToks cfgs hinj)) (hu₀ := .rfl)
    (V := V) (hmain := hmain) (hsplit := hsplit)
    (X := fun _ => iprop(emp)) (Y := fun _ => iprop(emp))
    (Z := fun c => unscopedRest (Ix := Unit) (Name := ℕ) (U := UR sig nD τ) (Lvl := ℕ) (cfg).spec c (V c))
    (hX := fun c => by iintro H; isplitr; · iempintro
                       iexact H)
    (hin := fun c => (show _ ⊢ (scopedRest (cfg).spec c : sProp 𝕄) from by iintro ⟨-, H⟩; iexact H).trans (hin c))
    (hout := fun c => (hout c).trans (by iintro H; isplitr; · iempintro
                                         iexact H))
    (QY := fun c s => ∀ b ∈ restRefs sig (cfg).spec, s.mem ((c.tc : Thread nD τ).loc b) = V c b)
    (hY := fun c s' => by
      iintro ⟨-, HU, HSI⟩
      unfold unscopedRest
      imodintro
      iapply (pointsTo_read_all (restRefs sig (cfg).spec) (fun b => (c.tc : Thread nD τ).loc b) (V c) s')
      isplitl [HU] <;> iassumption)
    (hQ := fun s h c => ⟨(h c).1, (h c).2⟩)

end Pipeline

end Idealize.ShloMosaic

end
-- ==== Proof.FrameBits.lean ====
/-
  The frame run of the kernel's program as printed: @main pads the clip on the host, then launches ONE region whose first two input
  windows both window the padded clip (the current frame's block and the previous frame's block of the same 64 channels), the
  third the weight, the fourth the result.

  The region's grid has 256 points (batch 4 × frame 16 × channel block 4). At each point the body loads its three input blocks
  whole, computes, and stores its output block whole; it keeps nothing between points. So after the body the output's staging
  buffer holds `stored` of the three input blocks (`out0_3`), each input's buffer its block, and the run ends with the result
  array at the library's `Dat.arrAt` of these per-point blocks, the argument arrays unchanged.

  The padded clip's buffer is ONE points-to handed to two windows: its full share is dealt in two halves (`hsplit`), window 0
  reading at the left half and window 1 at the right. The region's invariant is the core's scoped rest (the kernel has no scratch).
-/
import proofs.«164966_j19069654794413_2_alg».proof.Proof.Gen.Kernel.Launch
import proofs.«164966_j19069654794413_2_alg».proof.Proof.Gen.Kernel.Skeleton
import proofs.«164966_j19069654794413_2_alg».proof.Proof.Gen.Kernel.Points
import proofs.«164966_j19069654794413_2_alg».proof.Proof.StoredBits
import proofs.«164966_j19069654794413_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that build the padding value and pad the clip. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main up to the region: the two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes the clip: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes the weight: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

abbrev r0_0 : Rect S1x64x1x58x58 := Rect.unit (s := S1x64x1x58x58) ![0, 0, 0, 0, 0] S1x64x1x58x58.size inb_S1x64x1x58x58_S1x64x1x58x58_0_0_0_0_0
abbrev r0_2 : Rect S64x1x3x3 := Rect.unit (s := S64x1x3x3) ![0, 0, 0, 0] S64x1x3x3.size inb_S64x1x3x3_S64x1x3x3_0_0_0_0
abbrev r0_3 : Rect S1x18x1x56x56 := Rect.unit (s := S1x18x1x56x56) ![0, 0, 0, 0, 0] S1x18x1x56x56.size inb_S1x18x1x56x56_S1x18x1x56x56_0_0_0_0_0

/-- The output window's staging buffer after the body: its one store, of `stored` of the three loaded blocks. -/
def out0_3 (x0 x1 : Vec F S1x64x1x58x58 .f32) (x2 : Vec F S64x1x3x3 .f32) : Vec F S1x18x1x56x56 .f32 :=
  View.canon [⟨r0_3, stored (View.ld x0 r0_0) (View.ld x1 r0_0) (View.ld x2 r0_2)⟩]

/-- The store is of the whole block, so it covers the buffer. -/
theorem cover0_3 (p0 : Vec F S1x18x1x56x56 .f32) (y : S1x18x1x56x56.Idx) :
    ∃ pc ∈ ([⟨r0_3, p0⟩] : List (View.Piece (Elt F) S1x18x1x56x56 .f32)), y ∈ pc.1.set :=
  View.cover_of_tiled [⟨r0_3, p0⟩] S1x18x1x56x56.size (by rfl) y

/-! ## The body's triple -/

set_option maxHeartbeats 4000000 in
/-- The kernel body on whole staging memrefs, the inputs' at contents `x0 x1 x2` and the output's at anything, runs to the
    continuation holding the inputs' as they were and the output's at `out0_3` of them. -/
theorem sound_kernel (c : Dev nD) (E : Set ℕ) (i : grid0.Coords) (arg3 : Memref sig .tc .vmem S1x64x1x58x58 .f32) (harg3 : arg3.IsWhole)
    (arg4 : Memref sig .tc .vmem S1x64x1x58x58 .f32) (harg4 : arg4.IsWhole) (arg5 : Memref sig .tc .vmem S64x1x3x3 .f32) (harg5 : arg5.IsWhole)
    (arg6 : Memref sig .tc .vmem S1x18x1x56x56 .f32) (harg6 : arg6.IsWhole)
    (x0 x1 : Vec F S1x64x1x58x58 .f32) (x2 : Vec F S64x1x3x3 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out0_3 x0 x1 x2)) -∗ K ⟨⟩))
      ⊢ wp frame (wpE (defs₀ (F := F)) Variants.none c none) E (cc0__tc_kernel i arg3 harg3 arg4 harg4 arg5 harg5 arg6 harg6) K := by
  simp only [cc0__tc_kernel_eq_skeleton]; unfold cc0__tc_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.Kernel.Hand

end
-- ==== Proof.RunBits.lean ====
/-
  The proof data of the region and its run. After the body at point `t` each input's staging buffer holds its block and the
  output's holds `out0_3` of the three input blocks; the invariant is the core's scoped rest; nothing is owed. The padded clip's
  array is read by windows 0 and 1 at the two halves of the full share, the weight's and the result's arrays are held whole.
-/
import proofs.«164966_j19069654794413_2_alg».proof.Proof.FrameBits

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The padded clip's share dealt to its two windows -/

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Pipeline.arrBufs_eq_of_list spec0 c (V m c) [main_v0, main_arg1, main_v1] (by decide) (by decide)]
  unfold Dat.arrays
  rw [bigSep_W0]
  have hset0 : (cfg0.win 0).arr.view.set = Finset.univ := (arr_whole0 0).set_eq_univ
  have hset2 : (cfg0.win 2).arr.view.set = Finset.univ := (arr_whole0 2).set_eq_univ
  have hset3 : (cfg0.win 3).arr.view.set = Finset.univ := (arr_whole0 3).set_eq_univ
  rw [hset0, hset2, hset3]
  show iprop((((c.tc : Thread nD τ).loc main_v0) ↦{fullShare} V m c main_v0) ∗ (((c.tc : Thread nD τ).loc main_arg1) ↦{fullShare} V m c main_arg1)
      ∗ (((c.tc : Thread nD τ).loc main_v1) ↦{fullShare} V m c main_v1)) ⊢ _
  iintro ⟨H0, H2, H3⟩
  ihave H01 := (Pipeline.split_two (V m c main_v0)) $$ H0
  icases H01 with ⟨Hl, Hr⟩
  isplitl [Hl]
  · iexact Hl
  isplitl [Hr]
  · iexact Hr
  isplitl [H2]
  · iexact H2
  iexact H3

/-! ## The run -/

set_option backward.isDefEq.respectTransparency.types false in
/-- Every weakly fair execution of @main terminates, and every final state has each windowed array at what the library computes
    from the proof data and every other unscoped buffer as the region found it. -/
theorem run_main : θ_run defs (onTc (τ := τ) (main (F := F))) (s₀ m ρ) (Pipeline.FramePost cfgs (dats m) 0 (V m)) :=
  Pipeline.θ_run_frame_sharing cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the clip and the weight end as launched. The clip's buffer bypasses the region (no window stages it: the windows
    stage its padded copy); the weight is an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (V_main_arg0 m c),
      ((h c).1 2).trans (((dats m 0 c).arrAt_in 2 rfl _).trans ((A_eq m c 2).trans (V_main_arg1 m c)))⟩) (run_main m ρ)

end Cert.Kernel.Hand

end
-- ==== Proof.StoredIdeal.lean ====
/-
  What the kernel body stores into its output block, as ONE function of the three blocks it loads: the block `v0` of the padded
  clip at the current frame, the block `v2` of the padded clip at the previous frame and the weight block `v4`. The body's nine
  taps are nine group sums, stacked tap-major, transposed to group-major and flattened to the block's 18 channels.
-/
import proofs.«164966_j19069654794413_2_alg».proof.Proof.Gen.KernelIdeal.Skeleton

noncomputable section

namespace Cert.KernelIdeal.Hand

open Cert.KernelIdeal Cert.KernelIdeal.Gen Idealize.ShloMosaic

variable {F : FTy → Type} [FloatOps F]

/-- The stored value: the nine group sums of `(v2 centre crop · v0 shifted by the tap) · v4 at the tap`, arranged group-major. -/
def stored (v0 v2 : Vec F S1x64x1x58x58 .f32) (v4 : Vec F S64x1x3x3 .f32) : FVec F S1x18x1x56x56 .f32 :=
  k0_pay1 (k0_pay10 (k0_pay2 v0) (k0_pay3 v4) (k0_pay4 v2)) (k0_pay11 (k0_pay2 v0) (k0_pay3 v4) (k0_pay4 v2))
    (k0_pay12 (k0_pay2 v0) (k0_pay3 v4) (k0_pay4 v2)) (k0_pay13 (k0_pay5 v0 v2 v4)) (k0_pay14 (k0_pay6 v0 v2 v4))
    (k0_pay15 (k0_pay7 v0 v2 v4)) (k0_pay16 (k0_pay8 v0 v2) (k0_pay9 v4)) (k0_pay17 (k0_pay2 v0) (k0_pay3 v4) (k0_pay4 v2))
    (k0_pay18 (k0_pay2 v0) (k0_pay3 v4) (k0_pay4 v2))

end Cert.KernelIdeal.Hand

end
-- ==== Proof.FrameIdeal.lean ====
/-
  The frame run of the idealized kernel's program: @main pads the clip on the host, then launches ONE region whose first two input
  windows both window the padded clip (the current frame's block and the previous frame's block of the same 64 channels), the
  third the weight, the fourth the result.

  The region's grid has 256 points (batch 4 × frame 16 × channel block 4). At each point the body loads its three input blocks
  whole, computes, and stores its output block whole; it keeps nothing between points. So after the body the output's staging
  buffer holds `stored` of the three input blocks (`out0_3`), each input's buffer its block, and the run ends with the result
  array at the library's `Dat.arrAt` of these per-point blocks, the argument arrays unchanged.

  The padded clip's buffer is ONE points-to handed to two windows: its full share is dealt in two halves (`hsplit`), window 0
  reading at the left half and window 1 at the right. The region's invariant is the core's scoped rest (the kernel has no scratch).
-/
import proofs.«164966_j19069654794413_2_alg».proof.Proof.Gen.KernelIdeal.Launch
import proofs.«164966_j19069654794413_2_alg».proof.Proof.Gen.KernelIdeal.Skeleton
import proofs.«164966_j19069654794413_2_alg».proof.Proof.Gen.KernelIdeal.Points
import proofs.«164966_j19069654794413_2_alg».proof.Proof.StoredIdeal
import proofs.«164966_j19069654794413_2_alg».proof.Proof.LibSharedFrame
import Idealize.ShloMosaic.Lib.Pipeline.FrameBody
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s buffers when the region is entered: after the host operations that build the padding value and pad the clip. -/
abbrev V (c : Dev nD) (b : Ref sig .tc) : Buf (Elt F) ((c : Thread nD τ).loc b) :=
  StableHlo.after (List.flatten [hostOps0, hostOps0_1]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor

/-- @main up to the region: the two stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1] (by simp only [List.Forall]; exact ⟨hostOps0_sub, hostOps0_1_sub⟩)
    (by simp only [List.Forall]; exact ⟨hostOps0_fresh, hostOps0_1_fresh⟩) main_chain

/-- No host operation before the region writes the clip: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
/-- No host operation before the region writes the weight: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data whose array is the region-entry
    contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's accesses and what it leaves in the output's buffer -/

abbrev r0_0 : Rect S1x64x1x58x58 := Rect.unit (s := S1x64x1x58x58) ![0, 0, 0, 0, 0] S1x64x1x58x58.size inb_S1x64x1x58x58_S1x64x1x58x58_0_0_0_0_0
abbrev r0_2 : Rect S64x1x3x3 := Rect.unit (s := S64x1x3x3) ![0, 0, 0, 0] S64x1x3x3.size inb_S64x1x3x3_S64x1x3x3_0_0_0_0
abbrev r0_3 : Rect S1x18x1x56x56 := Rect.unit (s := S1x18x1x56x56) ![0, 0, 0, 0, 0] S1x18x1x56x56.size inb_S1x18x1x56x56_S1x18x1x56x56_0_0_0_0_0

/-- The output window's staging buffer after the body: its one store, of `stored` of the three loaded blocks. -/
def out0_3 (x0 x1 : Vec F S1x64x1x58x58 .f32) (x2 : Vec F S64x1x3x3 .f32) : Vec F S1x18x1x56x56 .f32 :=
  View.canon [⟨r0_3, stored (View.ld x0 r0_0) (View.ld x1 r0_0) (View.ld x2 r0_2)⟩]

/-- The store is of the whole block, so it covers the buffer. -/
theorem cover0_3 (p0 : Vec F S1x18x1x56x56 .f32) (y : S1x18x1x56x56.Idx) :
    ∃ pc ∈ ([⟨r0_3, p0⟩] : List (View.Piece (Elt F) S1x18x1x56x56 .f32)), y ∈ pc.1.set :=
  View.cover_of_tiled [⟨r0_3, p0⟩] S1x18x1x56x56.size (by rfl) y

/-! ## The body's triple -/

set_option maxHeartbeats 4000000 in
/-- The kernel body on whole staging memrefs, the inputs' at contents `x0 x1 x2` and the output's at anything, runs to the
    continuation holding the inputs' as they were and the output's at `out0_3` of them. -/
theorem sound_kernel (c : Dev nD) (E : Set ℕ) (i : grid0.Coords) (arg3 : Memref sig .tc .vmem S1x64x1x58x58 .f32) (harg3 : arg3.IsWhole)
    (arg4 : Memref sig .tc .vmem S1x64x1x58x58 .f32) (harg4 : arg4.IsWhole) (arg5 : Memref sig .tc .vmem S64x1x3x3 .f32) (harg5 : arg5.IsWhole)
    (arg6 : Memref sig .tc .vmem S1x18x1x56x56 .f32) (harg6 : arg6.IsWhole)
    (x0 x1 : Vec F S1x64x1x58x58 .f32) (x2 : Vec F S64x1x3x3 .f32) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ (iprop(owns (c : Thread nD τ) arg3 fullShare x0 ∗ owns (c : Thread nD τ) arg4 fullShare x1 ∗ owns (c : Thread nD τ) arg5 fullShare x2
            ∗ owns (c : Thread nD τ) arg6 fullShare (out0_3 x0 x1 x2)) -∗ K ⟨⟩))
      ⊢ wp frame (wpE (defs₀ (F := F)) Variants.none c none) E (cc0__tc_kernel i arg3 harg3 arg4 harg4 arg5 harg5 arg6 harg6) K := by
  simp only [cc0__tc_kernel_eq_skeleton]; unfold cc0__tc_kernel_skel
  simp only [k0_part1_eq_skeleton, k0_part2_eq_skeleton]
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

end Cert.KernelIdeal.Hand

end
-- ==== Proof.RunIdeal.lean ====
/-
  The proof data of the region and its run. After the body at point `t` each input's staging buffer holds its block and the
  output's holds `out0_3` of the three input blocks; the invariant is the core's scoped rest; nothing is owed. The padded clip's
  array is read by windows 0 and 1 at the two halves of the full share, the weight's and the result's arrays are held whole.
-/
import proofs.«164966_j19069654794413_2_alg».proof.Proof.FrameIdeal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.scopedRest (Ix := Unit) (Name := ℕ) (U := UR sig nD τ) (Lvl := ℕ) (Val := Elt F) spec0 c
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The padded clip's share dealt to its two windows -/

theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Pipeline.arrBufs_eq_of_list spec0 c (V m c) [main_v0, main_arg1, main_v1] (by decide) (by decide)]
  unfold Dat.arrays
  rw [bigSep_W0]
  have hset0 : (cfg0.win 0).arr.view.set = Finset.univ := (arr_whole0 0).set_eq_univ
  have hset2 : (cfg0.win 2).arr.view.set = Finset.univ := (arr_whole0 2).set_eq_univ
  have hset3 : (cfg0.win 3).arr.view.set = Finset.univ := (arr_whole0 3).set_eq_univ
  rw [hset0, hset2, hset3]
  show iprop((((c.tc : Thread nD τ).loc main_v0) ↦{fullShare} V m c main_v0) ∗ (((c.tc : Thread nD τ).loc main_arg1) ↦{fullShare} V m c main_arg1)
      ∗ (((c.tc : Thread nD τ).loc main_v1) ↦{fullShare} V m c main_v1)) ⊢ _
  iintro ⟨H0, H2, H3⟩
  ihave H01 := (Pipeline.split_two (V m c main_v0)) $$ H0
  icases H01 with ⟨Hl, Hr⟩
  isplitl [Hl]
  · iexact Hl
  isplitl [Hr]
  · iexact Hr
  isplitl [H2]
  · iexact H2
  iexact H3

/-! ## The run -/

set_option backward.isDefEq.respectTransparency.types false in
/-- Every weakly fair execution of @main terminates, and every final state has each windowed array at what the library computes
    from the proof data and every other unscoped buffer as the region found it. -/
theorem run_main : θ_run defs (onTc (τ := τ) (main (F := F))) (s₀ m ρ) (Pipeline.FramePost cfgs (dats m) 0 (V m)) :=
  Pipeline.θ_run_frame_sharing cfgs (dats m) (0 : Fin 1) cellOf_inj winFacts₀0 defs₀ Variants.none m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- The frame: the clip and the weight end as launched. The clip's buffer bypasses the region (no window stages it: the windows
    stage its padded copy); the weight is an input window's array, never written. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Pipeline.mem_restRefs_of main_arg0 rfl (by decide))).trans (V_main_arg0 m c),
      ((h c).1 2).trans (((dats m 0 c).arrAt_in 2 rfl _).trans ((A_eq m c 2).trans (V_main_arg1 m c)))⟩) (run_main m ρ)

end Cert.KernelIdeal.Hand

end
-- ==== Proof.RefWinA.lean ====
/-
  The reference program's first stretch of host operations, read as a step on the device's buffer contents: from any contents `W`
  it leaves the delayed clip (frame t of the result is frame t − 1 of the clip, frame 0 repeated) and the zero-padded clip, each as the
  stage function of the clip `W` holds, and touches no other buffer that later stretches read.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsA : List (HloOp τ sig (Elt F)) :=
  [ unary main_arg0 main_v0 ((extractStridedSlice S4x256x1x56x56 ![0, 0, 0, 0, 0] · slices_S4x256x16x56x56_S4x256x1x56x56_0_0_0_0_0) : (⟨S4x256x16x56x56, .f32⟩ : BufTy).Contents (Elt F) → (⟨S4x256x1x56x56, .f32⟩ : BufTy).Contents (Elt F)),
    unary main_arg0 main_v1 ((extractStridedSlice S4x256x15x56x56 ![0, 0, 0, 0, 0] · slices_S4x256x16x56x56_S4x256x15x56x56_0_0_0_0_0) : (⟨S4x256x16x56x56, .f32⟩ : BufTy).Contents (Elt F) → (⟨S4x256x15x56x56, .f32⟩ : BufTy).Contents (Elt F)),
    binary main_v0 main_v1 main_v2 ((fun a b => concatenate S4x256x16x56x56 2 [⟨S4x256x1x56x56, a⟩, ⟨S4x256x15x56x56, b⟩] concatenates_S4x256x1x56x56_S4x256x15x56x56_S4x256x16x56x56_d2) : (⟨S4x256x1x56x56, .f32⟩ : BufTy).Contents (Elt F) → (⟨S4x256x15x56x56, .f32⟩ : BufTy).Contents (Elt F) → (⟨S4x256x16x56x56, .f32⟩ : BufTy).Contents (Elt F)),
    nullary main_c (constantI S_ 32 0#32),
    TRef.unary (TRef.of (T := ⟨S_, .i32⟩) main_c) (TRef.of (T := ⟨S_, .f32⟩) main_call0_v0) (sitofp .f32),
    TRef.binary (TRef.of (T := ⟨S4x256x16x56x56, .f32⟩) main_arg0) (TRef.of (T := ⟨S_, .f32⟩) main_call0_v0) (TRef.of (T := ⟨S4x256x16x58x58, .f32⟩) main_v3) (fun x v => pad S4x256x16x58x58 ![0, 0, 0, 1, 1] ![0, 0, 0, 1, 1] ![0, 0, 0, 0, 0] x v pads_S4x256x16x56x56_S4x256x16x58x58_000_000_000_110_110 h_S_) ]
/-- The buffers the stretch writes. -/
abbrev opsA_W : List (Ref sig .tc) := [main_v0, main_v1, main_v2, main_c, main_call0_v0, main_v3]
theorem opsA_writes : (opsA : List (HloOp τ sig (Elt F))).Forall fun op => op.writes ⊆ (opsA_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepA (W : Valuation τ sig (Elt F)) (r : Ref sig .tc) (h : r ∉ opsA_W) :
    after opsA W (Proc.devRef .tc r) = W (Proc.devRef .tc r) :=
  after_of_writes_sub opsA _ opsA_writes h

/-- After the stretch the delayed clip's buffer holds its stage of the clip. -/
theorem valueA_v2 (W : Valuation τ sig (Elt F)) :
    after opsA W (Proc.devRef .tc main_v2) = val_main_v2 (F := F) (W (Proc.devRef .tc main_arg0)) := by
  simp only [opsA]
  after_results_simp
  rfl
/-- After the stretch the padded clip's buffer holds its stage of the clip. -/
theorem valueA_v3 (W : Valuation τ sig (Elt F)) :
    after opsA W (Proc.devRef .tc main_v3) = val_main_v3 (F := F) (W (Proc.devRef .tc main_arg0)) := by
  simp only [opsA]
  after_results_simp
  rfl

end Cert.ReferenceIdeal.Hand

end
-- ==== Proof.RefWinT1.lean ====
/-
  The reference program's stretch of host operations for tap (0, 0): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT1 : List (HloOp τ sig (Elt F)) :=
  [ unary main_v3 main_v4 ((extractStridedSlice S4x256x16x56x56 ![0, 0, 0, 0, 0] · slices_S4x256x16x58x58_S4x256x16x56x56_0_0_0_0_0) : (⟨S4x256x16x58x58, .f32⟩ : BufTy).Contents (Elt F) → (⟨S4x256x16x56x56, .f32⟩ : BufTy).Contents (Elt F)),
    unary main_arg1 main_v5 ((extractStridedSlice S256x16x1x1 ![0, 0, 0, 0] · slices_S256x16x3x3_S256x16x1x1_0_0_0_0) : (⟨S256x16x3x3, .f32⟩ : BufTy).Contents (Elt F) → (⟨S256x16x1x1, .f32⟩ : BufTy).Contents (Elt F)),
    reshape main_v5 main_v6 rfl shapeCasts_S256x16x1x1_S256x16,
    binary main_v2 main_v4 main_v7 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v6 main_v8 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v8 main_v9 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v7 main_v9 main_v10 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v10 main_v11 rfl shapeCasts_S4x256x16x56x56_S4x8x32x16x56x56,
    nullary main_cst (constant S_ .f32 0x00000000#32),
    binary main_v11 main_cst main_v12 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT1_W : List (Ref sig .tc) := [main_v4, main_v5, main_v6, main_v7, main_v8, main_v9, main_v10, main_v11, main_cst, main_v12]
theorem opsT1_writes : (opsT1 : List (HloOp τ sig (Elt F))).Forall fun op => op.writes ⊆ (opsT1_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT1 (W : Valuation τ sig (Elt F)) (r : Ref sig .tc) (h : r ∉ opsT1_W) :
    after opsT1 W (Proc.devRef .tc r) = W (Proc.devRef .tc r) :=
  after_of_writes_sub opsT1 _ opsT1_writes h

/-- After the stretch the tap's group-sum buffer holds its stage of the arguments. -/
theorem valueT1 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT1 W (Proc.devRef .tc main_v12) = val_main_v12 (F := F) x w := by
  simp only [opsT1]
  after_results_simp
  rw [h2, h3, h1]
  rfl

end Cert.ReferenceIdeal.Hand

end
-- ==== Proof.RefWinT2.lean ====
/-
  The reference program's stretch of host operations for tap (0, 1): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT2 : List (HloOp τ sig (Elt F)) :=
  [ unary main_v3 main_v13 ((extractStridedSlice S4x256x16x56x56 ![0, 0, 0, 0, 1] · slices_S4x256x16x58x58_S4x256x16x56x56_0_0_0_0_1) : (⟨S4x256x16x58x58, .f32⟩ : BufTy).Contents (Elt F) → (⟨S4x256x16x56x56, .f32⟩ : BufTy).Contents (Elt F)),
    unary main_arg1 main_v14 ((extractStridedSlice S256x16x1x1 ![0, 0, 0, 1] · slices_S256x16x3x3_S256x16x1x1_0_0_0_1) : (⟨S256x16x3x3, .f32⟩ : BufTy).Contents (Elt F) → (⟨S256x16x1x1, .f32⟩ : BufTy).Contents (Elt F)),
    reshape main_v14 main_v15 rfl shapeCasts_S256x16x1x1_S256x16,
    binary main_v2 main_v13 main_v16 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v15 main_v17 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v17 main_v18 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v16 main_v18 main_v19 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v19 main_v20 rfl shapeCasts_S4x256x16x56x56_S4x8x32x16x56x56,
    nullary main_cst_0 (constant S_ .f32 0x00000000#32),
    binary main_v20 main_cst_0 main_v21 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT2_W : List (Ref sig .tc) := [main_v13, main_v14, main_v15, main_v16, main_v17, main_v18, main_v19, main_v20, main_cst_0, main_v21]
theorem opsT2_writes : (opsT2 : List (HloOp τ sig (Elt F))).Forall fun op => op.writes ⊆ (opsT2_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT2 (W : Valuation τ sig (Elt F)) (r : Ref sig .tc) (h : r ∉ opsT2_W) :
    after opsT2 W (Proc.devRef .tc r) = W (Proc.devRef .tc r) :=
  after_of_writes_sub opsT2 _ opsT2_writes h

/-- After the stretch the tap's group-sum buffer holds its stage of the arguments. -/
theorem valueT2 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT2 W (Proc.devRef .tc main_v21) = val_main_v21 (F := F) x w := by
  simp only [opsT2]
  after_results_simp
  rw [h2, h3, h1]
  rfl

end Cert.ReferenceIdeal.Hand

end
-- ==== Proof.RefWinT3.lean ====
/-
  The reference program's stretch of host operations for tap (0, 2): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT3 : List (HloOp τ sig (Elt F)) :=
  [ unary main_v3 main_v22 ((extractStridedSlice S4x256x16x56x56 ![0, 0, 0, 0, 2] · slices_S4x256x16x58x58_S4x256x16x56x56_0_0_0_0_2) : (⟨S4x256x16x58x58, .f32⟩ : BufTy).Contents (Elt F) → (⟨S4x256x16x56x56, .f32⟩ : BufTy).Contents (Elt F)),
    unary main_arg1 main_v23 ((extractStridedSlice S256x16x1x1 ![0, 0, 0, 2] · slices_S256x16x3x3_S256x16x1x1_0_0_0_2) : (⟨S256x16x3x3, .f32⟩ : BufTy).Contents (Elt F) → (⟨S256x16x1x1, .f32⟩ : BufTy).Contents (Elt F)),
    reshape main_v23 main_v24 rfl shapeCasts_S256x16x1x1_S256x16,
    binary main_v2 main_v22 main_v25 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v24 main_v26 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v26 main_v27 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v25 main_v27 main_v28 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v28 main_v29 rfl shapeCasts_S4x256x16x56x56_S4x8x32x16x56x56,
    nullary main_cst_1 (constant S_ .f32 0x00000000#32),
    binary main_v29 main_cst_1 main_v30 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT3_W : List (Ref sig .tc) := [main_v22, main_v23, main_v24, main_v25, main_v26, main_v27, main_v28, main_v29, main_cst_1, main_v30]
theorem opsT3_writes : (opsT3 : List (HloOp τ sig (Elt F))).Forall fun op => op.writes ⊆ (opsT3_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT3 (W : Valuation τ sig (Elt F)) (r : Ref sig .tc) (h : r ∉ opsT3_W) :
    after opsT3 W (Proc.devRef .tc r) = W (Proc.devRef .tc r) :=
  after_of_writes_sub opsT3 _ opsT3_writes h

/-- After the stretch the tap's group-sum buffer holds its stage of the arguments. -/
theorem valueT3 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT3 W (Proc.devRef .tc main_v30) = val_main_v30 (F := F) x w := by
  simp only [opsT3]
  after_results_simp
  rw [h2, h3, h1]
  rfl

end Cert.ReferenceIdeal.Hand

end
-- ==== Proof.RefWinT4.lean ====
/-
  The reference program's stretch of host operations for tap (1, 0): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT4 : List (HloOp τ sig (Elt F)) :=
  [ unary main_v3 main_v31 ((extractStridedSlice S4x256x16x56x56 ![0, 0, 0, 1, 0] · slices_S4x256x16x58x58_S4x256x16x56x56_0_0_0_1_0) : (⟨S4x256x16x58x58, .f32⟩ : BufTy).Contents (Elt F) → (⟨S4x256x16x56x56, .f32⟩ : BufTy).Contents (Elt F)),
    unary main_arg1 main_v32 ((extractStridedSlice S256x16x1x1 ![0, 0, 1, 0] · slices_S256x16x3x3_S256x16x1x1_0_0_1_0) : (⟨S256x16x3x3, .f32⟩ : BufTy).Contents (Elt F) → (⟨S256x16x1x1, .f32⟩ : BufTy).Contents (Elt F)),
    reshape main_v32 main_v33 rfl shapeCasts_S256x16x1x1_S256x16,
    binary main_v2 main_v31 main_v34 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v33 main_v35 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v35 main_v36 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v34 main_v36 main_v37 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v37 main_v38 rfl shapeCasts_S4x256x16x56x56_S4x8x32x16x56x56,
    nullary main_cst_2 (constant S_ .f32 0x00000000#32),
    binary main_v38 main_cst_2 main_v39 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT4_W : List (Ref sig .tc) := [main_v31, main_v32, main_v33, main_v34, main_v35, main_v36, main_v37, main_v38, main_cst_2, main_v39]
theorem opsT4_writes : (opsT4 : List (HloOp τ sig (Elt F))).Forall fun op => op.writes ⊆ (opsT4_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT4 (W : Valuation τ sig (Elt F)) (r : Ref sig .tc) (h : r ∉ opsT4_W) :
    after opsT4 W (Proc.devRef .tc r) = W (Proc.devRef .tc r) :=
  after_of_writes_sub opsT4 _ opsT4_writes h

/-- After the stretch the tap's group-sum buffer holds its stage of the arguments. -/
theorem valueT4 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT4 W (Proc.devRef .tc main_v39) = val_main_v39 (F := F) x w := by
  simp only [opsT4]
  after_results_simp
  rw [h2, h3, h1]
  rfl

end Cert.ReferenceIdeal.Hand

end
-- ==== Proof.RefWinT5.lean ====
/-
  The reference program's stretch of host operations for tap (1, 1): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT5 : List (HloOp τ sig (Elt F)) :=
  [ unary main_v3 main_v40 ((extractStridedSlice S4x256x16x56x56 ![0, 0, 0, 1, 1] · slices_S4x256x16x58x58_S4x256x16x56x56_0_0_0_1_1) : (⟨S4x256x16x58x58, .f32⟩ : BufTy).Contents (Elt F) → (⟨S4x256x16x56x56, .f32⟩ : BufTy).Contents (Elt F)),
    unary main_arg1 main_v41 ((extractStridedSlice S256x16x1x1 ![0, 0, 1, 1] · slices_S256x16x3x3_S256x16x1x1_0_0_1_1) : (⟨S256x16x3x3, .f32⟩ : BufTy).Contents (Elt F) → (⟨S256x16x1x1, .f32⟩ : BufTy).Contents (Elt F)),
    reshape main_v41 main_v42 rfl shapeCasts_S256x16x1x1_S256x16,
    binary main_v2 main_v40 main_v43 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v42 main_v44 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v44 main_v45 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v43 main_v45 main_v46 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v46 main_v47 rfl shapeCasts_S4x256x16x56x56_S4x8x32x16x56x56,
    nullary main_cst_3 (constant S_ .f32 0x00000000#32),
    binary main_v47 main_cst_3 main_v48 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT5_W : List (Ref sig .tc) := [main_v40, main_v41, main_v42, main_v43, main_v44, main_v45, main_v46, main_v47, main_cst_3, main_v48]
theorem opsT5_writes : (opsT5 : List (HloOp τ sig (Elt F))).Forall fun op => op.writes ⊆ (opsT5_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT5 (W : Valuation τ sig (Elt F)) (r : Ref sig .tc) (h : r ∉ opsT5_W) :
    after opsT5 W (Proc.devRef .tc r) = W (Proc.devRef .tc r) :=
  after_of_writes_sub opsT5 _ opsT5_writes h

/-- After the stretch the tap's group-sum buffer holds its stage of the arguments. -/
theorem valueT5 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT5 W (Proc.devRef .tc main_v48) = val_main_v48 (F := F) x w := by
  simp only [opsT5]
  after_results_simp
  rw [h2, h3, h1]
  rfl

end Cert.ReferenceIdeal.Hand

end
-- ==== Proof.RefWinT6.lean ====
/-
  The reference program's stretch of host operations for tap (1, 2): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT6 : List (HloOp τ sig (Elt F)) :=
  [ unary main_v3 main_v49 ((extractStridedSlice S4x256x16x56x56 ![0, 0, 0, 1, 2] · slices_S4x256x16x58x58_S4x256x16x56x56_0_0_0_1_2) : (⟨S4x256x16x58x58, .f32⟩ : BufTy).Contents (Elt F) → (⟨S4x256x16x56x56, .f32⟩ : BufTy).Contents (Elt F)),
    unary main_arg1 main_v50 ((extractStridedSlice S256x16x1x1 ![0, 0, 1, 2] · slices_S256x16x3x3_S256x16x1x1_0_0_1_2) : (⟨S256x16x3x3, .f32⟩ : BufTy).Contents (Elt F) → (⟨S256x16x1x1, .f32⟩ : BufTy).Contents (Elt F)),
    reshape main_v50 main_v51 rfl shapeCasts_S256x16x1x1_S256x16,
    binary main_v2 main_v49 main_v52 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v51 main_v53 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v53 main_v54 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v52 main_v54 main_v55 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v55 main_v56 rfl shapeCasts_S4x256x16x56x56_S4x8x32x16x56x56,
    nullary main_cst_4 (constant S_ .f32 0x00000000#32),
    binary main_v56 main_cst_4 main_v57 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT6_W : List (Ref sig .tc) := [main_v49, main_v50, main_v51, main_v52, main_v53, main_v54, main_v55, main_v56, main_cst_4, main_v57]
theorem opsT6_writes : (opsT6 : List (HloOp τ sig (Elt F))).Forall fun op => op.writes ⊆ (opsT6_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT6 (W : Valuation τ sig (Elt F)) (r : Ref sig .tc) (h : r ∉ opsT6_W) :
    after opsT6 W (Proc.devRef .tc r) = W (Proc.devRef .tc r) :=
  after_of_writes_sub opsT6 _ opsT6_writes h

/-- After the stretch the tap's group-sum buffer holds its stage of the arguments. -/
theorem valueT6 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT6 W (Proc.devRef .tc main_v57) = val_main_v57 (F := F) x w := by
  simp only [opsT6]
  after_results_simp
  rw [h2, h3, h1]
  rfl

end Cert.ReferenceIdeal.Hand

end
-- ==== Proof.RefWinT7.lean ====
/-
  The reference program's stretch of host operations for tap (2, 0): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT7 : List (HloOp τ sig (Elt F)) :=
  [ unary main_v3 main_v58 ((extractStridedSlice S4x256x16x56x56 ![0, 0, 0, 2, 0] · slices_S4x256x16x58x58_S4x256x16x56x56_0_0_0_2_0) : (⟨S4x256x16x58x58, .f32⟩ : BufTy).Contents (Elt F) → (⟨S4x256x16x56x56, .f32⟩ : BufTy).Contents (Elt F)),
    unary main_arg1 main_v59 ((extractStridedSlice S256x16x1x1 ![0, 0, 2, 0] · slices_S256x16x3x3_S256x16x1x1_0_0_2_0) : (⟨S256x16x3x3, .f32⟩ : BufTy).Contents (Elt F) → (⟨S256x16x1x1, .f32⟩ : BufTy).Contents (Elt F)),
    reshape main_v59 main_v60 rfl shapeCasts_S256x16x1x1_S256x16,
    binary main_v2 main_v58 main_v61 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v60 main_v62 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v62 main_v63 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v61 main_v63 main_v64 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v64 main_v65 rfl shapeCasts_S4x256x16x56x56_S4x8x32x16x56x56,
    nullary main_cst_5 (constant S_ .f32 0x00000000#32),
    binary main_v65 main_cst_5 main_v66 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT7_W : List (Ref sig .tc) := [main_v58, main_v59, main_v60, main_v61, main_v62, main_v63, main_v64, main_v65, main_cst_5, main_v66]
theorem opsT7_writes : (opsT7 : List (HloOp τ sig (Elt F))).Forall fun op => op.writes ⊆ (opsT7_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT7 (W : Valuation τ sig (Elt F)) (r : Ref sig .tc) (h : r ∉ opsT7_W) :
    after opsT7 W (Proc.devRef .tc r) = W (Proc.devRef .tc r) :=
  after_of_writes_sub opsT7 _ opsT7_writes h

/-- After the stretch the tap's group-sum buffer holds its stage of the arguments. -/
theorem valueT7 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT7 W (Proc.devRef .tc main_v66) = val_main_v66 (F := F) x w := by
  simp only [opsT7]
  after_results_simp
  rw [h2, h3, h1]
  rfl

end Cert.ReferenceIdeal.Hand

end
-- ==== Proof.RefWinT8.lean ====
/-
  The reference program's stretch of host operations for tap (2, 1): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT8 : List (HloOp τ sig (Elt F)) :=
  [ unary main_v3 main_v67 ((extractStridedSlice S4x256x16x56x56 ![0, 0, 0, 2, 1] · slices_S4x256x16x58x58_S4x256x16x56x56_0_0_0_2_1) : (⟨S4x256x16x58x58, .f32⟩ : BufTy).Contents (Elt F) → (⟨S4x256x16x56x56, .f32⟩ : BufTy).Contents (Elt F)),
    unary main_arg1 main_v68 ((extractStridedSlice S256x16x1x1 ![0, 0, 2, 1] · slices_S256x16x3x3_S256x16x1x1_0_0_2_1) : (⟨S256x16x3x3, .f32⟩ : BufTy).Contents (Elt F) → (⟨S256x16x1x1, .f32⟩ : BufTy).Contents (Elt F)),
    reshape main_v68 main_v69 rfl shapeCasts_S256x16x1x1_S256x16,
    binary main_v2 main_v67 main_v70 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v69 main_v71 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v71 main_v72 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v70 main_v72 main_v73 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v73 main_v74 rfl shapeCasts_S4x256x16x56x56_S4x8x32x16x56x56,
    nullary main_cst_6 (constant S_ .f32 0x00000000#32),
    binary main_v74 main_cst_6 main_v75 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT8_W : List (Ref sig .tc) := [main_v67, main_v68, main_v69, main_v70, main_v71, main_v72, main_v73, main_v74, main_cst_6, main_v75]
theorem opsT8_writes : (opsT8 : List (HloOp τ sig (Elt F))).Forall fun op => op.writes ⊆ (opsT8_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT8 (W : Valuation τ sig (Elt F)) (r : Ref sig .tc) (h : r ∉ opsT8_W) :
    after opsT8 W (Proc.devRef .tc r) = W (Proc.devRef .tc r) :=
  after_of_writes_sub opsT8 _ opsT8_writes h

/-- After the stretch the tap's group-sum buffer holds its stage of the arguments. -/
theorem valueT8 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT8 W (Proc.devRef .tc main_v75) = val_main_v75 (F := F) x w := by
  simp only [opsT8]
  after_results_simp
  rw [h2, h3, h1]
  rfl

end Cert.ReferenceIdeal.Hand

end
-- ==== Proof.RefWinT9.lean ====
/-
  The reference program's stretch of host operations for tap (2, 2): from buffer contents `W` that hold the delayed clip, the
  padded clip and the weight at their stages of the arguments `x` and `w`, it leaves the tap's group sums at their stage of `x` and `w`.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsT9 : List (HloOp τ sig (Elt F)) :=
  [ unary main_v3 main_v76 ((extractStridedSlice S4x256x16x56x56 ![0, 0, 0, 2, 2] · slices_S4x256x16x58x58_S4x256x16x56x56_0_0_0_2_2) : (⟨S4x256x16x58x58, .f32⟩ : BufTy).Contents (Elt F) → (⟨S4x256x16x56x56, .f32⟩ : BufTy).Contents (Elt F)),
    unary main_arg1 main_v77 ((extractStridedSlice S256x16x1x1 ![0, 0, 2, 2] · slices_S256x16x3x3_S256x16x1x1_0_0_2_2) : (⟨S256x16x3x3, .f32⟩ : BufTy).Contents (Elt F) → (⟨S256x16x1x1, .f32⟩ : BufTy).Contents (Elt F)),
    reshape main_v77 main_v78 rfl shapeCasts_S256x16x1x1_S256x16,
    binary main_v2 main_v76 main_v79 (mulf : (⟨S4x256x16x56x56, .f32⟩ : BufTy).Contents (Elt F) → (⟨S4x256x16x56x56, .f32⟩ : BufTy).Contents (Elt F) → (⟨S4x256x16x56x56, .f32⟩ : BufTy).Contents (Elt F)),
    unary main_v78 main_v80 (broadcastInDim S1x256x16x1x1 ![1, 2] bcast_S256x16_S1x256x16x1x1_1_2 : (⟨S256x16, .f32⟩ : BufTy).Contents (Elt F) → (⟨S1x256x16x1x1, .f32⟩ : BufTy).Contents (Elt F)),
    unary main_v80 main_v81 (broadcastInDim S4x256x16x56x56 ![0, 1, 2, 3, 4] bcast_S1x256x16x1x1_S4x256x16x56x56_0_1_2_3_4 : (⟨S1x256x16x1x1, .f32⟩ : BufTy).Contents (Elt F) → (⟨S4x256x16x56x56, .f32⟩ : BufTy).Contents (Elt F)),
    binary main_v79 main_v81 main_v82 (mulf : (⟨S4x256x16x56x56, .f32⟩ : BufTy).Contents (Elt F) → (⟨S4x256x16x56x56, .f32⟩ : BufTy).Contents (Elt F) → (⟨S4x256x16x56x56, .f32⟩ : BufTy).Contents (Elt F)),
    reshape main_v82 main_v83 rfl shapeCasts_S4x256x16x56x56_S4x8x32x16x56x56,
    nullary main_cst_7 (constant S_ .f32 0x00000000#32),
    binary main_v83 main_cst_7 main_v84 ((fun x v => Host.reduceAdd x v reducesTo_S4x8x32x16x56x56_S4x8x16x56x56_d2 h_S_) : (⟨S4x8x32x16x56x56, .f32⟩ : BufTy).Contents (Elt F) → (⟨S_, .f32⟩ : BufTy).Contents (Elt F) → (⟨S4x8x16x56x56, .f32⟩ : BufTy).Contents (Elt F)) ]
/-- The buffers the stretch writes. -/
abbrev opsT9_W : List (Ref sig .tc) := [main_v76, main_v77, main_v78, main_v79, main_v80, main_v81, main_v82, main_v83, main_cst_7, main_v84]
theorem opsT9_writes : (opsT9 : List (HloOp τ sig (Elt F))).Forall fun op => op.writes ⊆ (opsT9_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepT9 (W : Valuation τ sig (Elt F)) (r : Ref sig .tc) (h : r ∉ opsT9_W) :
    after opsT9 W (Proc.devRef .tc r) = W (Proc.devRef .tc r) :=
  after_of_writes_sub opsT9 _ opsT9_writes h

/-- After the stretch the tap's group-sum buffer holds its stage of the arguments. -/
theorem valueT9 (W : Valuation τ sig (Elt F)) (x : (⟨S4x256x16x56x56, .f32⟩ : BufTy).Contents (Elt F)) (w : (⟨S256x16x3x3, .f32⟩ : BufTy).Contents (Elt F))
    (h2 : W (Proc.devRef .tc main_v2) = val_main_v2 (F := F) x) (h3 : W (Proc.devRef .tc main_v3) = val_main_v3 (F := F) x)
    (h1 : W (Proc.devRef .tc main_arg1) = w) :
    after opsT9 W (Proc.devRef .tc main_v84) = val_main_v84 (F := F) x w := by
  simp only [opsT9]
  after_results_simp
  rw [h2, h3, h1]
  rfl

end Cert.ReferenceIdeal.Hand

end
-- ==== Proof.RefWinZ.lean ====
/-
  The reference program's last stretch of host operations: the nine taps' group sums, each given a unit axis, are stacked along that
  axis and the group axis and the tap axis are flattened into the result's 72 channels. From buffer contents `W` that hold the nine
  group sums at their stages of the arguments, it leaves the result at its stage.
-/
import proofs.«164966_j19069654794413_2_alg».proof.Proof.ReadP

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- The stretch's operations, in program order. -/
abbrev opsZ : List (HloOp τ sig (Elt F)) :=
  [ unary main_v12 main_v85 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v21 main_v86 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v30 main_v87 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v39 main_v88 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v48 main_v89 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v57 main_v90 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v66 main_v91 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v75 main_v92 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    unary main_v84 main_v93 (broadcastInDim S4x8x1x16x56x56 ![0, 1, 3, 4, 5] bcast_S4x8x16x56x56_S4x8x1x16x56x56_0_1_3_4_5 : (⟨S4x8x16x56x56, .f32⟩ : BufTy).Contents (Elt F) → (⟨S4x8x1x16x56x56, .f32⟩ : BufTy).Contents (Elt F)),
    nary ![main_v85, main_v86, main_v87, main_v88, main_v89, main_v90, main_v91, main_v92, main_v93] main_v94 (fun u => concatenate S4x8x9x16x56x56 2 [⟨S4x8x1x16x56x56, u 0⟩, ⟨S4x8x1x16x56x56, u 1⟩, ⟨S4x8x1x16x56x56, u 2⟩, ⟨S4x8x1x16x56x56, u 3⟩, ⟨S4x8x1x16x56x56, u 4⟩, ⟨S4x8x1x16x56x56, u 5⟩, ⟨S4x8x1x16x56x56, u 6⟩, ⟨S4x8x1x16x56x56, u 7⟩, ⟨S4x8x1x16x56x56, u 8⟩] concatenates_S4x8x1x16x56x56_S4x8x1x16x56x56_S4x8x1x16x56x56_S4x8x1x16x56x56_S4x8x1x16x56x56_S4x8x1x16x56x56_S4x8x1x16x56x56_S4x8x1x16x56x56_S4x8x1x16x56x56_S4x8x9x16x56x56_d2),
    reshape main_v94 main_v95 rfl shapeCasts_S4x8x9x16x56x56_S4x72x16x56x56 ]
/-- The buffers the stretch writes. -/
abbrev opsZ_W : List (Ref sig .tc) := [main_v85, main_v86, main_v87, main_v88, main_v89, main_v90, main_v91, main_v92, main_v93, main_v94, main_v95]
theorem opsZ_writes : (opsZ : List (HloOp τ sig (Elt F))).Forall fun op => op.writes ⊆ (opsZ_W.map (Proc.devRef (τ := τ) .tc)).toFinset := by
  simp only [List.Forall, nullary_writes, unary_writes, binary_writes, reshape_writes, nary_writes, Finset.singleton_subset_iff, List.mem_toFinset]
  repeat' apply And.intro
  all_goals exact List.mem_map_of_mem (by decide)
/-- A buffer the stretch does not write keeps its contents through it. -/
theorem keepZ (W : Valuation τ sig (Elt F)) (r : Ref sig .tc) (h : r ∉ opsZ_W) :
    after opsZ W (Proc.devRef .tc r) = W (Proc.devRef .tc r) :=
  after_of_writes_sub opsZ _ opsZ_writes h

/-- The stretch as ONE function of the nine group sums. -/
def joined (u0 u1 u2 u3 u4 u5 u6 u7 u8 : (⟨S4x8x16x56x56, .f32⟩ : BufTy).Contents (Elt F)) : (⟨S4x72x16x56x56, .f32⟩ : BufTy).Contents (Elt F) :=
  shapeCast _ (concatenate S4x8x9x16x56x56 2 [⟨S4x8x1x16x56x56, broadcastInDim S4x8x1x16x56x56 ![0, 1, 3, 4, 5] bcast_S4x8x16x56x56_S4x8x1x16x56x56_0_1_3_4_5 u0⟩, ⟨S4x8x1x16x56x56, broadcastInDim S4x8x1x16x56x56 ![0, 1, 3, 4, 5] bcast_S4x8x16x56x56_S4x8x1x16x56x56_0_1_3_4_5 u1⟩, ⟨S4x8x1x16x56x56, broadcastInDim S4x8x1x16x56x56 ![0, 1, 3, 4, 5] bcast_S4x8x16x56x56_S4x8x1x16x56x56_0_1_3_4_5 u2⟩, ⟨S4x8x1x16x56x56, broadcastInDim S4x8x1x16x56x56 ![0, 1, 3, 4, 5] bcast_S4x8x16x56x56_S4x8x1x16x56x56_0_1_3_4_5 u3⟩, ⟨S4x8x1x16x56x56, broadcastInDim S4x8x1x16x56x56 ![0, 1, 3, 4, 5] bcast_S4x8x16x56x56_S4x8x1x16x56x56_0_1_3_4_5 u4⟩, ⟨S4x8x1x16x56x56, broadcastInDim S4x8x1x16x56x56 ![0, 1, 3, 4, 5] bcast_S4x8x16x56x56_S4x8x1x16x56x56_0_1_3_4_5 u5⟩, ⟨S4x8x1x16x56x56, broadcastInDim S4x8x1x16x56x56 ![0, 1, 3, 4, 5] bcast_S4x8x16x56x56_S4x8x1x16x56x56_0_1_3_4_5 u6⟩, ⟨S4x8x1x16x56x56, broadcastInDim S4x8x1x16x56x56 ![0, 1, 3, 4, 5] bcast_S4x8x16x56x56_S4x8x1x16x56x56_0_1_3_4_5 u7⟩, ⟨S4x8x1x16x56x56, broadcastInDim S4x8x1x16x56x56 ![0, 1, 3, 4, 5] bcast_S4x8x16x56x56_S4x8x1x16x56x56_0_1_3_4_5 u8⟩] concatenates_S4x8x1x16x56x56_S4x8x1x16x56x56_S4x8x1x16x56x56_S4x8x1x16x56x56_S4x8x1x16x56x56_S4x8x1x16x56x56_S4x8x1x16x56x56_S4x8x1x16x56x56_S4x8x1x16x56x56_S4x8x9x16x56x56_d2) shapeCasts_S4x8x9x16x56x56_S4x72x16x56x56

/-- After the stretch the result's buffer holds that function of the nine group-sum buffers. -/
theorem valueZ_joined (W : Valuation τ sig (Elt F)) :
    after opsZ W (Proc.devRef .tc main_v95) = joined (F := F) (W (Proc.devRef .tc main_v12)) (W (Proc.devRef .tc main_v21)) (W (Proc.devRef .tc main_v30)) (W (Proc.devRef .tc main_v39)) (W (Proc.devRef .tc main_v48)) (W (Proc.devRef .tc main_v57)) (W (Proc.devRef .tc main_v66)) (W (Proc.devRef .tc main_v75)) (W (Proc.devRef .tc main_v84)) := by
  simp only [opsZ]
  after_results_simp
  rfl

/-- Of the nine group sums' stages it is the result's stage. -/
theorem joined_stages (x : (⟨S4x256x16x56x56, .f32⟩ : BufTy).Contents (Elt F)) (w : (⟨S256x16x3x3, .f32⟩ : BufTy).Contents (Elt F)) :
    joined (F := F) (val_main_v12 (F := F) x w) (val_main_v21 (F := F) x w) (val_main_v30 (F := F) x w) (val_main_v39 (F := F) x w) (val_main_v48 (F := F) x w) (val_main_v57 (F := F) x w) (val_main_v66 (F := F) x w) (val_main_v75 (F := F) x w) (val_main_v84 (F := F) x w) = val_main_v95 (F := F) x w := rfl

/-- After the stretch the result's buffer holds its stage of the arguments. -/
theorem valueZ (W : Valuation τ sig (Elt F)) (x : (⟨S4x256x16x56x56, .f32⟩ : BufTy).Contents (Elt F)) (w : (⟨S256x16x3x3, .f32⟩ : BufTy).Contents (Elt F))
    (h0 : W (Proc.devRef .tc main_v12) = val_main_v12 (F := F) x w)
    (h1 : W (Proc.devRef .tc main_v21) = val_main_v21 (F := F) x w)
    (h2 : W (Proc.devRef .tc main_v30) = val_main_v30 (F := F) x w)
    (h3 : W (Proc.devRef .tc main_v39) = val_main_v39 (F := F) x w)
    (h4 : W (Proc.devRef .tc main_v48) = val_main_v48 (F := F) x w)
    (h5 : W (Proc.devRef .tc main_v57) = val_main_v57 (F := F) x w)
    (h6 : W (Proc.devRef .tc main_v66) = val_main_v66 (F := F) x w)
    (h7 : W (Proc.devRef .tc main_v75) = val_main_v75 (F := F) x w)
    (h8 : W (Proc.devRef .tc main_v84) = val_main_v84 (F := F) x w) :
    after opsZ W (Proc.devRef .tc main_v95) = val_main_v95 (F := F) x w := by
  rw [valueZ_joined, h0, h1, h2, h3, h4, h5, h6, h7, h8]
  exact joined_stages x w

end Cert.ReferenceIdeal.Hand

end
-- ==== Proof.RefRun.lean ====
/-
  The reference program's run. Its @main is 107 host operations in eleven stretches: one that delays and pads the clip, one per tap
  of the 3 × 3 neighbourhood (shift the padded clip, multiply by the delayed clip and by the tap's weights, sum each group of 32
  channels), and one that stacks the nine taps and flattens group and tap into the result's channels. The device's buffer contents
  after all of them are the stretches' steps composed; following the buffers each stretch reads through the stretches before it,
  the result's buffer ends at its stage `val_main_v95` of the launched clip and weight, and no stretch writes the arguments.
-/
import proofs.«164966_j19069654794413_2_alg».proof.Proof.RunP
import proofs.«164966_j19069654794413_2_alg».proof.Proof.RefWinA
import proofs.«164966_j19069654794413_2_alg».proof.Proof.RefWinT1
import proofs.«164966_j19069654794413_2_alg».proof.Proof.RefWinT2
import proofs.«164966_j19069654794413_2_alg».proof.Proof.RefWinT3
import proofs.«164966_j19069654794413_2_alg».proof.Proof.RefWinT4
import proofs.«164966_j19069654794413_2_alg».proof.Proof.RefWinT5
import proofs.«164966_j19069654794413_2_alg».proof.Proof.RefWinT6
import proofs.«164966_j19069654794413_2_alg».proof.Proof.RefWinT7
import proofs.«164966_j19069654794413_2_alg».proof.Proof.RefWinT8
import proofs.«164966_j19069654794413_2_alg».proof.Proof.RefWinT9
import proofs.«164966_j19069654794413_2_alg».proof.Proof.RefWinZ
import Idealize.ShloMosaic.Lib.Pipeline.Frame

noncomputable section

namespace Cert.ReferenceIdeal.Hand

open Cert.ReferenceIdeal Cert.ReferenceIdeal.Gen Cert.ReferenceIdeal.Read Cert.ReferenceIdeal.Value Idealize.ShloMosaic Idealize.ShloMosaic.TcCoe Idealize.SL.Sem Idealize.ShloMosaic.StableHlo

variable {F : FTy → Type} [FloatOps F]

set_option maxRecDepth 8192 in
/-- @main's operations are the eleven stretches, in order. -/
theorem ops_split : (ops : List (HloOp τ sig (Elt F))) = opsA ++ (opsT1 ++ (opsT2 ++ (opsT3 ++ (opsT4 ++ (opsT5 ++ (opsT6 ++ (opsT7 ++ (opsT8 ++ (opsT9 ++ opsZ))))))))) := rfl

/-- The result's buffer after all the operations, from any contents `V0`: its stage of the clip and the weight `V0` holds. -/
theorem value (V0 : Valuation τ sig (Elt F)) :
    after ops V0 (Proc.devRef .tc main_v95) = val_main_v95 (F := F) (V0 (Proc.devRef .tc main_arg0)) (V0 (Proc.devRef .tc main_arg1)) := by
  rw [ops_split]
  simp only [after_append]
  have c1 : after opsA V0 (Proc.devRef .tc main_arg1) = V0 (Proc.devRef .tc main_arg1) := keepA V0 main_arg1 (by decide)
  have c2 : after opsA V0 (Proc.devRef .tc main_v2) = val_main_v2 (F := F) (V0 (Proc.devRef .tc main_arg0)) := valueA_v2 V0
  have c3 : after opsA V0 (Proc.devRef .tc main_v3) = val_main_v3 (F := F) (V0 (Proc.devRef .tc main_arg0)) := valueA_v3 V0
  generalize after opsA V0 = W1 at c1 c2 c3 ⊢
  have o1 : after opsT1 W1 (Proc.devRef .tc main_v12) = val_main_v12 (F := F) (V0 (Proc.devRef .tc main_arg0)) (V0 (Proc.devRef .tc main_arg1)) :=
    valueT1 W1 _ _ c2 c3 c1
  replace c1 : after opsT1 W1 (Proc.devRef .tc main_arg1) = V0 (Proc.devRef .tc main_arg1) := (keepT1 W1 main_arg1 (by decide)).trans c1
  replace c2 : after opsT1 W1 (Proc.devRef .tc main_v2) = val_main_v2 (F := F) (V0 (Proc.devRef .tc main_arg0)) := (keepT1 W1 main_v2 (by decide)).trans c2
  replace c3 : after opsT1 W1 (Proc.devRef .tc main_v3) = val_main_v3 (F := F) (V0 (Proc.devRef .tc main_arg0)) := (keepT1 W1 main_v3 (by decide)).trans c3
  generalize after opsT1 W1 = W2 at c1 c2 c3 o1 ⊢
  have o2 : after opsT2 W2 (Proc.devRef .tc main_v21) = val_main_v21 (F := F) (V0 (Proc.devRef .tc main_arg0)) (V0 (Proc.devRef .tc main_arg1)) :=
    valueT2 W2 _ _ c2 c3 c1
  replace o1 : after opsT2 W2 (Proc.devRef .tc main_v12) = val_main_v12 (F := F) (V0 (Proc.devRef .tc main_arg0)) (V0 (Proc.devRef .tc main_arg1)) :=
    (keepT2 W2 main_v12 (by decide)).trans o1
  replace c1 : after opsT2 W2 (Proc.devRef .tc main_arg1) = V0 (Proc.devRef .tc main_arg1) := (keepT2 W2 main_arg1 (by decide)).trans c1
  replace c2 : after opsT2 W2 (Proc.devRef .tc main_v2) = val_main_v2 (F := F) (V0 (Proc.devRef .tc main_arg0)) := (keepT2 W2 main_v2 (by decide)).trans c2
  replace c3 : after opsT2 W2 (Proc.devRef .tc main_v3) = val_main_v3 (F := F) (V0 (Proc.devRef .tc main_arg0)) := (keepT2 W2 main_v3 (by decide)).trans c3
  generalize after opsT2 W2 = W3 at c1 c2 c3 o1 o2 ⊢
  have o3 : after opsT3 W3 (Proc.devRef .tc main_v30) = val_main_v30 (F := F) (V0 (Proc.devRef .tc main_arg0)) (V0 (Proc.devRef .tc main_arg1)) :=
    valueT3 W3 _ _ c2 c3 c1
  replace o1 : after opsT3 W3 (Proc.devRef .tc main_v12) = val_main_v12 (F := F) (V0 (Proc.devRef .tc main_arg0)) (V0 (Proc.devRef .tc main_arg1)) :=
    (keepT3 W3 main_v12 (by decide)).trans o1
  replace o2 : after opsT3 W3 (Proc.devRef .tc main_v21) = val_main_v21 (F := F) (V0 (Proc.devRef .tc main_arg0)) (V0 (Proc.devRef .tc main_arg1)) :=
    (keepT3 W3 main_v21 (by decide)).trans o2
  replace c1 : after opsT3 W3 (Proc.devRef .tc main_arg1) = V0 (Proc.devRef .tc main_arg1) := (keepT3 W3 main_arg1 (by decide)).trans c1
  replace c2 : after opsT3 W3 (Proc.devRef .tc main_v2) = val_main_v2 (F := F) (V0 (Proc.devRef .tc main_arg0)) := (keepT3 W3 main_v2 (by decide)).trans c2
  replace c3 : after opsT3 W3 (Proc.devRef .tc main_v3) = val_main_v3 (F := F) (V0 (Proc.devRef .tc main_arg0)) := (keepT3 W3 main_v3 (by decide)).trans c3
  generalize after opsT3 W3 = W4 at c1 c2 c3 o1 o2 o3 ⊢
  have o4 : after opsT4 W4 (Proc.devRef .tc main_v39) = val_main_v39 (F := F) (V0 (Proc.devRef .tc main_arg0)) (V0 (Proc.devRef .tc main_arg1)) :=
    valueT4 W4 _ _ c2 c3 c1
  replace o1 : after opsT4 W4 (Proc.devRef .tc main_v12) = val_main_v12 (F := F) (V0 (Proc.devRef .tc main_arg0)) (V0 (Proc.devRef .tc main_arg1)) :=
    (keepT4 W4 main_v12 (by decide)).trans o1
  replace o2 : after opsT4 W4 (Proc.devRef .tc main_v21) = val_main_v21 (F := F) (V0 (Proc.devRef .tc main_arg0)) (V0 (Proc.devRef .tc main_arg1)) :=
    (keepT4 W4 main_v21 (by decide)).trans o2
  replace o3 : after opsT4 W4 (Proc.devRef .tc main_v30) = val_main_v30 (F := F) (V0 (Proc.devRef .tc main_arg0)) (V0 (Proc.devRef .tc main_arg1)) :=
    (keepT4 W4 main_v30 (by decide)).trans o3
  replace c1 : after opsT4 W4 (Proc.devRef .tc main_arg1) = V0 (Proc.devRef .tc main_arg1) := (keepT4 W4 main_arg1 (by decide)).trans c1
  replace c2 : after opsT4 W4 (Proc.devRef .tc main_v2) = val_main_v2 (F := F) (V0 (Proc.devRef .tc main_arg0)) := (keepT4 W4 main_v2 (by decide)).trans c2
  replace c3 : after opsT4 W4 (Proc.devRef .tc main_v3) = val_main_v3 (F := F) (V0 (Proc.devRef .tc main_arg0)) := (keepT4 W4 main_v3 (by decide)).trans c3
  generalize after opsT4 W4 = W5 at c1 c2 c3 o1 o2 o3 o4 ⊢
  have o5 : after opsT5 W5 (Proc.devRef .tc main_v48) = val_main_v48 (F := F) (V0 (Proc.devRef .tc main_arg0)) (V0 (Proc.devRef .tc main_arg1)) :=
    valueT5 W5 _ _ c2 c3 c1
  replace o1 : after opsT5 W5 (Proc.devRef .tc main_v12) = val_main_v12 (F := F) (V0 (Proc.devRef .tc main_arg0)) (V0 (Proc.devRef .tc main_arg1)) :=
    (keepT5 W5 main_v12 (by decide)).trans o1
  replace o2 : after opsT5 W5 (Proc.devRef .tc main_v21) = val_main_v21 (F := F) (V0 (Proc.devRef .tc main_arg0)) (V0 (Proc.devRef .tc main_arg1)) :=
    (keepT5 W5 main_v21 (by decide)).trans o2
  replace o3 : after opsT5 W5 (Proc.devRef .tc main_v30) = val_main_v30 (F := F) (V0 (Proc.devRef .tc main_arg0)) (V0 (Proc.devRef .tc main_arg1)) :=
    (keepT5 W5 main_v30 (by decide)).trans o3
  replace o4 : after opsT5 W5 (Proc.devRef .tc main_v39) = val_main_v39 (F := F) (V0 (Proc.devRef .tc main_arg0)) (V0 (Proc.devRef .tc main_arg1)) :=
    (keepT5 W5 main_v39 (by decide)).trans o4
  replace c1 : after opsT5 W5 (Proc.devRef .tc main_arg1) = V0 (Proc.devRef .tc main_arg1) := (keepT5 W5 main_arg1 (by decide)).trans c1
  replace c2 : after opsT5 W5 (Proc.devRef .tc main_v2) = val_main_v2 (F := F) (V0 (Proc.devRef .tc main_arg0)) := (keepT5 W5 main_v2 (by decide)).trans c2
  replace c3 : after opsT5 W5 (Proc.devRef .tc main_v3) = val_main_v3 (F := F) (V0 (Proc.devRef .tc main_arg0)) := (keepT5 W5 main_v3 (by decide)).trans c3
  generalize after opsT5 W5 = W6 at c1 c2 c3 o1 o2 o3 o4 o5 ⊢
  have o6 : after opsT6 W6 (Proc.devRef .tc main_v57) = val_main_v57 (F := F) (V0 (Proc.devRef .tc main_arg0)) (V0 (Proc.devRef .tc main_arg1)) :=
    valueT6 W6 _ _ c2 c3 c1
  replace o1 : after opsT6 W6 (Proc.devRef .tc main_v12) = val_main_v12 (F := F) (V0 (Proc.devRef .tc main_arg0)) (V0 (Proc.devRef .tc main_arg1)) :=
    (keepT6 W6 main_v12 (by decide)).trans o1
  replace o2 : after opsT6 W6 (Proc.devRef .tc main_v21) = val_main_v21 (F := F) (V0 (Proc.devRef .tc main_arg0)) (V0 (Proc.devRef .tc main_arg1)) :=
    (keepT6 W6 main_v21 (by decide)).trans o2
  replace o3 : after opsT6 W6 (Proc.devRef .tc main_v30) = val_main_v30 (F := F) (V0 (Proc.devRef .tc main_arg0)) (V0 (Proc.devRef .tc main_arg1)) :=
    (keepT6 W6 main_v30 (by decide)).trans o3
  replace o4 : after opsT6 W6 (Proc.devRef .tc main_v39) = val_main_v39 (F := F) (V0 (Proc.devRef .tc main_arg0)) (V0 (Proc.devRef .tc main_arg1)) :=
    (keepT6 W6 main_v39 (by decide)).trans o4
  replace o5 : after opsT6 W6 (Proc.devRef .tc main_v48) = val_main_v48 (F := F) (V0 (Proc.devRef .tc main_arg0)) (V0 (Proc.devRef .tc main_arg1)) :=
    (keepT6 W6 main_v48 (by decide)).trans o5
  replace c1 : after opsT6 W6 (Proc.devRef .tc main_arg1) = V0 (Proc.devRef .tc main_arg1) := (keepT6 W6 main_arg1 (by decide)).trans c1
  replace c2 : after opsT6 W6 (Proc.devRef .tc main_v2) = val_main_v2 (F := F) (V0 (Proc.devRef .tc main_arg0)) := (keepT6 W6 main_v2 (by decide)).trans c2
  replace c3 : after opsT6 W6 (Proc.devRef .tc main_v3) = val_main_v3 (F := F) (V0 (Proc.devRef .tc main_arg0)) := (keepT6 W6 main_v3 (by decide)).trans c3
  generalize after opsT6 W6 = W7 at c1 c2 c3 o1 o2 o3 o4 o5 o6 ⊢
  have o7 : after opsT7 W7 (Proc.devRef .tc main_v66) = val_main_v66 (F := F) (V0 (Proc.devRef .tc main_arg0)) (V0 (Proc.devRef .tc main_arg1)) :=
    valueT7 W7 _ _ c2 c3 c1
  replace o1 : after opsT7 W7 (Proc.devRef .tc main_v12) = val_main_v12 (F := F) (V0 (Proc.devRef .tc main_arg0)) (V0 (Proc.devRef .tc main_arg1)) :=
    (keepT7 W7 main_v12 (by decide)).trans o1
  replace o2 : after opsT7 W7 (Proc.devRef .tc main_v21) = val_main_v21 (F := F) (V0 (Proc.devRef .tc main_arg0)) (V0 (Proc.devRef .tc main_arg1)) :=
    (keepT7 W7 main_v21 (by decide)).trans o2
  replace o3 : after opsT7 W7 (Proc.devRef .tc main_v30) = val_main_v30 (F := F) (V0 (Proc.devRef .tc main_arg0)) (V0 (Proc.devRef .tc main_arg1)) :=
    (keepT7 W7 main_v30 (by decide)).trans o3
  replace o4 : after opsT7 W7 (Proc.devRef .tc main_v39) = val_main_v39 (F := F) (V0 (Proc.devRef .tc main_arg0)) (V0 (Proc.devRef .tc main_arg1)) :=
    (keepT7 W7 main_v39 (by decide)).trans o4
  replace o5 : after opsT7 W7 (Proc.devRef .tc main_v48) = val_main_v48 (F := F) (V0 (Proc.devRef .tc main_arg0)) (V0 (Proc.devRef .tc main_arg1)) :=
    (keepT7 W7 main_v48 (by decide)).trans o5
  replace o6 : after opsT7 W7 (Proc.devRef .tc main_v57) = val_main_v57 (F := F) (V0 (Proc.devRef .tc main_arg0)) (V0 (Proc.devRef .tc main_arg1)) :=
    (keepT7 W7 main_v57 (by decide)).trans o6
  replace c1 : after opsT7 W7 (Proc.devRef .tc main_arg1) = V0 (Proc.devRef .tc main_arg1) := (keepT7 W7 main_arg1 (by decide)).trans c1
  replace c2 : after opsT7 W7 (Proc.devRef .tc main_v2) = val_main_v2 (F := F) (V0 (Proc.devRef .tc main_arg0)) := (keepT7 W7 main_v2 (by decide)).trans c2
  replace c3 : after opsT7 W7 (Proc.devRef .tc main_v3) = val_main_v3 (F := F) (V0 (Proc.devRef .tc main_arg0)) := (keepT7 W7 main_v3 (by decide)).trans c3
  generalize after opsT7 W7 = W8 at c1 c2 c3 o1 o2 o3 o4 o5 o6 o7 ⊢
  have o8 : after opsT8 W8 (Proc.devRef .tc main_v75) = val_main_v75 (F := F) (V0 (Proc.devRef .tc main_arg0)) (V0 (Proc.devRef .tc main_arg1)) :=
    valueT8 W8 _ _ c2 c3 c1
  replace o1 : after opsT8 W8 (Proc.devRef .tc main_v12) = val_main_v12 (F := F) (V0 (Proc.devRef .tc main_arg0)) (V0 (Proc.devRef .tc main_arg1)) :=
    (keepT8 W8 main_v12 (by decide)).trans o1
  replace o2 : after opsT8 W8 (Proc.devRef .tc main_v21) = val_main_v21 (F := F) (V0 (Proc.devRef .tc main_arg0)) (V0 (Proc.devRef .tc main_arg1)) :=
    (keepT8 W8 main_v21 (by decide)).trans o2
  replace o3 : after opsT8 W8 (Proc.devRef .tc main_v30) = val_main_v30 (F := F) (V0 (Proc.devRef .tc main_arg0)) (V0 (Proc.devRef .tc main_arg1)) :=
    (keepT8 W8 main_v30 (by decide)).trans o3
  replace o4 : after opsT8 W8 (Proc.devRef .tc main_v39) = val_main_v39 (F := F) (V0 (Proc.devRef .tc main_arg0)) (V0 (Proc.devRef .tc main_arg1)) :=
    (keepT8 W8 main_v39 (by decide)).trans o4
  replace o5 : after opsT8 W8 (Proc.devRef .tc main_v48) = val_main_v48 (F := F) (V0 (Proc.devRef .tc main_arg0)) (V0 (Proc.devRef .tc main_arg1)) :=
    (keepT8 W8 main_v48 (by decide)).trans o5
  replace o6 : after opsT8 W8 (Proc.devRef .tc main_v57) = val_main_v57 (F := F) (V0 (Proc.devRef .tc main_arg0)) (V0 (Proc.devRef .tc main_arg1)) :=
    (keepT8 W8 main_v57 (by decide)).trans o6
  replace o7 : after opsT8 W8 (Proc.devRef .tc main_v66) = val_main_v66 (F := F) (V0 (Proc.devRef .tc main_arg0)) (V0 (Proc.devRef .tc main_arg1)) :=
    (keepT8 W8 main_v66 (by decide)).trans o7
  replace c1 : after opsT8 W8 (Proc.devRef .tc main_arg1) = V0 (Proc.devRef .tc main_arg1) := (keepT8 W8 main_arg1 (by decide)).trans c1
  replace c2 : after opsT8 W8 (Proc.devRef .tc main_v2) = val_main_v2 (F := F) (V0 (Proc.devRef .tc main_arg0)) := (keepT8 W8 main_v2 (by decide)).trans c2
  replace c3 : after opsT8 W8 (Proc.devRef .tc main_v3) = val_main_v3 (F := F) (V0 (Proc.devRef .tc main_arg0)) := (keepT8 W8 main_v3 (by decide)).trans c3
  generalize after opsT8 W8 = W9 at c1 c2 c3 o1 o2 o3 o4 o5 o6 o7 o8 ⊢
  have o9 : after opsT9 W9 (Proc.devRef .tc main_v84) = val_main_v84 (F := F) (V0 (Proc.devRef .tc main_arg0)) (V0 (Proc.devRef .tc main_arg1)) :=
    valueT9 W9 _ _ c2 c3 c1
  replace o1 : after opsT9 W9 (Proc.devRef .tc main_v12) = val_main_v12 (F := F) (V0 (Proc.devRef .tc main_arg0)) (V0 (Proc.devRef .tc main_arg1)) :=
    (keepT9 W9 main_v12 (by decide)).trans o1
  replace o2 : after opsT9 W9 (Proc.devRef .tc main_v21) = val_main_v21 (F := F) (V0 (Proc.devRef .tc main_arg0)) (V0 (Proc.devRef .tc main_arg1)) :=
    (keepT9 W9 main_v21 (by decide)).trans o2
  replace o3 : after opsT9 W9 (Proc.devRef .tc main_v30) = val_main_v30 (F := F) (V0 (Proc.devRef .tc main_arg0)) (V0 (Proc.devRef .tc main_arg1)) :=
    (keepT9 W9 main_v30 (by decide)).trans o3
  replace o4 : after opsT9 W9 (Proc.devRef .tc main_v39) = val_main_v39 (F := F) (V0 (Proc.devRef .tc main_arg0)) (V0 (Proc.devRef .tc main_arg1)) :=
    (keepT9 W9 main_v39 (by decide)).trans o4
  replace o5 : after opsT9 W9 (Proc.devRef .tc main_v48) = val_main_v48 (F := F) (V0 (Proc.devRef .tc main_arg0)) (V0 (Proc.devRef .tc main_arg1)) :=
    (keepT9 W9 main_v48 (by decide)).trans o5
  replace o6 : after opsT9 W9 (Proc.devRef .tc main_v57) = val_main_v57 (F := F) (V0 (Proc.devRef .tc main_arg0)) (V0 (Proc.devRef .tc main_arg1)) :=
    (keepT9 W9 main_v57 (by decide)).trans o6
  replace o7 : after opsT9 W9 (Proc.devRef .tc main_v66) = val_main_v66 (F := F) (V0 (Proc.devRef .tc main_arg0)) (V0 (Proc.devRef .tc main_arg1)) :=
    (keepT9 W9 main_v66 (by decide)).trans o7
  replace o8 : after opsT9 W9 (Proc.devRef .tc main_v75) = val_main_v75 (F := F) (V0 (Proc.devRef .tc main_arg0)) (V0 (Proc.devRef .tc main_arg1)) :=
    (keepT9 W9 main_v75 (by decide)).trans o8
  clear c1 c2 c3
  generalize after opsT9 W9 = W10 at o1 o2 o3 o4 o5 o6 o7 o8 o9 ⊢
  exact valueZ W10 _ _ o1 o2 o3 o4 o5 o6 o7 o8 o9

/-- No operation writes the clip. -/
theorem kept0 (V0 : Valuation τ sig (Elt F)) : after ops V0 (Proc.devRef .tc main_arg0) = V0 (Proc.devRef .tc main_arg0) := by
  rw [ops_split]
  simp only [after_append]
  rw [keepZ _ main_arg0 (by decide), keepT9 _ main_arg0 (by decide), keepT8 _ main_arg0 (by decide), keepT7 _ main_arg0 (by decide), keepT6 _ main_arg0 (by decide),
    keepT5 _ main_arg0 (by decide), keepT4 _ main_arg0 (by decide), keepT3 _ main_arg0 (by decide), keepT2 _ main_arg0 (by decide), keepT1 _ main_arg0 (by decide),
    keepA _ main_arg0 (by decide)]
/-- No operation writes the weight. -/
theorem kept1 (V0 : Valuation τ sig (Elt F)) : after ops V0 (Proc.devRef .tc main_arg1) = V0 (Proc.devRef .tc main_arg1) := by
  rw [ops_split]
  simp only [after_append]
  rw [keepZ _ main_arg1 (by decide), keepT9 _ main_arg1 (by decide), keepT8 _ main_arg1 (by decide), keepT7 _ main_arg1 (by decide), keepT6 _ main_arg1 (by decide),
    keepT5 _ main_arg1 (by decide), keepT4 _ main_arg1 (by decide), keepT3 _ main_arg1 (by decide), keepT2 _ main_arg1 (by decide), keepT1 _ main_arg1 (by decide),
    keepA _ main_arg1 (by decide)]

/-- THE REFERENCE'S RUN: on every device, from any memory with zero counters, every weakly fair execution of @main terminates with
    the result at its stage of the launched arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v95)
        = val_main_v95 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v95).trans (value _), (h c main_arg0).trans (kept0 _), (h c main_arg1).trans (kept1 _)⟩)
    (run_seq scopedRefs_eq scopedSems_eq defs main (fun _ => ops) main_eq (fun _ => ops_sub) m ρ)

end Cert.ReferenceIdeal.Hand

end
-- ==== Proof.Spec.lean ====
/-
  The function both programs compute, index by index.

  From a clip `x` of shape [4, 256, 16, 56, 56] (batch, channel, frame, row, column), its spatially padded copy `xp` of
  shape [4, 256, 16, 58, 58] and a weight `w` of shape [256, 16, 3, 3] (channel, frame, tap row, tap column), the result of
  shape [4, 72, 16, 56, 56] has 72 = 8 · 9 channels: output channel `j` belongs to the group `j / 9` of 32 input channels and to
  the tap `(j % 9 / 3, j % 9 % 3)` of the 3 × 3 neighbourhood, and its entry at (n, j, t, h, v) is the sum over the group's 32 channels
  `c` of

      (x[n, c, t - 1, h, v] · xp[n, c, t, tapRow + h, tapCol + v]) · w[c, t, tapRow, tapCol]

  where the previous frame `t - 1` is the truncated difference (frame 0 is its own predecessor). Both programs pad `x` by the same
  host operation, so `xp` stays a parameter here and is never opened where it is read at a shifted position.
-/
import Idealize.ShloMosaic.PureOps.Ideal
import Idealize.ShloMosaic.Lib.ValueIdx

noncomputable section

open scoped BigOperators

namespace Cert.TapGroups

open Idealize.ShloMosaic Idealize.ShloMosaic.ValueIdx

/-- The `k`-th input channel of the group output channel `j` belongs to. -/
def chan (j : Fin 72) (k : Fin 32) : Fin 256 := ⟨j.val / 9 * 32 + k.val, by have := j.isLt; have := k.isLt; omega⟩
/-- The tap's row offset of output channel `j`. -/
def tapRow (j : Fin 72) : Fin 3 := ⟨j.val % 9 / 3, by omega⟩
/-- The tap's column offset of output channel `j`. -/
def tapCol (j : Fin 72) : Fin 3 := ⟨j.val % 9 % 3, by omega⟩
/-- The previous frame, frame 0 its own predecessor. -/
def prev (t : Fin 16) : Fin 16 := ⟨t.val - 1, by have := t.isLt; omega⟩
/-- A position of the 56-long axis shifted by a tap offset, inside the padded 58-long axis. -/
def shift (r : Fin 3) (h : Fin 56) : Fin 58 := ⟨r.val + h.val, by have := r.isLt; have := h.isLt; omega⟩

/-- Inside one grid step's block of 18 output channels (two groups): the `k`-th of the block's 64 input channels that output
    channel `j` of the block sums over. -/
def bchan (j : Fin 18) (k : Fin 32) : Fin 64 := ⟨j.val / 9 * 32 + k.val, by have := j.isLt; have := k.isLt; omega⟩
/-- The tap's row offset of the block's output channel `j`. -/
def btapRow (j : Fin 18) : Fin 3 := ⟨j.val % 9 / 3, by omega⟩
/-- The tap's column offset of the block's output channel `j`. -/
def btapCol (j : Fin 18) : Fin 3 := ⟨j.val % 9 % 3, by omega⟩
/-- The centre tap: the offset that undoes the padding. -/
def centre : Fin 3 := ⟨1, by omega⟩

/-- One channel's contribution to the entry at (n, j, t, h, v). -/
def term (x : (⟨5, ![4, 256, 16, 56, 56]⟩ : Shape).Idx → EReal) (xp : (⟨5, ![4, 256, 16, 58, 58]⟩ : Shape).Idx → EReal)
    (w : (⟨4, ![256, 16, 3, 3]⟩ : Shape).Idx → EReal) (n : Fin 4) (j : Fin 72) (t : Fin 16) (h v : Fin 56) (k : Fin 32) : EReal :=
  (x (ix5 n (chan j k) (prev t) h v) * xp (ix5 n (chan j k) t (shift (tapRow j) h) (shift (tapCol j) v)))
    * w (ix4 (chan j k) t (tapRow j) (tapCol j))

/-- The result array: each entry the sum of its group's 32 contributions. -/
def result (x : (⟨5, ![4, 256, 16, 56, 56]⟩ : Shape).Idx → EReal) (xp : (⟨5, ![4, 256, 16, 58, 58]⟩ : Shape).Idx → EReal)
    (w : (⟨4, ![256, 16, 3, 3]⟩ : Shape).Idx → EReal) : (⟨5, ![4, 72, 16, 56, 56]⟩ : Shape).Idx → EReal :=
  fun i => ∑ k : Fin 32, term x xp w (i 0) (i 1) (i 2) (i 3) (i 4) k

theorem result_apply (x : (⟨5, ![4, 256, 16, 56, 56]⟩ : Shape).Idx → EReal) (xp : (⟨5, ![4, 256, 16, 58, 58]⟩ : Shape).Idx → EReal)
    (w : (⟨4, ![256, 16, 3, 3]⟩ : Shape).Idx → EReal) (n : Fin 4) (j : Fin 72) (t : Fin 16) (h v : Fin 56) :
    result x xp w (ix5 n j t h v) = ∑ k : Fin 32, term x xp w n j t h v k := rfl

/-- The same entries with the previous frame ALSO read off the padded copy, at the centre tap: what a program that is handed only
    the padded copy computes. -/
def resultPadded (xp : (⟨5, ![4, 256, 16, 58, 58]⟩ : Shape).Idx → EReal) (w : (⟨4, ![256, 16, 3, 3]⟩ : Shape).Idx → EReal) :
    (⟨5, ![4, 72, 16, 56, 56]⟩ : Shape).Idx → EReal :=
  fun i => ∑ k : Fin 32,
    (xp (ix5 (i 0) (chan (i 1) k) (prev (i 2)) (shift centre (i 3)) (shift centre (i 4)))
        * xp (ix5 (i 0) (chan (i 1) k) (i 2) (shift (tapRow (i 1)) (i 3)) (shift (tapCol (i 1)) (i 4))))
      * w (ix4 (chan (i 1) k) (i 2) (tapRow (i 1)) (tapCol (i 1)))

theorem resultPadded_apply (xp : (⟨5, ![4, 256, 16, 58, 58]⟩ : Shape).Idx → EReal) (w : (⟨4, ![256, 16, 3, 3]⟩ : Shape).Idx → EReal)
    (n : Fin 4) (j : Fin 72) (t : Fin 16) (h v : Fin 56) :
    resultPadded xp w (ix5 n j t h v) = ∑ k : Fin 32,
      (xp (ix5 n (chan j k) (prev t) (shift centre h) (shift centre v)) * xp (ix5 n (chan j k) t (shift (tapRow j) h) (shift (tapCol j) v)))
        * w (ix4 (chan j k) t (tapRow j) (tapCol j)) := rfl

/-- Where the padded copy's interior is the clip (the centre tap undoes the padding), the two readings agree. -/
theorem resultPadded_eq_result (x : (⟨5, ![4, 256, 16, 56, 56]⟩ : Shape).Idx → EReal) (xp : (⟨5, ![4, 256, 16, 58, 58]⟩ : Shape).Idx → EReal)
    (w : (⟨4, ![256, 16, 3, 3]⟩ : Shape).Idx → EReal)
    (hpad : ∀ (n : Fin 4) (c : Fin 256) (t : Fin 16) (h v : Fin 56), xp (ix5 n c t (shift centre h) (shift centre v)) = x (ix5 n c t h v)) :
    resultPadded xp w = result x xp w := by
  funext i
  obtain ⟨n, j, t, h, v, rfl⟩ : ∃ (n : Fin 4) (j : Fin 72) (t : Fin 16) (h v : Fin 56), i = ix5 n j t h v :=
    ⟨i 0, i 1, i 2, i 3, i 4, eq_ix5 i⟩
  rw [resultPadded_apply, result_apply]
  refine Finset.sum_congr rfl fun k _ => ?_
  unfold term
  rw [hpad]

end Cert.TapGroups

end
-- ==== Proof.StoredTap.lean ====
/-
  One tap of the body, read at an index: for a tap offset (r, s) the body multiplies the centre crop of the previous frame's
  block by the current frame's block shifted by (r, s) and by the weight's column at (r, s), cuts the 64 channels into two
  groups of 32 and sums each group. At the extended reals the group sum at (g, h, v) is the sum over the group's 32 channels
  of the three factors' product.
-/
import proofs.«164966_j19069654794413_2_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx

/-- The `k`-th channel of group `g` when 64 channels are cut into two groups of 32. -/
def gchan (g : Fin 2) (k : Fin 32) : Fin 64 := ⟨g.val * 32 + k.val, by have := g.isLt; have := k.isLt; omega⟩

/-- The group sum: 64 channels cut into [2, 32] and summed over the 32, at (g, h, v), is the sum over the group's channels. -/
theorem groupSum_apply (x : FVec Ideal S64x56x56 .f32) (g : Fin 2) (h v : Fin 56) :
    multiReduction .add [1] S2x56x56 (shapeCast S2x32x56x56 x shapeCasts_S64x56x56_S2x32x56x56) 0x00000000#32
        reduces_S2x32x56x56_S2x56x56 (.inl rfl) rfl (ix3 g h v)
      = ∑ k : Fin 32, x (ix3 (gchan g k) h v) := by
  refine (Ideal.multiReduction_add_single (shapeCast S2x32x56x56 x shapeCasts_S64x56x56_S2x32x56x56) 0x00000000#32
    reduces_S2x32x56x56_S2x56x56 (.inl rfl) rfl (ix3 g h v)).trans ?_
  show ∑ k : Fin 32, _ = _
  refine Finset.sum_congr rfl fun k _ => ?_
  refine shapeCast_apply x shapeCasts_S64x56x56_S2x32x56x56 _ (ix3 (gchan g k) h v) ?_
  rw [Shape.rowMajor_val_three, Shape.rowMajor_val_four]
  show ((g.val * 32 + k.val) * 56 + h.val) * 56 + v.val = ((g.val * 32 + k.val) * 56 + h.val) * 56 + v.val
  rfl

/-- The product of one tap at (c, h, v): the centre crop times the block shifted by the tap times the weight at the tap. -/
theorem tapProd_apply (r s : Nat) (hr : r < 3) (hs : s < 3) (v1 : FVec Ideal S64x58x58 .f32) (v5 : FVec Ideal S64x3x3 .f32)
    (v6 : FVec Ideal S64x56x56 .f32) (h1 : S64x58x58.Slices ![0, r, s] S64x56x56) (h5 : S64x3x3.Slices ![0, r, s] S64x1x1)
    (c : Fin 64) (h v : Fin 56) :
    mulf (mulf v6 (extractStridedSlice S64x56x56 ![0, r, s] v1 h1))
        (broadcastTo S64x56x56 (shapeCast S64x1x1 (shapeCast S64 (extractStridedSlice S64x1x1 ![0, r, s] v5 h5)
          shapeCasts_S64x1x1_S64) shapeCasts_S64_S64x1x1) broadcasts_S64x1x1_S64x56x56) (ix3 c h v)
      = (v6 (ix3 c h v) * v1 (ix3 c (⟨r + h.val, by have := h.isLt; omega⟩ : Fin 58) (⟨s + v.val, by have := v.isLt; omega⟩ : Fin 58)))
          * v5 (ix3 c (⟨r, hr⟩ : Fin 3) (⟨s, hs⟩ : Fin 3)) := by
  rw [mulf_apply, mulf_apply, shapeCast_shapeCast]
  congr 1
  · congr 1
    refine extractStridedSlice_apply _ v1 h1 _ _ fun a => ?_
    match a with
    | ⟨0, _⟩ => show c.val = 0 + c.val; omega
    | ⟨1, _⟩ => rfl
    | ⟨2, _⟩ => rfl
  · refine (broadcastTo_apply _ broadcasts_S64x1x1_S64x56x56 (ix3 c h v) (ix3 c (0 : Fin 1) (0 : Fin 1)) fun a => ?_).trans ?_
    · match a with
      | ⟨0, _⟩ => rfl
      | ⟨1, _⟩ => rfl
      | ⟨2, _⟩ => rfl
    · refine extractStridedSlice_apply _ v5 h5 _ _ fun a => ?_
      match a with
      | ⟨0, _⟩ => show c.val = 0 + c.val; omega
      | ⟨1, _⟩ => rfl
      | ⟨2, _⟩ => rfl

/-- One tap's group sum at (g, h, v). -/
theorem tapSum_apply (r s : Nat) (hr : r < 3) (hs : s < 3) (v1 : FVec Ideal S64x58x58 .f32) (v5 : FVec Ideal S64x3x3 .f32)
    (v6 : FVec Ideal S64x56x56 .f32) (h1 : S64x58x58.Slices ![0, r, s] S64x56x56) (h5 : S64x3x3.Slices ![0, r, s] S64x1x1)
    (g : Fin 2) (h v : Fin 56) :
    multiReduction .add [1] S2x56x56 (shapeCast S2x32x56x56
        (mulf (mulf v6 (extractStridedSlice S64x56x56 ![0, r, s] v1 h1))
          (broadcastTo S64x56x56 (shapeCast S64x1x1 (shapeCast S64 (extractStridedSlice S64x1x1 ![0, r, s] v5 h5)
            shapeCasts_S64x1x1_S64) shapeCasts_S64_S64x1x1) broadcasts_S64x1x1_S64x56x56))
        shapeCasts_S64x56x56_S2x32x56x56) 0x00000000#32 reduces_S2x32x56x56_S2x56x56 (.inl rfl) rfl (ix3 g h v)
      = ∑ k : Fin 32, (v6 (ix3 (gchan g k) h v)
            * v1 (ix3 (gchan g k) (⟨r + h.val, by have := h.isLt; omega⟩ : Fin 58) (⟨s + v.val, by have := v.isLt; omega⟩ : Fin 58)))
          * v5 (ix3 (gchan g k) (⟨r, hr⟩ : Fin 3) (⟨s, hs⟩ : Fin 3)) := by
  refine (groupSum_apply _ g h v).trans ?_
  exact Finset.sum_congr rfl fun k _ => tapProd_apply r s hr hs v1 v5 v6 h1 h5 (gchan g k) h v

end Cert.KernelIdeal.Hand

end
-- ==== Proof.StoredLoads.lean ====
/-
  The body's three loaded blocks as the taps read them: the two clip blocks [1, 64, 1, 58, 58] and the weight block [64, 1, 3, 3]
  with their unit axes dropped, and the previous frame's block cropped to its centre 56 x 56. With them, one tap's group sum at
  (g, h, v) as the sum over the group's 32 channels of (previous frame at the centre) * (current frame at the tap) * (weight at
  the tap), every factor read from the loaded blocks themselves.
-/
import proofs.«164966_j19069654794413_2_alg».proof.Proof.StoredTap
import proofs.«164966_j19069654794413_2_alg».proof.Proof.Spec
import Idealize.ShloMosaic.Lib.ValueLayout

noncomputable section

open scoped BigOperators

namespace Cert.KernelIdeal.Hand

open Cert.KernelIdeal Cert.KernelIdeal.Gen Idealize.ShloMosaic Idealize.ShloMosaic.ValueIdx Cert.TapGroups

/-- The current frame's block with its unit axes dropped, at (c, a, b). -/
theorem pay2_apply (v0 : Vec Ideal S1x64x1x58x58 .f32) (c : Fin 64) (a b : Fin 58) :
    k0_pay2 (F := Ideal) v0 (ix3 c a b) = v0 (ix5 (0 : Fin 1) c (0 : Fin 1) a b) := by
  unfold k0_pay2
  refine shapeCast_apply v0 shapeCasts_S1x64x1x58x58_S64x58x58 _ _ ?_
  rw [Shape.rowMajor_val_five, Shape.rowMajor_val_three]
  show (((0 * 64 + c.val) * 1 + 0) * 58 + a.val) * 58 + b.val = (c.val * 58 + a.val) * 58 + b.val
  omega

/-- The weight block with its unit axis dropped, at (c, r, s). -/
theorem pay3_apply (v4 : Vec Ideal S64x1x3x3 .f32) (c : Fin 64) (r s : Fin 3) :
    k0_pay3 (F := Ideal) v4 (ix3 c r s) = v4 (ix4 c (0 : Fin 1) r s) := by
  unfold k0_pay3
  refine shapeCast_apply v4 shapeCasts_S64x1x3x3_S64x3x3 _ _ ?_
  rw [Shape.rowMajor_val_four, Shape.rowMajor_val_three]
  show ((c.val * 1 + 0) * 3 + r.val) * 3 + s.val = (c.val * 3 + r.val) * 3 + s.val
  omega

/-- The previous frame's block cropped to its centre, at (c, h, v). -/
theorem pay4_apply (v2 : Vec Ideal S1x64x1x58x58 .f32) (c : Fin 64) (h v : Fin 56) :
    k0_pay4 (F := Ideal) v2 (ix3 c h v) = v2 (ix5 (0 : Fin 1) c (0 : Fin 1) (shift centre h) (shift centre v)) := by
  unfold k0_pay4
  refine (extractStridedSlice_apply _ _ slices_S64x58x58_o0_1_1_S64x56x56 (ix3 c h v) (ix3 c (shift centre h) (shift centre v))
    fun a => ?_).trans ?_
  · match a with
    | ⟨0, _⟩ => show c.val = 0 + c.val; omega
    | ⟨1, _⟩ => rfl
    | ⟨2, _⟩ => rfl
  · refine shapeCast_apply v2 shapeCasts_S1x64x1x58x58_S64x58x58 _ _ ?_
    rw [Shape.rowMajor_val_five, Shape.rowMajor_val_three]
    show (((0 * 64 + c.val) * 1 + 0) * 58 + (shift centre h).val) * 58 + (shift centre v).val
      = (c.val * 58 + (shift centre h).val) * 58 + (shift centre v).val
    omega

/-- One tap's group sum at (g, h, v) as a function of the loaded blocks. -/
def tapTerm (v0 v2 : Vec Ideal S1x64x1x58x58 .f32) (v4 : Vec Ideal S64x1x3x3 .f32) (r s : Fin 3) (g : Fin 2) (h v : Fin 56) : EReal :=
  ∑ k : Fin 32,
    (v2 (ix5 (0 : Fin 1) (gchan g k) (0 : Fin 1) (shift centre h) (shift centre v))
      * v0 (ix5 (0 : Fin 1) (gchan g k) (0 : Fin 1) (shift r h) (shift s v)))
    * v4 (ix4 (gchan g k) (0 : Fin 1) r s)

/-- The body's chain for the tap (r, s) over the loaded blocks is that sum. -/
theorem tapChain_apply (r s : Nat) (hr : r < 3) (hs : s < 3) (v0 v2 : Vec Ideal S1x64x1x58x58 .f32) (v4 : Vec Ideal S64x1x3x3 .f32)
    (h1 : S64x58x58.Slices ![0, r, s] S64x56x56) (h5 : S64x3x3.Slices ![0, r, s] S64x1x1) (g : Fin 2) (h v : Fin 56) :
    multiReduction .add [1] S2x56x56 (shapeCast S2x32x56x56
        (mulf (mulf (k0_pay4 (F := Ideal) v2) (extractStridedSlice S64x56x56 ![0, r, s] (k0_pay2 (F := Ideal) v0) h1))
          (broadcastTo S64x56x56 (shapeCast S64x1x1 (shapeCast S64 (extractStridedSlice S64x1x1 ![0, r, s] (k0_pay3 (F := Ideal) v4) h5)
            shapeCasts_S64x1x1_S64) shapeCasts_S64_S64x1x1) broadcasts_S64x1x1_S64x56x56))
        shapeCasts_S64x56x56_S2x32x56x56) 0x00000000#32 reduces_S2x32x56x56_S2x56x56 (.inl rfl) rfl (ix3 g h v)
      = tapTerm v0 v2 v4 ⟨r, hr⟩ ⟨s, hs⟩ g h v := by
  refine (tapSum_apply r s hr hs _ _ _ h1 h5 g h v).trans ?_
  unfold tapTerm
  refine Finset.sum_congr rfl fun k _ => ?_
  rw [pay4_apply, pay2_apply, pay3_apply]
  rfl

/-- The sum written with the block's output channel `j = g * 9 + (r * 3 + s)`. -/
theorem tapTerm_eq (v0 v2 : Vec Ideal S1x64x1x58x58 .f32) (v4 : Vec Ideal S64x1x3x3 .f32) (r s : Fin 3) (g : Fin 2) (j : Fin 18)
    (hj : j.val = g.val * 9 + (r.val * 3 + s.val)) (h v : Fin 56) :
    tapTerm v0 v2 v4 r s g h v
      = ∑ k : Fin 32,
          (v2 (ix5 (0 : Fin 1) (bchan j k) (0 : Fin 1) (shift centre h) (shift centre v))
            * v0 (ix5 (0 : Fin 1) (bchan j k) (0 : Fin 1) (shift (btapRow j) h) (shift (btapCol j) v)))
          * v4 (ix4 (bchan j k) (0 : Fin 1) (btapRow j) (btapCol j)) := by
  have e1 : btapRow j = r := Fin.ext (by show j.val % 9 / 3 = r.val; have := r.isLt; have := s.isLt; omega)
  have e2 : btapCol j = s := Fin.ext (by show j.val % 9 % 3 = s.val; have := r.isLt; have := s.isLt; omega)
  have e3 : ∀ k : Fin 32, bchan j k = gchan g k := fun k =>
    Fin.ext (by show j.val / 9 * 32 + k.val = g.val * 32 + k.val; have := r.isLt; have := s.isLt; omega)
  unfold tapTerm
  rw [e1, e2]
  exact Finset.sum_congr rfl fun k _ => by rw [e3 k]

end Cert.KernelIdeal.Hand

end
-- ==== Proof.StoredPays.lean ====
/-
  The nine taps of the body, each read at an index: every tap's payload is the same chain over the loaded blocks with its own
  offset (r, s), so each is the tap's group sum; six of them carry the cast [2, 56, 56] -> [1, 2, 56, 56] that prepares the stack.
-/
import proofs.«164966_j19069654794413_2_alg».proof.Proof.StoredLoads

noncomputable section

open scoped BigOperators

namespace Cert.KernelIdeal.Hand

open Cert.KernelIdeal Cert.KernelIdeal.Gen Idealize.ShloMosaic Idealize.ShloMosaic.ValueIdx Cert.TapGroups

/-- Tap (0, 0), with the unit axis the stack needs. -/
theorem pay13_apply (v0 v2 : Vec Ideal S1x64x1x58x58 .f32) (v4 : Vec Ideal S64x1x3x3 .f32) (u : Fin 1) (g : Fin 2) (h v : Fin 56) :
    k0_pay13 (F := Ideal) (k0_pay5 v0 v2 v4) (ix4 u g h v) = tapTerm v0 v2 v4 (⟨0, by omega⟩ : Fin 3) (⟨0, by omega⟩ : Fin 3) g h v := by
  unfold k0_pay13
  refine (shapeCast_abc_1abc_apply _ shapeCasts_S2x56x56_S1x2x56x56 u g h v).trans ?_
  unfold k0_pay5
  exact tapChain_apply 0 0 (by omega) (by omega) v0 v2 v4 _ _ g h v

/-- Tap (0, 1), with the unit axis the stack needs. -/
theorem pay14_apply (v0 v2 : Vec Ideal S1x64x1x58x58 .f32) (v4 : Vec Ideal S64x1x3x3 .f32) (u : Fin 1) (g : Fin 2) (h v : Fin 56) :
    k0_pay14 (F := Ideal) (k0_pay6 v0 v2 v4) (ix4 u g h v) = tapTerm v0 v2 v4 (⟨0, by omega⟩ : Fin 3) (⟨1, by omega⟩ : Fin 3) g h v := by
  unfold k0_pay14
  refine (shapeCast_abc_1abc_apply _ shapeCasts_S2x56x56_S1x2x56x56 u g h v).trans ?_
  unfold k0_pay6
  exact tapChain_apply 0 1 (by omega) (by omega) v0 v2 v4 _ _ g h v

/-- Tap (0, 2), with the unit axis the stack needs. -/
theorem pay15_apply (v0 v2 : Vec Ideal S1x64x1x58x58 .f32) (v4 : Vec Ideal S64x1x3x3 .f32) (u : Fin 1) (g : Fin 2) (h v : Fin 56) :
    k0_pay15 (F := Ideal) (k0_pay7 v0 v2 v4) (ix4 u g h v) = tapTerm v0 v2 v4 (⟨0, by omega⟩ : Fin 3) (⟨2, by omega⟩ : Fin 3) g h v := by
  unfold k0_pay15
  refine (shapeCast_abc_1abc_apply _ shapeCasts_S2x56x56_S1x2x56x56 u g h v).trans ?_
  unfold k0_pay7
  exact tapChain_apply 0 2 (by omega) (by omega) v0 v2 v4 _ _ g h v

/-- Tap (1, 0), with the unit axis the stack needs. -/
theorem pay16_apply (v0 v2 : Vec Ideal S1x64x1x58x58 .f32) (v4 : Vec Ideal S64x1x3x3 .f32) (u : Fin 1) (g : Fin 2) (h v : Fin 56) :
    k0_pay16 (F := Ideal) (k0_pay8 v0 v2) (k0_pay9 v4) (ix4 u g h v) = tapTerm v0 v2 v4 (⟨1, by omega⟩ : Fin 3) (⟨0, by omega⟩ : Fin 3) g h v := by
  unfold k0_pay16
  refine (shapeCast_abc_1abc_apply _ shapeCasts_S2x56x56_S1x2x56x56 u g h v).trans ?_
  unfold k0_pay8 k0_pay9
  exact tapChain_apply 1 0 (by omega) (by omega) v0 v2 v4 _ _ g h v

/-- Tap (1, 1), with the unit axis the stack needs. -/
theorem pay17_apply (v0 v2 : Vec Ideal S1x64x1x58x58 .f32) (v4 : Vec Ideal S64x1x3x3 .f32) (u : Fin 1) (g : Fin 2) (h v : Fin 56) :
    k0_pay17 (F := Ideal) (k0_pay2 v0) (k0_pay3 v4) (k0_pay4 v2) (ix4 u g h v) = tapTerm v0 v2 v4 (⟨1, by omega⟩ : Fin 3) (⟨1, by omega⟩ : Fin 3) g h v := by
  unfold k0_pay17
  refine (shapeCast_abc_1abc_apply _ shapeCasts_S2x56x56_S1x2x56x56 u g h v).trans ?_
  exact tapChain_apply 1 1 (by omega) (by omega) v0 v2 v4 _ _ g h v

/-- Tap (1, 2), with the unit axis the stack needs. -/
theorem pay18_apply (v0 v2 : Vec Ideal S1x64x1x58x58 .f32) (v4 : Vec Ideal S64x1x3x3 .f32) (u : Fin 1) (g : Fin 2) (h v : Fin 56) :
    k0_pay18 (F := Ideal) (k0_pay2 v0) (k0_pay3 v4) (k0_pay4 v2) (ix4 u g h v) = tapTerm v0 v2 v4 (⟨1, by omega⟩ : Fin 3) (⟨2, by omega⟩ : Fin 3) g h v := by
  unfold k0_pay18
  refine (shapeCast_abc_1abc_apply _ shapeCasts_S2x56x56_S1x2x56x56 u g h v).trans ?_
  exact tapChain_apply 1 2 (by omega) (by omega) v0 v2 v4 _ _ g h v

/-- Tap (2, 0). -/
theorem pay10_apply (v0 v2 : Vec Ideal S1x64x1x58x58 .f32) (v4 : Vec Ideal S64x1x3x3 .f32) (g : Fin 2) (h v : Fin 56) :
    k0_pay10 (F := Ideal) (k0_pay2 v0) (k0_pay3 v4) (k0_pay4 v2) (ix3 g h v) = tapTerm v0 v2 v4 (⟨2, by omega⟩ : Fin 3) (⟨0, by omega⟩ : Fin 3) g h v := by
  unfold k0_pay10
  exact tapChain_apply 2 0 (by omega) (by omega) v0 v2 v4 _ _ g h v

/-- Tap (2, 1). -/
theorem pay11_apply (v0 v2 : Vec Ideal S1x64x1x58x58 .f32) (v4 : Vec Ideal S64x1x3x3 .f32) (g : Fin 2) (h v : Fin 56) :
    k0_pay11 (F := Ideal) (k0_pay2 v0) (k0_pay3 v4) (k0_pay4 v2) (ix3 g h v) = tapTerm v0 v2 v4 (⟨2, by omega⟩ : Fin 3) (⟨1, by omega⟩ : Fin 3) g h v := by
  unfold k0_pay11
  exact tapChain_apply 2 1 (by omega) (by omega) v0 v2 v4 _ _ g h v

/-- Tap (2, 2). -/
theorem pay12_apply (v0 v2 : Vec Ideal S1x64x1x58x58 .f32) (v4 : Vec Ideal S64x1x3x3 .f32) (g : Fin 2) (h v : Fin 56) :
    k0_pay12 (F := Ideal) (k0_pay2 v0) (k0_pay3 v4) (k0_pay4 v2) (ix3 g h v) = tapTerm v0 v2 v4 (⟨2, by omega⟩ : Fin 3) (⟨2, by omega⟩ : Fin 3) g h v := by
  unfold k0_pay12
  exact tapChain_apply 2 2 (by omega) (by omega) v0 v2 v4 _ _ g h v

end Cert.KernelIdeal.Hand

end
-- ==== Proof.StoredStack.lean ====
/-
  The arrangement of the nine taps: nine [1, 2, 56, 56] arrays (group, row, column) stacked along a new leading axis in the order
  q = r * 3 + s, transposed to group-major [2, 9, 56, 56], flattened to the block's 18 channels j = g * 9 + q and cast to the stored
  block [1, 18, 1, 56, 56]. At (0, g * 9 + q, 0, h, v) it reads the stack at (q, g, h, v), and the stack reads its q-th piece at
  (0, g, h, v).
-/
import proofs.«164966_j19069654794413_2_alg».proof.Proof.Gen.KernelIdeal.Skeleton
import Idealize.ShloMosaic.Lib.ValueIdx
import Idealize.ShloMosaic.Lib.Pipeline.Value

noncomputable section

open scoped BigOperators

namespace Cert.KernelIdeal.Hand

open Cert.KernelIdeal Cert.KernelIdeal.Gen Idealize.ShloMosaic Idealize.ShloMosaic.ValueIdx

variable {α : Type}

/-- The stored block at channel `g * 9 + q` is the stack of the nine taps at (q, g, h, v). -/
theorem stack_apply (b6 b7 b8 : FVec Ideal S2x56x56 .f32) (a0 a1 a2 a3 a4 a5 : FVec Ideal S1x2x56x56 .f32)
    (u w : Fin 1) (g : Fin 2) (q : Fin 9) (h v : Fin 56) :
    k0_pay1 (F := Ideal) b6 b7 b8 a0 a1 a2 a3 a4 a5
        (ix5 u (⟨g.val * 9 + q.val, by have := g.isLt; have := q.isLt; omega⟩ : Fin 18) w h v)
      = concatenate S9x2x56x56 0 [⟨S1x2x56x56, a0⟩, ⟨S1x2x56x56, a1⟩, ⟨S1x2x56x56, a2⟩, ⟨S1x2x56x56, a3⟩, ⟨S1x2x56x56, a4⟩, ⟨S1x2x56x56, a5⟩, ⟨S1x2x56x56, shapeCast S1x2x56x56 b6 shapeCasts_S2x56x56_S1x2x56x56⟩, ⟨S1x2x56x56, shapeCast S1x2x56x56 b7 shapeCasts_S2x56x56_S1x2x56x56⟩, ⟨S1x2x56x56, shapeCast S1x2x56x56 b8 shapeCasts_S2x56x56_S1x2x56x56⟩]
          concatenates_S1x2x56x56_S1x2x56x56_S1x2x56x56_S1x2x56x56_S1x2x56x56_S1x2x56x56_S1x2x56x56_S1x2x56x56_S1x2x56x56_S9x2x56x56_d0 (ix4 q g h v) := by
  unfold k0_pay1
  have hu : u.val = 0 := by omega
  have hw : w.val = 0 := by omega
  refine (shapeCast_apply _ shapeCasts_S18x56x56_S1x18x1x56x56 _
    (ix3 (⟨g.val * 9 + q.val, by have := g.isLt; have := q.isLt; omega⟩ : Fin 18) h v) ?_).trans ?_
  · rw [Shape.rowMajor_val_five, Shape.rowMajor_val_three]
    show ((g.val * 9 + q.val) * 56 + h.val) * 56 + v.val
      = (((u.val * 18 + (g.val * 9 + q.val)) * 1 + w.val) * 56 + h.val) * 56 + v.val
    rw [hu, hw]; omega
  refine (shapeCast_apply _ shapeCasts_S2x9x56x56_S18x56x56 _ (ix4 g q h v) ?_).trans ?_
  · rw [Shape.rowMajor_val_three, Shape.rowMajor_val_four]
    show ((g.val * 9 + q.val) * 56 + h.val) * 56 + v.val = ((g.val * 9 + q.val) * 56 + h.val) * 56 + v.val
    rfl
  refine transpose_apply [1, 0, 2, 3] _ transposes_S9x2x56x56_p1_0_2_3_S2x9x56x56 (ix4 g q h v) (ix4 q g h v) fun b => ?_
  match b with
  | ⟨0, _⟩ => rfl
  | ⟨1, _⟩ => rfl
  | ⟨2, _⟩ => rfl
  | ⟨3, _⟩ => rfl

/-- A stack of [1, 2, 56, 56] pieces along the leading axis reads, at (k, g, h, v), its `k`-th piece at (0, g, h, v): the pieces
    before it have extent one each, so they take up `k` positions. -/
theorem stack_piece (xs : List ((s : Shape) × (s.Idx → α))) (hc : Shape.Concatenates (xs.map (·.1)) S9x2x56x56 0)
    (k : Nat) (hk9 : k < 9) (hk : k < xs.length) (x : S1x2x56x56.Idx → α) (hxk : xs[k] = ⟨S1x2x56x56, x⟩)
    (hpre : (((xs.take k).map (·.1)).map fun s => if h : s.rank = S9x2x56x56.rank then s.size ((0 : Fin 4).cast h.symm) else 0).sum = k)
    (u : Fin 1) (g : Fin 2) (h v : Fin 56) :
    concatenate S9x2x56x56 0 xs hc (ix4 (⟨k, hk9⟩ : Fin 9) g h v) = x (ix4 u g h v) := by
  refine concatenate_apply_piece (t := S9x2x56x56) (0 : Fin 4) xs hc _ k hk S1x2x56x56 x hxk rfl k hpre (ix4 u g h v) (fun b hb => ?_) ?_
  · match b with
    | ⟨0, _⟩ => exact absurd rfl hb
    | ⟨1, _⟩ => rfl
    | ⟨2, _⟩ => rfl
    | ⟨3, _⟩ => rfl
  · have hu : u.val = 0 := by omega
    show k + u.val = k
    omega

end Cert.KernelIdeal.Hand

end
-- ==== Proof.StoredValue.lean ====
/-
  The value the kernel body stores, read at one index of its output block [1, 18, 1, 56, 56]: at channel j = g * 9 + (r * 3 + s) and
  position (h, v) it is the group sum of tap (r, s), that is the sum over the 32 channels of group g of
  (previous frame's block at the centre) * (current frame's block shifted by the tap) * (weight block at the tap).
  The stored block reads the stack of the nine taps at (r * 3 + s, g, h, v); the stack reads its piece; the piece is the tap's sum.
-/
import proofs.«164966_j19069654794413_2_alg».proof.Proof.StoredIdeal
import proofs.«164966_j19069654794413_2_alg».proof.Proof.Spec
import proofs.«164966_j19069654794413_2_alg».proof.Proof.StoredPays
import proofs.«164966_j19069654794413_2_alg».proof.Proof.StoredStack

noncomputable section

open scoped BigOperators

namespace Cert.KernelIdeal.Hand

open Cert.KernelIdeal Cert.KernelIdeal.Gen Idealize.ShloMosaic Idealize.ShloMosaic.ValueIdx Cert.TapGroups

theorem stored_apply (v0 v2 : Vec Ideal S1x64x1x58x58 .f32) (v4 : Vec Ideal S64x1x3x3 .f32) (j : Fin 18) (h v : Fin 56) :
    stored (F := Ideal) v0 v2 v4 (ix5 (0 : Fin 1) j (0 : Fin 1) h v)
      = ∑ k : Fin 32,
          (v2 (ix5 (0 : Fin 1) (bchan j k) (0 : Fin 1) (shift centre h) (shift centre v))
            * v0 (ix5 (0 : Fin 1) (bchan j k) (0 : Fin 1) (shift (btapRow j) h) (shift (btapCol j) v)))
          * v4 (ix4 (bchan j k) (0 : Fin 1) (btapRow j) (btapCol j)) := by
  obtain ⟨g, q, rfl⟩ : ∃ (g : Fin 2) (q : Fin 9),
      j = (⟨g.val * 9 + q.val, by have := g.isLt; have := q.isLt; omega⟩ : Fin 18) :=
    ⟨⟨j.val / 9, by have := j.isLt; omega⟩, ⟨j.val % 9, by omega⟩,
      Fin.ext (by show j.val = j.val / 9 * 9 + j.val % 9; omega)⟩
  unfold stored
  refine (stack_apply _ _ _ _ _ _ _ _ _ (0 : Fin 1) (0 : Fin 1) g q h v).trans ?_
  match q with
  | ⟨0, _⟩ =>
    exact (stack_piece _ _ 0 (by omega) (by show (0 : Nat) < 9; omega) _ rfl rfl (0 : Fin 1) g h v).trans
      ((pay13_apply v0 v2 v4 (0 : Fin 1) g h v).trans (tapTerm_eq v0 v2 v4 _ _ g _ rfl h v))
  | ⟨1, _⟩ =>
    exact (stack_piece _ _ 1 (by omega) (by show (1 : Nat) < 9; omega) _ rfl rfl (0 : Fin 1) g h v).trans
      ((pay14_apply v0 v2 v4 (0 : Fin 1) g h v).trans (tapTerm_eq v0 v2 v4 _ _ g _ rfl h v))
  | ⟨2, _⟩ =>
    exact (stack_piece _ _ 2 (by omega) (by show (2 : Nat) < 9; omega) _ rfl rfl (0 : Fin 1) g h v).trans
      ((pay15_apply v0 v2 v4 (0 : Fin 1) g h v).trans (tapTerm_eq v0 v2 v4 _ _ g _ rfl h v))
  | ⟨3, _⟩ =>
    exact (stack_piece _ _ 3 (by omega) (by show (3 : Nat) < 9; omega) _ rfl rfl (0 : Fin 1) g h v).trans
      ((pay16_apply v0 v2 v4 (0 : Fin 1) g h v).trans (tapTerm_eq v0 v2 v4 _ _ g _ rfl h v))
  | ⟨4, _⟩ =>
    exact (stack_piece _ _ 4 (by omega) (by show (4 : Nat) < 9; omega) _ rfl rfl (0 : Fin 1) g h v).trans
      ((pay17_apply v0 v2 v4 (0 : Fin 1) g h v).trans (tapTerm_eq v0 v2 v4 _ _ g _ rfl h v))
  | ⟨5, _⟩ =>
    exact (stack_piece _ _ 5 (by omega) (by show (5 : Nat) < 9; omega) _ rfl rfl (0 : Fin 1) g h v).trans
      ((pay18_apply v0 v2 v4 (0 : Fin 1) g h v).trans (tapTerm_eq v0 v2 v4 _ _ g _ rfl h v))
  | ⟨6, _⟩ =>
    exact (stack_piece _ _ 6 (by omega) (by show (6 : Nat) < 9; omega) _ rfl rfl (0 : Fin 1) g h v).trans
      (((shapeCast_abc_1abc_apply _ shapeCasts_S2x56x56_S1x2x56x56 (0 : Fin 1) g h v).trans (pay10_apply v0 v2 v4 g h v)).trans (tapTerm_eq v0 v2 v4 _ _ g _ rfl h v))
  | ⟨7, _⟩ =>
    exact (stack_piece _ _ 7 (by omega) (by show (7 : Nat) < 9; omega) _ rfl rfl (0 : Fin 1) g h v).trans
      (((shapeCast_abc_1abc_apply _ shapeCasts_S2x56x56_S1x2x56x56 (0 : Fin 1) g h v).trans (pay11_apply v0 v2 v4 g h v)).trans (tapTerm_eq v0 v2 v4 _ _ g _ rfl h v))
  | ⟨8, _⟩ =>
    exact (stack_piece _ _ 8 (by omega) (by show (8 : Nat) < 9; omega) _ rfl rfl (0 : Fin 1) g h v).trans
      (((shapeCast_abc_1abc_apply _ shapeCasts_S2x56x56_S1x2x56x56 (0 : Fin 1) g h v).trans (pay12_apply v0 v2 v4 g h v)).trans (tapTerm_eq v0 v2 v4 _ _ g _ rfl h v))

end Cert.KernelIdeal.Hand

end
-- ==== Proof.BlockEntry.lean ====
/-
  One grid step's stored block against the whole result. At the step of batch `n`, channel block `gb` (64 input channels, two
  groups, 18 output channels) and frame `tt`, the three blocks the body loads are the padded clip's channels gb·64 … gb·64+63 at
  frames `tt` and `tt − 1` and the weight's same channels at frame `tt`; what the body stores at (j, h, v) is then the result's
  padded-copy reading at (n, gb·18 + j, tt, h, v): the block's channel gb·18 + j has group 2·gb + j / 9, whose k-th input channel is
  gb·64 + (j / 9)·32 + k, and tap j % 9.
-/
import proofs.«164966_j19069654794413_2_alg».proof.Proof.StoredValue
import proofs.«164966_j19069654794413_2_alg».proof.Proof.Spec

noncomputable section

open scoped BigOperators

namespace Cert.KernelIdeal.Hand

open Cert.KernelIdeal Cert.KernelIdeal.Gen Idealize.ShloMosaic Idealize.ShloMosaic.ValueIdx Cert.TapGroups

theorem block_entry (xp : (⟨5, ![4, 256, 16, 58, 58]⟩ : Shape).Idx → EReal) (wt : (⟨4, ![256, 16, 3, 3]⟩ : Shape).Idx → EReal)
    (x0 x1 : Vec Ideal S1x64x1x58x58 .f32) (x2 : Vec Ideal S64x1x3x3 .f32) (n : Fin 4) (gb : Fin 4) (tt : Fin 16)
    (h0 : ∀ (cc : Fin 64) (a b : Fin 58), x0 (ix5 (0 : Fin 1) cc (0 : Fin 1) a b)
      = xp (ix5 n (⟨gb.val * 64 + cc.val, by have := gb.isLt; have := cc.isLt; omega⟩ : Fin 256) tt a b))
    (h1 : ∀ (cc : Fin 64) (a b : Fin 58), x1 (ix5 (0 : Fin 1) cc (0 : Fin 1) a b)
      = xp (ix5 n (⟨gb.val * 64 + cc.val, by have := gb.isLt; have := cc.isLt; omega⟩ : Fin 256) (prev tt) a b))
    (h2 : ∀ (cc : Fin 64) (r s : Fin 3), x2 (ix4 cc (0 : Fin 1) r s)
      = wt (ix4 (⟨gb.val * 64 + cc.val, by have := gb.isLt; have := cc.isLt; omega⟩ : Fin 256) tt r s))
    (j : Fin 18) (h v : Fin 56) :
    stored (F := Ideal) x0 x1 x2 (ix5 (0 : Fin 1) j (0 : Fin 1) h v)
      = resultPadded xp wt (ix5 n (⟨gb.val * 18 + j.val, by have := gb.isLt; have := j.isLt; omega⟩ : Fin 72) tt h v) := by
  rw [stored_apply, resultPadded_apply]
  refine Finset.sum_congr rfl fun k _ => ?_
  rw [h1, h0, h2]
  have hc : (⟨gb.val * 64 + (bchan j k).val, by have := gb.isLt; have := (bchan j k).isLt; omega⟩ : Fin 256)
      = chan (⟨gb.val * 18 + j.val, by have := gb.isLt; have := j.isLt; omega⟩ : Fin 72) k :=
    Fin.ext (by show gb.val * 64 + (j.val / 9 * 32 + k.val) = (gb.val * 18 + j.val) / 9 * 32 + k.val; omega)
  have hr : btapRow j = tapRow (⟨gb.val * 18 + j.val, by have := gb.isLt; have := j.isLt; omega⟩ : Fin 72) :=
    Fin.ext (by show j.val % 9 / 3 = (gb.val * 18 + j.val) % 9 / 3; omega)
  have hs : btapCol j = tapCol (⟨gb.val * 18 + j.val, by have := gb.isLt; have := j.isLt; omega⟩ : Fin 72) :=
    Fin.ext (by show j.val % 9 % 3 = (gb.val * 18 + j.val) % 9 % 3; omega)
  rw [hc, hr, hs]

end Cert.KernelIdeal.Hand

end
-- ==== Proof.ValueIdeal.lean ====
/-
  From the per-point blocks to the whole result array, at the ideal instance. Point `t` of the grid is (batch n, frame tt, channel
  block gb); it writes back block (n, gb, tt) of the result — 18 channels of one frame — and that block is the result's padded-copy
  reading (`TapGroups.resultPadded`) of the padded clip and the weight as the region finds them, restricted to the block
  (`flushed3_eq`). The blocks tile the result array (`covered3`), so the array ends holding that function whole (`final3`).
-/
import proofs.«164966_j19069654794413_2_alg».proof.Proof.RunIdeal
import proofs.«164966_j19069654794413_2_alg».proof.Proof.BlockEntry
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Cert.TapGroups
open Idealize.ShloMosaic.Pipeline (Dat Cfg Window)

variable (m : (ℓ : Loc nD τ sig) → Buf (Elt Ideal) ℓ) (ρ : Dev nD → PrngReg)

theorem hz5 : (![0, 0, 0, 0, 0] : Fin 5 → Nat) = fun _ => 0 := funext fun a => by fin_cases a <;> rfl
theorem hz4 : (![0, 0, 0, 0] : Fin 4 → Nat) = fun _ => 0 := funext fun a => by fin_cases a <;> rfl

/-- The printed index maps, decided over the grid: the current-frame window and the weight window move with the output window,
    the previous-frame window one frame behind (truncated at frame 0), and the output's block indices stay in their ranges. -/
theorem idx_facts : ∀ t : Fin cfg0.N,
    win0_0.index t (0 : Fin 5) = win0_3.index t (0 : Fin 5) ∧ win0_0.index t (1 : Fin 5) = win0_3.index t (1 : Fin 5)
    ∧ win0_0.index t (2 : Fin 5) = win0_3.index t (2 : Fin 5) ∧ win0_0.index t (3 : Fin 5) = 0 ∧ win0_0.index t (4 : Fin 5) = 0
    ∧ win0_1.index t (0 : Fin 5) = win0_3.index t (0 : Fin 5) ∧ win0_1.index t (1 : Fin 5) = win0_3.index t (1 : Fin 5)
    ∧ win0_1.index t (2 : Fin 5) = win0_3.index t (2 : Fin 5) - 1 ∧ win0_1.index t (3 : Fin 5) = 0 ∧ win0_1.index t (4 : Fin 5) = 0
    ∧ win0_2.index t (0 : Fin 4) = win0_3.index t (1 : Fin 5) ∧ win0_2.index t (1 : Fin 4) = win0_3.index t (2 : Fin 5)
    ∧ win0_2.index t (2 : Fin 4) = 0 ∧ win0_2.index t (3 : Fin 4) = 0
    ∧ win0_3.index t (0 : Fin 5) < 4 ∧ win0_3.index t (1 : Fin 5) < 4 ∧ win0_3.index t (2 : Fin 5) < 16
    ∧ win0_3.index t (3 : Fin 5) = 0 ∧ win0_3.index t (4 : Fin 5) = 0 :=
  (by decide +kernel : ∀ t : Fin grid0.N, _)

/-- Every block of the result is some point's. -/
theorem idx_onto : ∀ (q0 : Fin 4) (q1 : Fin 4) (q2 : Fin 16), ∃ t : Fin cfg0.N, win0_3.index t = ![q0.val, q1.val, q2.val, 0, 0] :=
  (by decide +kernel : ∀ (q0 : Fin 4) (q1 : Fin 4) (q2 : Fin 16), ∃ t : Fin grid0.N, win0_3.index t = ![q0.val, q1.val, q2.val, 0, 0])

/-- WHAT POINT `t` WRITES BACK is block `t` of the padded-copy reading of the result. -/
theorem flushed3_eq (c : Dev nD) (t : Fin cfg0.N) :
    (dats m 0 c).flushed 3 t = ((cfg0.win 3).blk t).view.read (Elt Ideal) (resultPadded (V m c main_v0) (V m c main_arg1)) := by
  show (cfg0.win 3).cut (grid0.coords t) ((dats m 0 c).after 3 t) = _
  rw [after0_3]
  unfold out0_3
  rw [View.canon_unit_zero hz5]
  simp only [View.ld_unit_zero (S := S1x64x1x58x58) hz5, View.ld_unit_zero (S := S64x1x3x3) hz4]
  obtain ⟨e00, e01, e02, e03, e04, e10, e11, e12, e13, e14, e20, e21, e22, e23, b0, b1, b2, e33, e34⟩ := idx_facts t
  funext y
  obtain ⟨a, j, b, h, v, rfl⟩ : ∃ (a : Fin 1) (j : Fin 18) (b : Fin 1) (h v : Fin 56), y = ix5 a j b h v :=
    ⟨y 0, y 1, y 2, y 3, y 4, eq_ix5 y⟩
  obtain rfl : a = 0 := Subsingleton.elim _ _
  obtain rfl : b = 0 := Subsingleton.elim _ _
  refine (block_entry (V m c main_v0) (V m c main_arg1) (iblk m c 0 t) (iblk m c 1 t) (iblk m c 2 t)
    ⟨win0_3.index t (0 : Fin 5), b0⟩ ⟨win0_3.index t (1 : Fin 5), b1⟩ ⟨win0_3.index t (2 : Fin 5), b2⟩ ?_ ?_ ?_ j h v).trans ?_
  · intro cc p q
    show V m c main_v0 (((cfg0.win 0).blk t).view.emb (ix5 (0 : Fin 1) cc (0 : Fin 1) p q)) = _
    refine congrArg (V m c main_v0) (funext fun d => Fin.ext ?_)
    match d with
    | ⟨0, _⟩ => show win0_0.index t (0 : Fin 5) * 1 + 1 * 0 = win0_3.index t (0 : Fin 5); omega
    | ⟨1, _⟩ => show win0_0.index t (1 : Fin 5) * 64 + 1 * cc.val = win0_3.index t (1 : Fin 5) * 64 + cc.val; omega
    | ⟨2, _⟩ => show win0_0.index t (2 : Fin 5) * 1 + 1 * 0 = win0_3.index t (2 : Fin 5); omega
    | ⟨3, _⟩ => show win0_0.index t (3 : Fin 5) * 58 + 1 * p.val = p.val; omega
    | ⟨4, _⟩ => show win0_0.index t (4 : Fin 5) * 58 + 1 * q.val = q.val; omega
  · intro cc p q
    show V m c main_v0 (((cfg0.win 1).blk t).view.emb (ix5 (0 : Fin 1) cc (0 : Fin 1) p q)) = _
    refine congrArg (V m c main_v0) (funext fun d => Fin.ext ?_)
    match d with
    | ⟨0, _⟩ => show win0_1.index t (0 : Fin 5) * 1 + 1 * 0 = win0_3.index t (0 : Fin 5); omega
    | ⟨1, _⟩ => show win0_1.index t (1 : Fin 5) * 64 + 1 * cc.val = win0_3.index t (1 : Fin 5) * 64 + cc.val; omega
    | ⟨2, _⟩ => show win0_1.index t (2 : Fin 5) * 1 + 1 * 0 = win0_3.index t (2 : Fin 5) - 1; omega
    | ⟨3, _⟩ => show win0_1.index t (3 : Fin 5) * 58 + 1 * p.val = p.val; omega
    | ⟨4, _⟩ => show win0_1.index t (4 : Fin 5) * 58 + 1 * q.val = q.val; omega
  · intro cc r s
    show V m c main_arg1 (((cfg0.win 2).blk t).view.emb (ix4 cc (0 : Fin 1) r s)) = _
    refine congrArg (V m c main_arg1) (funext fun d => Fin.ext ?_)
    match d with
    | ⟨0, _⟩ => show win0_2.index t (0 : Fin 4) * 64 + 1 * cc.val = win0_3.index t (1 : Fin 5) * 64 + cc.val; omega
    | ⟨1, _⟩ => show win0_2.index t (1 : Fin 4) * 1 + 1 * 0 = win0_3.index t (2 : Fin 5); omega
    | ⟨2, _⟩ => show win0_2.index t (2 : Fin 4) * 3 + 1 * r.val = r.val; omega
    | ⟨3, _⟩ => show win0_2.index t (3 : Fin 4) * 3 + 1 * s.val = s.val; omega
  · show _ = resultPadded (V m c main_v0) (V m c main_arg1) (((cfg0.win 3).blk t).view.emb (ix5 (0 : Fin 1) j (0 : Fin 1) h v))
    refine congrArg (resultPadded (V m c main_v0) (V m c main_arg1)) (funext fun d => Fin.ext ?_)
    match d with
    | ⟨0, _⟩ => show win0_3.index t (0 : Fin 5) = win0_3.index t (0 : Fin 5) * 1 + 1 * 0; omega
    | ⟨1, _⟩ => show win0_3.index t (1 : Fin 5) * 18 + j.val = win0_3.index t (1 : Fin 5) * 18 + 1 * j.val; omega
    | ⟨2, _⟩ => show win0_3.index t (2 : Fin 5) = win0_3.index t (2 : Fin 5) * 1 + 1 * 0; omega
    | ⟨3, _⟩ => show h.val = win0_3.index t (3 : Fin 5) * 56 + 1 * h.val; omega
    | ⟨4, _⟩ => show v.val = win0_3.index t (4 : Fin 5) * 56 + 1 * v.val; omega

/-- An index of the result is in point `t`'s block iff each coordinate is in the block's range on its axis. -/
theorem mem_blk3 (t : Fin cfg0.N) (i : S4x72x16x56x56.Idx) :
    i ∈ ((cfg0.win 3).blk t).view.set ↔ ∀ a : Fin 5, win0_3.index t a * S1x18x1x56x56.size a ≤ (i a).val
      ∧ (i a).val < win0_3.index t a * S1x18x1x56x56.size a + S1x18x1x56x56.size a := by
  show i ∈ ((View.whole main_v1).slice (win0_3.rect t)).set ↔ _
  rw [View.set_slice_whole, Rect.mem_set_unit]
  exact Iff.rfl

/-- The blocks tile the result: every index is in the block of the point of its batch, its 18-channel block and its frame. -/
theorem covered3 (i : S4x72x16x56x56.Idx) : ∃ t : Fin cfg0.N, (cfg0.win 3).flush t = true ∧ i ∈ ((cfg0.win 3).blk t).view.set := by
  have hi0 : (i 0).val < 4 := (i 0).isLt
  have hi1 : (i 1).val < 72 := (i 1).isLt
  have hi2 : (i 2).val < 16 := (i 2).isLt
  have hi3 : (i 3).val < 56 := (i 3).isLt
  have hi4 : (i 4).val < 56 := (i 4).isLt
  obtain ⟨t, ht⟩ := idx_onto ⟨(i 0).val, hi0⟩ ⟨(i 1).val / 18, by omega⟩ ⟨(i 2).val, hi2⟩
  have q0 : win0_3.index t (0 : Fin 5) = (i 0).val := congrFun ht 0
  have q1 : win0_3.index t (1 : Fin 5) = (i 1).val / 18 := congrFun ht 1
  have q2 : win0_3.index t (2 : Fin 5) = (i 2).val := congrFun ht 2
  have q3 : win0_3.index t (3 : Fin 5) = 0 := congrFun ht 3
  have q4 : win0_3.index t (4 : Fin 5) = 0 := congrFun ht 4
  refine ⟨t, flush0_3 t, ?_⟩
  rw [mem_blk3]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 18 ≤ (i 1).val ∧ (i 1).val < win0_3.index t (1 : Fin 5) * 18 + 18; omega
  | ⟨2, _⟩ => show win0_3.index t (2 : Fin 5) * 1 ≤ (i 2).val ∧ (i 2).val < win0_3.index t (2 : Fin 5) * 1 + 1; omega
  | ⟨3, _⟩ => show win0_3.index t (3 : Fin 5) * 56 ≤ (i 3).val ∧ (i 3).val < win0_3.index t (3 : Fin 5) * 56 + 56; omega
  | ⟨4, _⟩ => show win0_3.index t (4 : Fin 5) * 56 ≤ (i 4).val ∧ (i 4).val < win0_3.index t (4 : Fin 5) * 56 + 56; omega

/-- THE RESULT ARRAY after the run: the padded-copy reading of the result, of the padded clip and the weight as the region finds them. -/
theorem final3 (c : Dev nD) : (dats m 0 c).arrAt 3 cfg0.N = resultPadded (V m c main_v0) (V m c main_arg1) :=
  (dats m 0 c).arrAt_eq_of_cover 3 (resultPadded (V m c main_v0) (V m c main_arg1)) (fun t _ => flushed3_eq m c t) covered3

end Cert.KernelIdeal.Hand

end
-- ==== Proof.LibPadCentre.lean ====
/-
  A rank-5 array padded by one position on each side of its last two axes (low 1, high 1, no interior padding; the other axes
  untouched) reads, at a position shifted by one on both of those axes, as the array itself: the pad's interior is the operand.
-/
import Idealize.ShloMosaic.PureOps.Ideal
import Idealize.ShloMosaic.Lib.ValueIdx

noncomputable section

namespace Idealize.ShloMosaic.PadCentre

open Idealize.ShloMosaic Idealize.ShloMosaic.ValueIdx

/-- `pad` by (1, 1) on axes 3 and 4 of an [a, b, c, d, e] array, read at (n, k, t, 1 + h, 1 + w), is the operand at (n, k, t, h, w),
    whatever the padding value. -/
theorem pad_centre_apply {α : Type} {a b c d e : Nat} (x : (⟨5, ![a, b, c, d, e]⟩ : Shape).Idx → α) {u : Shape} (v : u.Idx → α)
    (hp : (⟨5, ![a, b, c, d, e]⟩ : Shape).Pads (![0, 0, 0, 1, 1] : Fin 5 → Nat) ![0, 0, 0, 1, 1] ![0, 0, 0, 0, 0] ⟨5, ![a, b, c, d + 2, e + 2]⟩)
    (hu : 0 < u.numel) (n : Fin a) (k : Fin b) (t : Fin c) (h : Fin d) (w : Fin e) :
    pad (⟨5, ![a, b, c, d + 2, e + 2]⟩ : Shape) ![0, 0, 0, 1, 1] ![0, 0, 0, 1, 1] ![0, 0, 0, 0, 0] x v hp hu
        (ix5 n k t (⟨1 + h.val, by have := h.isLt; omega⟩ : Fin (d + 2)) (⟨1 + w.val, by have := w.isLt; omega⟩ : Fin (e + 2)))
      = x (ix5 n k t h w) := by
  unfold pad
  have hin : ∀ q : Fin 5, (![0, 0, 0, 1, 1] : Fin 5 → Nat) q ≤ ((ix5 n k t (⟨1 + h.val, by have := h.isLt; omega⟩ : Fin (d + 2)) (⟨1 + w.val, by have := w.isLt; omega⟩ : Fin (e + 2)) : (⟨5, ![a, b, c, d + 2, e + 2]⟩ : Shape).Idx) (q.cast hp.1)).val
      ∧ (((ix5 n k t (⟨1 + h.val, by have := h.isLt; omega⟩ : Fin (d + 2)) (⟨1 + w.val, by have := w.isLt; omega⟩ : Fin (e + 2)) : (⟨5, ![a, b, c, d + 2, e + 2]⟩ : Shape).Idx) (q.cast hp.1)).val - (![0, 0, 0, 1, 1] : Fin 5 → Nat) q) % ((![0, 0, 0, 0, 0] : Fin 5 → Nat) q + 1) = 0
      ∧ (((ix5 n k t (⟨1 + h.val, by have := h.isLt; omega⟩ : Fin (d + 2)) (⟨1 + w.val, by have := w.isLt; omega⟩ : Fin (e + 2)) : (⟨5, ![a, b, c, d + 2, e + 2]⟩ : Shape).Idx) (q.cast hp.1)).val - (![0, 0, 0, 1, 1] : Fin 5 → Nat) q) / ((![0, 0, 0, 0, 0] : Fin 5 → Nat) q + 1) < (⟨5, ![a, b, c, d, e]⟩ : Shape).size q := by
    intro q
    match q with
    | ⟨0, _⟩ => show 0 ≤ n.val ∧ (n.val - 0) % (0 + 1) = 0 ∧ (n.val - 0) / (0 + 1) < a; have := n.isLt; omega
    | ⟨1, _⟩ => show 0 ≤ k.val ∧ (k.val - 0) % (0 + 1) = 0 ∧ (k.val - 0) / (0 + 1) < b; have := k.isLt; omega
    | ⟨2, _⟩ => show 0 ≤ t.val ∧ (t.val - 0) % (0 + 1) = 0 ∧ (t.val - 0) / (0 + 1) < c; have := t.isLt; omega
    | ⟨3, _⟩ => show 1 ≤ 1 + h.val ∧ (1 + h.val - 1) % (0 + 1) = 0 ∧ (1 + h.val - 1) / (0 + 1) < d; have := h.isLt; omega
    | ⟨4, _⟩ => show 1 ≤ 1 + w.val ∧ (1 + w.val - 1) % (0 + 1) = 0 ∧ (1 + w.val - 1) / (0 + 1) < e; have := w.isLt; omega
  rw [dif_pos hin]
  refine congrArg x (funext fun q => Fin.ext ?_)
  match q with
  | ⟨0, _⟩ => show (n.val - 0) / (0 + 1) = n.val; omega
  | ⟨1, _⟩ => show (k.val - 0) / (0 + 1) = k.val; omega
  | ⟨2, _⟩ => show (t.val - 0) / (0 + 1) = t.val; omega
  | ⟨3, _⟩ => show (1 + h.val - 1) / (0 + 1) = h.val; omega
  | ⟨4, _⟩ => show (1 + w.val - 1) / (0 + 1) = w.val; omega

end Idealize.ShloMosaic.PadCentre

end
-- ==== Proof.KernelRunIdeal.lean ====
/-
  The idealized kernel's run, read as the specification. The region finds the padded clip's buffer at the host's pad of the launched
  clip; the result array ends at the padded-copy reading of the result (ValueIdeal's `final3`); and the pad's interior is the clip, so
  that reading is `TapGroups.result` of the clip, its padded copy and the weight.
-/
import proofs.«164966_j19069654794413_2_alg».proof.Proof.ValueIdeal
import proofs.«164966_j19069654794413_2_alg».proof.Proof.LibPadCentre
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem Cert.TapGroups
open Idealize.ShloMosaic.Pipeline (Dat Cfg Window)

variable (m : (ℓ : Loc nD τ sig) → Buf (Elt Ideal) ℓ) (ρ : Dev nD → PrngReg)

/-! ## The run, read -/

/-- The padded clip: the host's pad of the clip by one zero position on each side of the two spatial axes (the padding value is
    the integer 0 converted to a float). -/
def padded (x : S4x256x16x56x56.Idx → EReal) : S4x256x16x58x58.Idx → EReal :=
  pad S4x256x16x58x58 ![0, 0, 0, 1, 1] ![0, 0, 0, 1, 1] ![0, 0, 0, 0, 0] x (sitofp (F := Ideal) .f32 (constantI S_ 32 0#32))
    pads_S4x256x16x56x56_S4x256x16x58x58_000_000_000_110_110 h_S_

/-- The region finds the padded clip's buffer at the host's pad of the launched clip. -/
theorem V_main_v0 (c : Dev nD) : (V m c main_v0 : S4x256x16x58x58.Idx → EReal) = padded (m ((c : Thread nD τ).loc main_arg0)) := by
  dsimp only [V]
  simp only [hostOps0, hostOps0_1, List.flatten_cons, List.flatten_nil, List.append_nil, List.cons_append, List.nil_append]
  after_results
  rfl

/-- The padded clip's interior is the clip: the centre tap undoes the padding. -/
theorem padded_centre (x : S4x256x16x56x56.Idx → EReal) (n : Fin 4) (k : Fin 256) (t : Fin 16) (h v : Fin 56) :
    padded x (ix5 n k t (shift centre h) (shift centre v)) = x (ix5 n k t h v) :=
  PadCentre.pad_centre_apply (a := 4) (b := 256) (c := 16) (d := 56) (e := 56) x _ _ _ n k t h v

/-- THE KERNEL'S RUN at the ideal instance: every weakly fair execution of @main terminates with the result array at
    `TapGroups.result` of the launched clip, its padded copy and the launched weight, the arguments unchanged. -/
theorem run : θ_run defs (onTc (τ := τ) (main (F := Ideal))) ⟨m, fun _ => 0, ρ⟩ fun r => ∀ c : Dev nD,
      r.2.mem ((c : Thread nD τ).loc main_v1)
        = result (m ((c : Thread nD τ).loc main_arg0)) (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨(((h c).1 3).trans (final3 m c)).trans (by
        rw [V_main_v0, V_main_arg1]
        exact resultPadded_eq_result _ _ _ (padded_centre _)),
      ((h c).2 main_arg0 (Pipeline.mem_restRefs_of main_arg0 rfl (by decide))).trans (V_main_arg0 m c),
      ((h c).1 2).trans (((dats m 0 c).arrAt_in 2 rfl _).trans ((A_eq m c 2).trans (V_main_arg1 m c)))⟩) (run_main m ρ)

end Cert.KernelIdeal.Hand

end
-- ==== Proof.RefLayout.lean ====
/-
  Two regroupings of an axis, read at an index, for any element type.

  Splitting the 256-long channel axis of a [4, 256, 16, 56, 56] array into 8 groups of 32 gives a [4, 8, 32, 16, 56, 56]
  array whose entry (n, g, k, t, h, v) is the operand's entry (n, 32 g + k, t, h, v); merging the axes of extents 8 and 9
  of a [4, 8, 9, 16, 56, 56] array gives a [4, 72, 16, 56, 56] array whose entry (n, j, t, h, v) is the operand's entry
  (n, j / 9, j % 9, t, h, v). Both are shape casts, which keep the row-major position.
-/
import Idealize.ShloMosaic.Lib.Pipeline.Value
import Idealize.ShloMosaic.Lib.ValueIdxRank6

namespace Cert.ReferenceIdeal.RefLayout

open Idealize.ShloMosaic Idealize.ShloMosaic.ValueIdx

variable {α : Type}

/-- The `k`-th channel of group `g`. -/
def gchan (g : Fin 8) (k : Fin 32) : Fin 256 := ⟨g.val * 32 + k.val, by have := g.isLt; have := k.isLt; omega⟩

/-- The group of output channel `j`. -/
def group (j : Fin 72) : Fin 8 := ⟨j.val / 9, by have := j.isLt; omega⟩

/-- The tap number of output channel `j`. -/
def tap (j : Fin 72) : Fin 9 := ⟨j.val % 9, by omega⟩

/-- The channel axis split into 8 groups of 32, read at an index. -/
theorem split_apply (y : (⟨5, ![4, 256, 16, 56, 56]⟩ : Shape).Idx → α)
    (hc : (⟨5, ![4, 256, 16, 56, 56]⟩ : Shape).ShapeCasts ⟨6, ![4, 8, 32, 16, 56, 56]⟩)
    (n : Fin 4) (g : Fin 8) (k : Fin 32) (t : Fin 16) (h v : Fin 56) :
    shapeCast ⟨6, ![4, 8, 32, 16, 56, 56]⟩ y hc (ix6 n g k t h v) = y (ix5 n (gchan g k) t h v) := by
  refine shapeCast_apply y hc _ _ ?_
  rw [Shape.rowMajor_val_five, Shape.rowMajor_val_six]
  show (((n.val * 256 + (g.val * 32 + k.val)) * 16 + t.val) * 56 + h.val) * 56 + v.val
    = ((((n.val * 8 + g.val) * 32 + k.val) * 16 + t.val) * 56 + h.val) * 56 + v.val
  omega

/-- The group axis and the tap axis merged into 72 output channels, read at an index. -/
theorem merge_apply (y : (⟨6, ![4, 8, 9, 16, 56, 56]⟩ : Shape).Idx → α)
    (hc : (⟨6, ![4, 8, 9, 16, 56, 56]⟩ : Shape).ShapeCasts ⟨5, ![4, 72, 16, 56, 56]⟩)
    (n : Fin 4) (j : Fin 72) (t : Fin 16) (h v : Fin 56) :
    shapeCast ⟨5, ![4, 72, 16, 56, 56]⟩ y hc (ix5 n j t h v) = y (ix6 n (group j) (tap j) t h v) := by
  refine shapeCast_apply y hc _ _ ?_
  rw [Shape.rowMajor_val_five, Shape.rowMajor_val_six]
  show ((((n.val * 8 + j.val / 9) * 9 + j.val % 9) * 16 + t.val) * 56 + h.val) * 56 + v.val
    = (((n.val * 72 + j.val) * 16 + t.val) * 56 + h.val) * 56 + v.val
  omega

end Cert.ReferenceIdeal.RefLayout
-- ==== Proof.RefStack.lean ====
/-
  Two concatenations along an axis, read at an index, for any element type.

  Nine arrays of shape [4, 8, 1, 16, 56, 56] concatenated along axis 2 give a [4, 8, 9, 16, 56, 56] array whose entry
  (n, g, q, t, h, v) is the `q`-th array's entry (n, g, 0, t, h, v). A [4, 256, 1, 56, 56] array followed along axis 2 by a
  [4, 256, 15, 56, 56] array gives a [4, 256, 16, 56, 56] array whose entry (n, c, t, h, v) is the first array's entry
  (n, c, 0, h, v) when t = 0 and the second array's entry (n, c, t - 1, h, v) otherwise.
-/
import Idealize.ShloMosaic.Lib.Pipeline.Value
import Idealize.ShloMosaic.Lib.ValueIdxRank6

namespace Cert.ReferenceIdeal.RefStack

open Idealize.ShloMosaic Idealize.ShloMosaic.ValueIdx

variable {α : Type}

/-- The `q`-th of nine things. -/
def pick9 {β : Type} (y0 y1 y2 y3 y4 y5 y6 y7 y8 : β) : Fin 9 → β
  | ⟨0, _⟩ => y0
  | ⟨1, _⟩ => y1
  | ⟨2, _⟩ => y2
  | ⟨3, _⟩ => y3
  | ⟨4, _⟩ => y4
  | ⟨5, _⟩ => y5
  | ⟨6, _⟩ => y6
  | ⟨7, _⟩ => y7
  | ⟨8, _⟩ => y8

/-- Nine unit slabs stacked along axis 2, read at an index: the slab the axis-2 coordinate names. -/
theorem stack9_apply (y0 y1 y2 y3 y4 y5 y6 y7 y8 : (⟨6, ![4, 8, 1, 16, 56, 56]⟩ : Shape).Idx → α)
    (hcat : Shape.Concatenates (([⟨⟨6, ![4, 8, 1, 16, 56, 56]⟩, y0⟩, ⟨⟨6, ![4, 8, 1, 16, 56, 56]⟩, y1⟩, ⟨⟨6, ![4, 8, 1, 16, 56, 56]⟩, y2⟩, ⟨⟨6, ![4, 8, 1, 16, 56, 56]⟩, y3⟩, ⟨⟨6, ![4, 8, 1, 16, 56, 56]⟩, y4⟩, ⟨⟨6, ![4, 8, 1, 16, 56, 56]⟩, y5⟩, ⟨⟨6, ![4, 8, 1, 16, 56, 56]⟩, y6⟩, ⟨⟨6, ![4, 8, 1, 16, 56, 56]⟩, y7⟩, ⟨⟨6, ![4, 8, 1, 16, 56, 56]⟩, y8⟩] : List ((s : Shape) × (s.Idx → α))).map (·.1))
      ⟨6, ![4, 8, 9, 16, 56, 56]⟩ 2)
    (n : Fin 4) (g : Fin 8) (q : Fin 9) (t : Fin 16) (h v : Fin 56) :
    concatenate ⟨6, ![4, 8, 9, 16, 56, 56]⟩ 2 [⟨⟨6, ![4, 8, 1, 16, 56, 56]⟩, y0⟩, ⟨⟨6, ![4, 8, 1, 16, 56, 56]⟩, y1⟩, ⟨⟨6, ![4, 8, 1, 16, 56, 56]⟩, y2⟩, ⟨⟨6, ![4, 8, 1, 16, 56, 56]⟩, y3⟩, ⟨⟨6, ![4, 8, 1, 16, 56, 56]⟩, y4⟩, ⟨⟨6, ![4, 8, 1, 16, 56, 56]⟩, y5⟩, ⟨⟨6, ![4, 8, 1, 16, 56, 56]⟩, y6⟩, ⟨⟨6, ![4, 8, 1, 16, 56, 56]⟩, y7⟩, ⟨⟨6, ![4, 8, 1, 16, 56, 56]⟩, y8⟩] hcat (ix6 n g q t h v)
      = pick9 y0 y1 y2 y3 y4 y5 y6 y7 y8 q (ix6 n g 0 t h v) :=
  match q with
  | ⟨0, _⟩ =>
    concatenate_apply_piece 2 _ hcat _ 0 (by show (0 : Nat) < 9; omega) _ y0 rfl rfl 0 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨1, _⟩ =>
    concatenate_apply_piece 2 _ hcat _ 1 (by show (1 : Nat) < 9; omega) _ y1 rfl rfl 1 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨2, _⟩ =>
    concatenate_apply_piece 2 _ hcat _ 2 (by show (2 : Nat) < 9; omega) _ y2 rfl rfl 2 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨3, _⟩ =>
    concatenate_apply_piece 2 _ hcat _ 3 (by show (3 : Nat) < 9; omega) _ y3 rfl rfl 3 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨4, _⟩ =>
    concatenate_apply_piece 2 _ hcat _ 4 (by show (4 : Nat) < 9; omega) _ y4 rfl rfl 4 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨5, _⟩ =>
    concatenate_apply_piece 2 _ hcat _ 5 (by show (5 : Nat) < 9; omega) _ y5 rfl rfl 5 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨6, _⟩ =>
    concatenate_apply_piece 2 _ hcat _ 6 (by show (6 : Nat) < 9; omega) _ y6 rfl rfl 6 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨7, _⟩ =>
    concatenate_apply_piece 2 _ hcat _ 7 (by show (7 : Nat) < 9; omega) _ y7 rfl rfl 7 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl
  | ⟨8, _⟩ =>
    concatenate_apply_piece 2 _ hcat _ 8 (by show (8 : Nat) < 9; omega) _ y8 rfl rfl 8 rfl (ix6 n g 0 t h v)
      (fun b hb => match b with
        | ⟨0, _⟩ => rfl | ⟨1, _⟩ => rfl | ⟨2, _⟩ => absurd rfl hb | ⟨3, _⟩ => rfl | ⟨4, _⟩ => rfl | ⟨5, _⟩ => rfl)
      rfl

/-- A one-frame array followed by a fifteen-frame array along the frame axis, read at an index. -/
theorem frames_apply (y0 : (⟨5, ![4, 256, 1, 56, 56]⟩ : Shape).Idx → α) (y1 : (⟨5, ![4, 256, 15, 56, 56]⟩ : Shape).Idx → α)
    (hcat : Shape.Concatenates (([⟨⟨5, ![4, 256, 1, 56, 56]⟩, y0⟩, ⟨⟨5, ![4, 256, 15, 56, 56]⟩, y1⟩] :
      List ((s : Shape) × (s.Idx → α))).map (·.1)) ⟨5, ![4, 256, 16, 56, 56]⟩ 2)
    (n : Fin 4) (c : Fin 256) (t : Fin 16) (h v : Fin 56) :
    concatenate ⟨5, ![4, 256, 16, 56, 56]⟩ 2 [⟨⟨5, ![4, 256, 1, 56, 56]⟩, y0⟩, ⟨⟨5, ![4, 256, 15, 56, 56]⟩, y1⟩] hcat (ix5 n c t h v)
      = if ht : t.val = 0 then y0 (ix5 n c ⟨0, Nat.one_pos⟩ h v)
        else y1 (ix5 n c ⟨t.val - 1, by have := t.isLt; omega⟩ h v) := by
  by_cases ht : t.val = 0
  · rw [dif_pos ht]
    exact concatenate_pair_apply_left 2 y0 y1 hcat _ rfl _ (fun b => match b with
      | ⟨0, _⟩ => rfl | ⟨1, _⟩ => rfl | ⟨2, _⟩ => ht.symm | ⟨3, _⟩ => rfl | ⟨4, _⟩ => rfl)
  · rw [dif_neg ht]
    exact concatenate_pair_apply_right 2 y0 y1 hcat _ rfl rfl _ (fun b hb => match b with
      | ⟨0, _⟩ => rfl | ⟨1, _⟩ => rfl | ⟨2, _⟩ => absurd rfl hb | ⟨3, _⟩ => rfl | ⟨4, _⟩ => rfl)
      (by show t.val - 1 + 1 = t.val; omega)

end Cert.ReferenceIdeal.RefStack
-- ==== Proof.RefPrev.lean ====
/-
  The reference's delayed clip, read at an index.

  The reference joins frame 0 of the clip and its frames 0 to 14 along the frame axis: entry (n, c, t, h, v) of the result is
  the clip's entry (n, c, t - 1, h, v) with the truncated difference, frame 0 being its own predecessor.
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefStack

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

variable {F : FTy → Type} [FloatOps F]

/-- The delayed clip at (n, c, t, h, v) is the clip at the previous frame. -/
theorem delayed_apply (x : (⟨S4x256x16x56x56, .f32⟩ : BufTy).Contents (Elt F))
    (n : Fin 4) (c : Fin 256) (t : Fin 16) (h v : Fin 56) :
    val_main_v2 (F := F) x (ix5 n c t h v) = x (ix5 n c (prev t) h v) := by
  unfold val_main_v2
  refine (RefStack.frames_apply _ _ _ n c t h v).trans ?_
  by_cases ht : t.val = 0
  · rw [dif_pos ht]
    refine (val_main_v0_apply x _).trans (congrArg x ?_)
    funext a
    match a with
    | ⟨0, _⟩ => rfl
    | ⟨1, _⟩ => rfl
    | ⟨2, _⟩ => exact Fin.ext (by show 0 = t.val - 1; omega)
    | ⟨3, _⟩ => rfl
    | ⟨4, _⟩ => rfl
  · rw [dif_neg ht]
    refine (val_main_v1_apply x _).trans (congrArg x ?_)
    funext a
    match a with
    | ⟨0, _⟩ => rfl
    | ⟨1, _⟩ => rfl
    | ⟨2, _⟩ => rfl
    | ⟨3, _⟩ => rfl
    | ⟨4, _⟩ => rfl

end Cert.ReferenceIdeal.RefValue

end
-- ==== Proof.RefTap0.lean ====
/-
  Tap (0, 0) of the reference, read at an index.

  For the tap in row 0, column 0 of the 3 × 3 neighbourhood the reference cuts the 56 × 56 window of the padded clip at offset
  (0, 0), multiplies it by the delayed clip and by the tap's weight w[c, t, 0, 0] spread over batch, row and column,
  splits the 256 channels into 8 groups of 32 and sums each group: entry (n, g, t, h, v) is the sum over k < 32 of
  (x[n, 32 g + k, t - 1, h, v] · xp[n, 32 g + k, t, 0 + h, 0 + v]) · w[32 g + k, t, 0, 0].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 0, 0]. -/
theorem weight0_apply (w : (⟨S256x16x3x3, .f32⟩ : BufTy).Contents (Elt F))
    (n : Fin 4) (c : Fin 256) (t : Fin 16) (h v : Fin 56) :
    val_main_v9 (F := F) w (ix5 n c t h v) = w (ix4 c t (⟨0, by omega⟩ : Fin 3) (⟨0, by omega⟩ : Fin 3)) := by
  refine (val_main_v9_apply w _).trans ?_
  refine (val_main_v8_apply w _).trans ?_
  refine (val_main_v6_apply w _).trans ?_
  refine (val_main_v5_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 0 = 0; omega)
  | ⟨3, _⟩ => exact Fin.ext (by show 0 = 0; omega)

/-- The tap's window of the padded clip at (n, c, t, h, v): the padded clip at (n, c, t, 0 + h, 0 + v). -/
theorem window0_apply (x : (⟨S4x256x16x56x56, .f32⟩ : BufTy).Contents (Elt F))
    (n : Fin 4) (c : Fin 256) (t : Fin 16) (h v : Fin 56) :
    val_main_v4 (F := F) x (ix5 n c t h v)
      = val_main_v3 (F := F) x (ix5 n c t (shift (⟨0, by omega⟩ : Fin 3) h) (shift (⟨0, by omega⟩ : Fin 3) v)) := by
  refine (val_main_v4_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show h.val = 0 + h.val; omega)
  | ⟨4, _⟩ => exact Fin.ext (by show v.val = 0 + v.val; omega)

end AnyInstance

/-- The tap's group sums at (n, g, t, h, v). -/
theorem tap0_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v12 (F := Ideal) x w (ix5 n g t h v)
      = ∑ k : Fin 32, (x (ix5 n (gchan g k) (prev t) h v)
            * val_main_v3 (F := Ideal) x (ix5 n (gchan g k) t (shift (⟨0, by omega⟩ : Fin 3) h) (shift (⟨0, by omega⟩ : Fin 3) v)))
          * w (ix4 (gchan g k) t (⟨0, by omega⟩ : Fin 3) (⟨0, by omega⟩ : Fin 3)) := by
  refine (val_main_v12_apply x w _).trans ?_
  have hz : val_main_cst (F := Ideal) (Shape.Idx.first h_S_) = 0 := Ideal.ofBits_zero_f32
  rw [hz, zero_add]
  refine Finset.sum_congr rfl fun k _ => ?_
  have e : idx_main_v12 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v11
  refine (split_apply _ _ n g k t h v).trans ?_
  show (val_main_v2 (F := Ideal) x (ix5 n (gchan g k) t h v) * val_main_v4 (F := Ideal) x (ix5 n (gchan g k) t h v))
      * val_main_v9 (F := Ideal) w (ix5 n (gchan g k) t h v) = _
  rw [delayed_apply, window0_apply, weight0_apply]

/-- The tap's group sums as a unit slab along a new tap axis, at (n, g, 0, t, h, v). -/
theorem slab0_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v85 (F := Ideal) x w (ix6 n g (0 : Fin 1) t h v)
      = ∑ k : Fin 32, (x (ix5 n (gchan g k) (prev t) h v)
            * val_main_v3 (F := Ideal) x (ix5 n (gchan g k) t (shift (⟨0, by omega⟩ : Fin 3) h) (shift (⟨0, by omega⟩ : Fin 3) v)))
          * w (ix4 (gchan g k) t (⟨0, by omega⟩ : Fin 3) (⟨0, by omega⟩ : Fin 3)) := by
  refine (val_main_v85_apply x w _).trans ?_
  have e : idx_main_v85 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap0_apply x w n g t h v

end Cert.ReferenceIdeal.RefValue

end
-- ==== Proof.RefTap1.lean ====
/-
  Tap (0, 1) of the reference, read at an index.

  For the tap in row 0, column 1 of the 3 × 3 neighbourhood the reference cuts the 56 × 56 window of the padded clip at offset
  (0, 1), multiplies it by the delayed clip and by the tap's weight w[c, t, 0, 1] spread over batch, row and column,
  splits the 256 channels into 8 groups of 32 and sums each group: entry (n, g, t, h, v) is the sum over k < 32 of
  (x[n, 32 g + k, t - 1, h, v] · xp[n, 32 g + k, t, 0 + h, 1 + v]) · w[32 g + k, t, 0, 1].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 0, 1]. -/
theorem weight1_apply (w : (⟨S256x16x3x3, .f32⟩ : BufTy).Contents (Elt F))
    (n : Fin 4) (c : Fin 256) (t : Fin 16) (h v : Fin 56) :
    val_main_v18 (F := F) w (ix5 n c t h v) = w (ix4 c t (⟨0, by omega⟩ : Fin 3) (⟨1, by omega⟩ : Fin 3)) := by
  refine (val_main_v18_apply w _).trans ?_
  refine (val_main_v17_apply w _).trans ?_
  refine (val_main_v15_apply w _).trans ?_
  refine (val_main_v14_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 0 = 0; omega)
  | ⟨3, _⟩ => exact Fin.ext (by show 1 + 0 = 1; omega)

/-- The tap's window of the padded clip at (n, c, t, h, v): the padded clip at (n, c, t, 0 + h, 1 + v). -/
theorem window1_apply (x : (⟨S4x256x16x56x56, .f32⟩ : BufTy).Contents (Elt F))
    (n : Fin 4) (c : Fin 256) (t : Fin 16) (h v : Fin 56) :
    val_main_v13 (F := F) x (ix5 n c t h v)
      = val_main_v3 (F := F) x (ix5 n c t (shift (⟨0, by omega⟩ : Fin 3) h) (shift (⟨1, by omega⟩ : Fin 3) v)) := by
  refine (val_main_v13_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show h.val = 0 + h.val; omega)
  | ⟨4, _⟩ => exact Fin.ext (by show 1 + v.val = 1 + v.val; omega)

end AnyInstance

/-- The tap's group sums at (n, g, t, h, v). -/
theorem tap1_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v21 (F := Ideal) x w (ix5 n g t h v)
      = ∑ k : Fin 32, (x (ix5 n (gchan g k) (prev t) h v)
            * val_main_v3 (F := Ideal) x (ix5 n (gchan g k) t (shift (⟨0, by omega⟩ : Fin 3) h) (shift (⟨1, by omega⟩ : Fin 3) v)))
          * w (ix4 (gchan g k) t (⟨0, by omega⟩ : Fin 3) (⟨1, by omega⟩ : Fin 3)) := by
  refine (val_main_v21_apply x w _).trans ?_
  have hz : val_main_cst_0 (F := Ideal) (Shape.Idx.first h_S_) = 0 := Ideal.ofBits_zero_f32
  rw [hz, zero_add]
  refine Finset.sum_congr rfl fun k _ => ?_
  have e : idx_main_v21 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v20
  refine (split_apply _ _ n g k t h v).trans ?_
  show (val_main_v2 (F := Ideal) x (ix5 n (gchan g k) t h v) * val_main_v13 (F := Ideal) x (ix5 n (gchan g k) t h v))
      * val_main_v18 (F := Ideal) w (ix5 n (gchan g k) t h v) = _
  rw [delayed_apply, window1_apply, weight1_apply]

/-- The tap's group sums as a unit slab along a new tap axis, at (n, g, 0, t, h, v). -/
theorem slab1_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v86 (F := Ideal) x w (ix6 n g (0 : Fin 1) t h v)
      = ∑ k : Fin 32, (x (ix5 n (gchan g k) (prev t) h v)
            * val_main_v3 (F := Ideal) x (ix5 n (gchan g k) t (shift (⟨0, by omega⟩ : Fin 3) h) (shift (⟨1, by omega⟩ : Fin 3) v)))
          * w (ix4 (gchan g k) t (⟨0, by omega⟩ : Fin 3) (⟨1, by omega⟩ : Fin 3)) := by
  refine (val_main_v86_apply x w _).trans ?_
  have e : idx_main_v86 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap1_apply x w n g t h v

end Cert.ReferenceIdeal.RefValue

end
-- ==== Proof.RefTap2.lean ====
/-
  Tap (0, 2) of the reference, read at an index.

  For the tap in row 0, column 2 of the 3 × 3 neighbourhood the reference cuts the 56 × 56 window of the padded clip at offset
  (0, 2), multiplies it by the delayed clip and by the tap's weight w[c, t, 0, 2] spread over batch, row and column,
  splits the 256 channels into 8 groups of 32 and sums each group: entry (n, g, t, h, v) is the sum over k < 32 of
  (x[n, 32 g + k, t - 1, h, v] · xp[n, 32 g + k, t, 0 + h, 2 + v]) · w[32 g + k, t, 0, 2].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 0, 2]. -/
theorem weight2_apply (w : (⟨S256x16x3x3, .f32⟩ : BufTy).Contents (Elt F))
    (n : Fin 4) (c : Fin 256) (t : Fin 16) (h v : Fin 56) :
    val_main_v27 (F := F) w (ix5 n c t h v) = w (ix4 c t (⟨0, by omega⟩ : Fin 3) (⟨2, by omega⟩ : Fin 3)) := by
  refine (val_main_v27_apply w _).trans ?_
  refine (val_main_v26_apply w _).trans ?_
  refine (val_main_v24_apply w _).trans ?_
  refine (val_main_v23_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 0 = 0; omega)
  | ⟨3, _⟩ => exact Fin.ext (by show 2 + 0 = 2; omega)

/-- The tap's window of the padded clip at (n, c, t, h, v): the padded clip at (n, c, t, 0 + h, 2 + v). -/
theorem window2_apply (x : (⟨S4x256x16x56x56, .f32⟩ : BufTy).Contents (Elt F))
    (n : Fin 4) (c : Fin 256) (t : Fin 16) (h v : Fin 56) :
    val_main_v22 (F := F) x (ix5 n c t h v)
      = val_main_v3 (F := F) x (ix5 n c t (shift (⟨0, by omega⟩ : Fin 3) h) (shift (⟨2, by omega⟩ : Fin 3) v)) := by
  refine (val_main_v22_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show h.val = 0 + h.val; omega)
  | ⟨4, _⟩ => exact Fin.ext (by show 2 + v.val = 2 + v.val; omega)

end AnyInstance

/-- The tap's group sums at (n, g, t, h, v). -/
theorem tap2_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v30 (F := Ideal) x w (ix5 n g t h v)
      = ∑ k : Fin 32, (x (ix5 n (gchan g k) (prev t) h v)
            * val_main_v3 (F := Ideal) x (ix5 n (gchan g k) t (shift (⟨0, by omega⟩ : Fin 3) h) (shift (⟨2, by omega⟩ : Fin 3) v)))
          * w (ix4 (gchan g k) t (⟨0, by omega⟩ : Fin 3) (⟨2, by omega⟩ : Fin 3)) := by
  refine (val_main_v30_apply x w _).trans ?_
  have hz : val_main_cst_1 (F := Ideal) (Shape.Idx.first h_S_) = 0 := Ideal.ofBits_zero_f32
  rw [hz, zero_add]
  refine Finset.sum_congr rfl fun k _ => ?_
  have e : idx_main_v30 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v29
  refine (split_apply _ _ n g k t h v).trans ?_
  show (val_main_v2 (F := Ideal) x (ix5 n (gchan g k) t h v) * val_main_v22 (F := Ideal) x (ix5 n (gchan g k) t h v))
      * val_main_v27 (F := Ideal) w (ix5 n (gchan g k) t h v) = _
  rw [delayed_apply, window2_apply, weight2_apply]

/-- The tap's group sums as a unit slab along a new tap axis, at (n, g, 0, t, h, v). -/
theorem slab2_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v87 (F := Ideal) x w (ix6 n g (0 : Fin 1) t h v)
      = ∑ k : Fin 32, (x (ix5 n (gchan g k) (prev t) h v)
            * val_main_v3 (F := Ideal) x (ix5 n (gchan g k) t (shift (⟨0, by omega⟩ : Fin 3) h) (shift (⟨2, by omega⟩ : Fin 3) v)))
          * w (ix4 (gchan g k) t (⟨0, by omega⟩ : Fin 3) (⟨2, by omega⟩ : Fin 3)) := by
  refine (val_main_v87_apply x w _).trans ?_
  have e : idx_main_v87 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap2_apply x w n g t h v

end Cert.ReferenceIdeal.RefValue

end
-- ==== Proof.RefTap3.lean ====
/-
  Tap (1, 0) of the reference, read at an index.

  For the tap in row 1, column 0 of the 3 × 3 neighbourhood the reference cuts the 56 × 56 window of the padded clip at offset
  (1, 0), multiplies it by the delayed clip and by the tap's weight w[c, t, 1, 0] spread over batch, row and column,
  splits the 256 channels into 8 groups of 32 and sums each group: entry (n, g, t, h, v) is the sum over k < 32 of
  (x[n, 32 g + k, t - 1, h, v] · xp[n, 32 g + k, t, 1 + h, 0 + v]) · w[32 g + k, t, 1, 0].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 1, 0]. -/
theorem weight3_apply (w : (⟨S256x16x3x3, .f32⟩ : BufTy).Contents (Elt F))
    (n : Fin 4) (c : Fin 256) (t : Fin 16) (h v : Fin 56) :
    val_main_v36 (F := F) w (ix5 n c t h v) = w (ix4 c t (⟨1, by omega⟩ : Fin 3) (⟨0, by omega⟩ : Fin 3)) := by
  refine (val_main_v36_apply w _).trans ?_
  refine (val_main_v35_apply w _).trans ?_
  refine (val_main_v33_apply w _).trans ?_
  refine (val_main_v32_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 1 + 0 = 1; omega)
  | ⟨3, _⟩ => exact Fin.ext (by show 0 = 0; omega)

/-- The tap's window of the padded clip at (n, c, t, h, v): the padded clip at (n, c, t, 1 + h, 0 + v). -/
theorem window3_apply (x : (⟨S4x256x16x56x56, .f32⟩ : BufTy).Contents (Elt F))
    (n : Fin 4) (c : Fin 256) (t : Fin 16) (h v : Fin 56) :
    val_main_v31 (F := F) x (ix5 n c t h v)
      = val_main_v3 (F := F) x (ix5 n c t (shift (⟨1, by omega⟩ : Fin 3) h) (shift (⟨0, by omega⟩ : Fin 3) v)) := by
  refine (val_main_v31_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show 1 + h.val = 1 + h.val; omega)
  | ⟨4, _⟩ => exact Fin.ext (by show v.val = 0 + v.val; omega)

end AnyInstance

/-- The tap's group sums at (n, g, t, h, v). -/
theorem tap3_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v39 (F := Ideal) x w (ix5 n g t h v)
      = ∑ k : Fin 32, (x (ix5 n (gchan g k) (prev t) h v)
            * val_main_v3 (F := Ideal) x (ix5 n (gchan g k) t (shift (⟨1, by omega⟩ : Fin 3) h) (shift (⟨0, by omega⟩ : Fin 3) v)))
          * w (ix4 (gchan g k) t (⟨1, by omega⟩ : Fin 3) (⟨0, by omega⟩ : Fin 3)) := by
  refine (val_main_v39_apply x w _).trans ?_
  have hz : val_main_cst_2 (F := Ideal) (Shape.Idx.first h_S_) = 0 := Ideal.ofBits_zero_f32
  rw [hz, zero_add]
  refine Finset.sum_congr rfl fun k _ => ?_
  have e : idx_main_v39 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v38
  refine (split_apply _ _ n g k t h v).trans ?_
  show (val_main_v2 (F := Ideal) x (ix5 n (gchan g k) t h v) * val_main_v31 (F := Ideal) x (ix5 n (gchan g k) t h v))
      * val_main_v36 (F := Ideal) w (ix5 n (gchan g k) t h v) = _
  rw [delayed_apply, window3_apply, weight3_apply]

/-- The tap's group sums as a unit slab along a new tap axis, at (n, g, 0, t, h, v). -/
theorem slab3_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v88 (F := Ideal) x w (ix6 n g (0 : Fin 1) t h v)
      = ∑ k : Fin 32, (x (ix5 n (gchan g k) (prev t) h v)
            * val_main_v3 (F := Ideal) x (ix5 n (gchan g k) t (shift (⟨1, by omega⟩ : Fin 3) h) (shift (⟨0, by omega⟩ : Fin 3) v)))
          * w (ix4 (gchan g k) t (⟨1, by omega⟩ : Fin 3) (⟨0, by omega⟩ : Fin 3)) := by
  refine (val_main_v88_apply x w _).trans ?_
  have e : idx_main_v88 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap3_apply x w n g t h v

end Cert.ReferenceIdeal.RefValue

end
-- ==== Proof.RefTap4.lean ====
/-
  Tap (1, 1) of the reference, read at an index.

  For the tap in row 1, column 1 of the 3 × 3 neighbourhood the reference cuts the 56 × 56 window of the padded clip at offset
  (1, 1), multiplies it by the delayed clip and by the tap's weight w[c, t, 1, 1] spread over batch, row and column,
  splits the 256 channels into 8 groups of 32 and sums each group: entry (n, g, t, h, v) is the sum over k < 32 of
  (x[n, 32 g + k, t - 1, h, v] · xp[n, 32 g + k, t, 1 + h, 1 + v]) · w[32 g + k, t, 1, 1].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 1, 1]. -/
theorem weight4_apply (w : (⟨S256x16x3x3, .f32⟩ : BufTy).Contents (Elt F))
    (n : Fin 4) (c : Fin 256) (t : Fin 16) (h v : Fin 56) :
    val_main_v45 (F := F) w (ix5 n c t h v) = w (ix4 c t (⟨1, by omega⟩ : Fin 3) (⟨1, by omega⟩ : Fin 3)) := by
  refine (val_main_v45_apply w _).trans ?_
  refine (val_main_v44_apply w _).trans ?_
  refine (val_main_v42_apply w _).trans ?_
  refine (val_main_v41_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 1 + 0 = 1; omega)
  | ⟨3, _⟩ => exact Fin.ext (by show 1 + 0 = 1; omega)

/-- The tap's window of the padded clip at (n, c, t, h, v): the padded clip at (n, c, t, 1 + h, 1 + v). -/
theorem window4_apply (x : (⟨S4x256x16x56x56, .f32⟩ : BufTy).Contents (Elt F))
    (n : Fin 4) (c : Fin 256) (t : Fin 16) (h v : Fin 56) :
    val_main_v40 (F := F) x (ix5 n c t h v)
      = val_main_v3 (F := F) x (ix5 n c t (shift (⟨1, by omega⟩ : Fin 3) h) (shift (⟨1, by omega⟩ : Fin 3) v)) := by
  refine (val_main_v40_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show 1 + h.val = 1 + h.val; omega)
  | ⟨4, _⟩ => exact Fin.ext (by show 1 + v.val = 1 + v.val; omega)

end AnyInstance

/-- The tap's group sums at (n, g, t, h, v). -/
theorem tap4_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v48 (F := Ideal) x w (ix5 n g t h v)
      = ∑ k : Fin 32, (x (ix5 n (gchan g k) (prev t) h v)
            * val_main_v3 (F := Ideal) x (ix5 n (gchan g k) t (shift (⟨1, by omega⟩ : Fin 3) h) (shift (⟨1, by omega⟩ : Fin 3) v)))
          * w (ix4 (gchan g k) t (⟨1, by omega⟩ : Fin 3) (⟨1, by omega⟩ : Fin 3)) := by
  refine (val_main_v48_apply x w _).trans ?_
  have hz : val_main_cst_3 (F := Ideal) (Shape.Idx.first h_S_) = 0 := Ideal.ofBits_zero_f32
  rw [hz, zero_add]
  refine Finset.sum_congr rfl fun k _ => ?_
  have e : idx_main_v48 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v47
  refine (split_apply _ _ n g k t h v).trans ?_
  show (val_main_v2 (F := Ideal) x (ix5 n (gchan g k) t h v) * val_main_v40 (F := Ideal) x (ix5 n (gchan g k) t h v))
      * val_main_v45 (F := Ideal) w (ix5 n (gchan g k) t h v) = _
  rw [delayed_apply, window4_apply, weight4_apply]

/-- The tap's group sums as a unit slab along a new tap axis, at (n, g, 0, t, h, v). -/
theorem slab4_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v89 (F := Ideal) x w (ix6 n g (0 : Fin 1) t h v)
      = ∑ k : Fin 32, (x (ix5 n (gchan g k) (prev t) h v)
            * val_main_v3 (F := Ideal) x (ix5 n (gchan g k) t (shift (⟨1, by omega⟩ : Fin 3) h) (shift (⟨1, by omega⟩ : Fin 3) v)))
          * w (ix4 (gchan g k) t (⟨1, by omega⟩ : Fin 3) (⟨1, by omega⟩ : Fin 3)) := by
  refine (val_main_v89_apply x w _).trans ?_
  have e : idx_main_v89 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap4_apply x w n g t h v

end Cert.ReferenceIdeal.RefValue

end
-- ==== Proof.RefTap5.lean ====
/-
  Tap (1, 2) of the reference, read at an index.

  For the tap in row 1, column 2 of the 3 × 3 neighbourhood the reference cuts the 56 × 56 window of the padded clip at offset
  (1, 2), multiplies it by the delayed clip and by the tap's weight w[c, t, 1, 2] spread over batch, row and column,
  splits the 256 channels into 8 groups of 32 and sums each group: entry (n, g, t, h, v) is the sum over k < 32 of
  (x[n, 32 g + k, t - 1, h, v] · xp[n, 32 g + k, t, 1 + h, 2 + v]) · w[32 g + k, t, 1, 2].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 1, 2]. -/
theorem weight5_apply (w : (⟨S256x16x3x3, .f32⟩ : BufTy).Contents (Elt F))
    (n : Fin 4) (c : Fin 256) (t : Fin 16) (h v : Fin 56) :
    val_main_v54 (F := F) w (ix5 n c t h v) = w (ix4 c t (⟨1, by omega⟩ : Fin 3) (⟨2, by omega⟩ : Fin 3)) := by
  refine (val_main_v54_apply w _).trans ?_
  refine (val_main_v53_apply w _).trans ?_
  refine (val_main_v51_apply w _).trans ?_
  refine (val_main_v50_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 1 + 0 = 1; omega)
  | ⟨3, _⟩ => exact Fin.ext (by show 2 + 0 = 2; omega)

/-- The tap's window of the padded clip at (n, c, t, h, v): the padded clip at (n, c, t, 1 + h, 2 + v). -/
theorem window5_apply (x : (⟨S4x256x16x56x56, .f32⟩ : BufTy).Contents (Elt F))
    (n : Fin 4) (c : Fin 256) (t : Fin 16) (h v : Fin 56) :
    val_main_v49 (F := F) x (ix5 n c t h v)
      = val_main_v3 (F := F) x (ix5 n c t (shift (⟨1, by omega⟩ : Fin 3) h) (shift (⟨2, by omega⟩ : Fin 3) v)) := by
  refine (val_main_v49_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show 1 + h.val = 1 + h.val; omega)
  | ⟨4, _⟩ => exact Fin.ext (by show 2 + v.val = 2 + v.val; omega)

end AnyInstance

/-- The tap's group sums at (n, g, t, h, v). -/
theorem tap5_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v57 (F := Ideal) x w (ix5 n g t h v)
      = ∑ k : Fin 32, (x (ix5 n (gchan g k) (prev t) h v)
            * val_main_v3 (F := Ideal) x (ix5 n (gchan g k) t (shift (⟨1, by omega⟩ : Fin 3) h) (shift (⟨2, by omega⟩ : Fin 3) v)))
          * w (ix4 (gchan g k) t (⟨1, by omega⟩ : Fin 3) (⟨2, by omega⟩ : Fin 3)) := by
  refine (val_main_v57_apply x w _).trans ?_
  have hz : val_main_cst_4 (F := Ideal) (Shape.Idx.first h_S_) = 0 := Ideal.ofBits_zero_f32
  rw [hz, zero_add]
  refine Finset.sum_congr rfl fun k _ => ?_
  have e : idx_main_v57 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v56
  refine (split_apply _ _ n g k t h v).trans ?_
  show (val_main_v2 (F := Ideal) x (ix5 n (gchan g k) t h v) * val_main_v49 (F := Ideal) x (ix5 n (gchan g k) t h v))
      * val_main_v54 (F := Ideal) w (ix5 n (gchan g k) t h v) = _
  rw [delayed_apply, window5_apply, weight5_apply]

/-- The tap's group sums as a unit slab along a new tap axis, at (n, g, 0, t, h, v). -/
theorem slab5_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v90 (F := Ideal) x w (ix6 n g (0 : Fin 1) t h v)
      = ∑ k : Fin 32, (x (ix5 n (gchan g k) (prev t) h v)
            * val_main_v3 (F := Ideal) x (ix5 n (gchan g k) t (shift (⟨1, by omega⟩ : Fin 3) h) (shift (⟨2, by omega⟩ : Fin 3) v)))
          * w (ix4 (gchan g k) t (⟨1, by omega⟩ : Fin 3) (⟨2, by omega⟩ : Fin 3)) := by
  refine (val_main_v90_apply x w _).trans ?_
  have e : idx_main_v90 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap5_apply x w n g t h v

end Cert.ReferenceIdeal.RefValue

end
-- ==== Proof.RefTap6.lean ====
/-
  Tap (2, 0) of the reference, read at an index.

  For the tap in row 2, column 0 of the 3 × 3 neighbourhood the reference cuts the 56 × 56 window of the padded clip at offset
  (2, 0), multiplies it by the delayed clip and by the tap's weight w[c, t, 2, 0] spread over batch, row and column,
  splits the 256 channels into 8 groups of 32 and sums each group: entry (n, g, t, h, v) is the sum over k < 32 of
  (x[n, 32 g + k, t - 1, h, v] · xp[n, 32 g + k, t, 2 + h, 0 + v]) · w[32 g + k, t, 2, 0].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 2, 0]. -/
theorem weight6_apply (w : (⟨S256x16x3x3, .f32⟩ : BufTy).Contents (Elt F))
    (n : Fin 4) (c : Fin 256) (t : Fin 16) (h v : Fin 56) :
    val_main_v63 (F := F) w (ix5 n c t h v) = w (ix4 c t (⟨2, by omega⟩ : Fin 3) (⟨0, by omega⟩ : Fin 3)) := by
  refine (val_main_v63_apply w _).trans ?_
  refine (val_main_v62_apply w _).trans ?_
  refine (val_main_v60_apply w _).trans ?_
  refine (val_main_v59_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 2 + 0 = 2; omega)
  | ⟨3, _⟩ => exact Fin.ext (by show 0 = 0; omega)

/-- The tap's window of the padded clip at (n, c, t, h, v): the padded clip at (n, c, t, 2 + h, 0 + v). -/
theorem window6_apply (x : (⟨S4x256x16x56x56, .f32⟩ : BufTy).Contents (Elt F))
    (n : Fin 4) (c : Fin 256) (t : Fin 16) (h v : Fin 56) :
    val_main_v58 (F := F) x (ix5 n c t h v)
      = val_main_v3 (F := F) x (ix5 n c t (shift (⟨2, by omega⟩ : Fin 3) h) (shift (⟨0, by omega⟩ : Fin 3) v)) := by
  refine (val_main_v58_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show 2 + h.val = 2 + h.val; omega)
  | ⟨4, _⟩ => exact Fin.ext (by show v.val = 0 + v.val; omega)

end AnyInstance

/-- The tap's group sums at (n, g, t, h, v). -/
theorem tap6_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v66 (F := Ideal) x w (ix5 n g t h v)
      = ∑ k : Fin 32, (x (ix5 n (gchan g k) (prev t) h v)
            * val_main_v3 (F := Ideal) x (ix5 n (gchan g k) t (shift (⟨2, by omega⟩ : Fin 3) h) (shift (⟨0, by omega⟩ : Fin 3) v)))
          * w (ix4 (gchan g k) t (⟨2, by omega⟩ : Fin 3) (⟨0, by omega⟩ : Fin 3)) := by
  refine (val_main_v66_apply x w _).trans ?_
  have hz : val_main_cst_5 (F := Ideal) (Shape.Idx.first h_S_) = 0 := Ideal.ofBits_zero_f32
  rw [hz, zero_add]
  refine Finset.sum_congr rfl fun k _ => ?_
  have e : idx_main_v66 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v65
  refine (split_apply _ _ n g k t h v).trans ?_
  show (val_main_v2 (F := Ideal) x (ix5 n (gchan g k) t h v) * val_main_v58 (F := Ideal) x (ix5 n (gchan g k) t h v))
      * val_main_v63 (F := Ideal) w (ix5 n (gchan g k) t h v) = _
  rw [delayed_apply, window6_apply, weight6_apply]

/-- The tap's group sums as a unit slab along a new tap axis, at (n, g, 0, t, h, v). -/
theorem slab6_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v91 (F := Ideal) x w (ix6 n g (0 : Fin 1) t h v)
      = ∑ k : Fin 32, (x (ix5 n (gchan g k) (prev t) h v)
            * val_main_v3 (F := Ideal) x (ix5 n (gchan g k) t (shift (⟨2, by omega⟩ : Fin 3) h) (shift (⟨0, by omega⟩ : Fin 3) v)))
          * w (ix4 (gchan g k) t (⟨2, by omega⟩ : Fin 3) (⟨0, by omega⟩ : Fin 3)) := by
  refine (val_main_v91_apply x w _).trans ?_
  have e : idx_main_v91 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap6_apply x w n g t h v

end Cert.ReferenceIdeal.RefValue

end
-- ==== Proof.RefTap7.lean ====
/-
  Tap (2, 1) of the reference, read at an index.

  For the tap in row 2, column 1 of the 3 × 3 neighbourhood the reference cuts the 56 × 56 window of the padded clip at offset
  (2, 1), multiplies it by the delayed clip and by the tap's weight w[c, t, 2, 1] spread over batch, row and column,
  splits the 256 channels into 8 groups of 32 and sums each group: entry (n, g, t, h, v) is the sum over k < 32 of
  (x[n, 32 g + k, t - 1, h, v] · xp[n, 32 g + k, t, 2 + h, 1 + v]) · w[32 g + k, t, 2, 1].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 2, 1]. -/
theorem weight7_apply (w : (⟨S256x16x3x3, .f32⟩ : BufTy).Contents (Elt F))
    (n : Fin 4) (c : Fin 256) (t : Fin 16) (h v : Fin 56) :
    val_main_v72 (F := F) w (ix5 n c t h v) = w (ix4 c t (⟨2, by omega⟩ : Fin 3) (⟨1, by omega⟩ : Fin 3)) := by
  refine (val_main_v72_apply w _).trans ?_
  refine (val_main_v71_apply w _).trans ?_
  refine (val_main_v69_apply w _).trans ?_
  refine (val_main_v68_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 2 + 0 = 2; omega)
  | ⟨3, _⟩ => exact Fin.ext (by show 1 + 0 = 1; omega)

/-- The tap's window of the padded clip at (n, c, t, h, v): the padded clip at (n, c, t, 2 + h, 1 + v). -/
theorem window7_apply (x : (⟨S4x256x16x56x56, .f32⟩ : BufTy).Contents (Elt F))
    (n : Fin 4) (c : Fin 256) (t : Fin 16) (h v : Fin 56) :
    val_main_v67 (F := F) x (ix5 n c t h v)
      = val_main_v3 (F := F) x (ix5 n c t (shift (⟨2, by omega⟩ : Fin 3) h) (shift (⟨1, by omega⟩ : Fin 3) v)) := by
  refine (val_main_v67_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show 2 + h.val = 2 + h.val; omega)
  | ⟨4, _⟩ => exact Fin.ext (by show 1 + v.val = 1 + v.val; omega)

end AnyInstance

/-- The tap's group sums at (n, g, t, h, v). -/
theorem tap7_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v75 (F := Ideal) x w (ix5 n g t h v)
      = ∑ k : Fin 32, (x (ix5 n (gchan g k) (prev t) h v)
            * val_main_v3 (F := Ideal) x (ix5 n (gchan g k) t (shift (⟨2, by omega⟩ : Fin 3) h) (shift (⟨1, by omega⟩ : Fin 3) v)))
          * w (ix4 (gchan g k) t (⟨2, by omega⟩ : Fin 3) (⟨1, by omega⟩ : Fin 3)) := by
  refine (val_main_v75_apply x w _).trans ?_
  have hz : val_main_cst_6 (F := Ideal) (Shape.Idx.first h_S_) = 0 := Ideal.ofBits_zero_f32
  rw [hz, zero_add]
  refine Finset.sum_congr rfl fun k _ => ?_
  have e : idx_main_v75 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v74
  refine (split_apply _ _ n g k t h v).trans ?_
  show (val_main_v2 (F := Ideal) x (ix5 n (gchan g k) t h v) * val_main_v67 (F := Ideal) x (ix5 n (gchan g k) t h v))
      * val_main_v72 (F := Ideal) w (ix5 n (gchan g k) t h v) = _
  rw [delayed_apply, window7_apply, weight7_apply]

/-- The tap's group sums as a unit slab along a new tap axis, at (n, g, 0, t, h, v). -/
theorem slab7_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v92 (F := Ideal) x w (ix6 n g (0 : Fin 1) t h v)
      = ∑ k : Fin 32, (x (ix5 n (gchan g k) (prev t) h v)
            * val_main_v3 (F := Ideal) x (ix5 n (gchan g k) t (shift (⟨2, by omega⟩ : Fin 3) h) (shift (⟨1, by omega⟩ : Fin 3) v)))
          * w (ix4 (gchan g k) t (⟨2, by omega⟩ : Fin 3) (⟨1, by omega⟩ : Fin 3)) := by
  refine (val_main_v92_apply x w _).trans ?_
  have e : idx_main_v92 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap7_apply x w n g t h v

end Cert.ReferenceIdeal.RefValue

end
-- ==== Proof.RefTap8.lean ====
/-
  Tap (2, 2) of the reference, read at an index.

  For the tap in row 2, column 2 of the 3 × 3 neighbourhood the reference cuts the 56 × 56 window of the padded clip at offset
  (2, 2), multiplies it by the delayed clip and by the tap's weight w[c, t, 2, 2] spread over batch, row and column,
  splits the 256 channels into 8 groups of 32 and sums each group: entry (n, g, t, h, v) is the sum over k < 32 of
  (x[n, 32 g + k, t - 1, h, v] · xp[n, 32 g + k, t, 2 + h, 2 + v]) · w[32 g + k, t, 2, 2].
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefPrev

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

section AnyInstance
variable {F : FTy → Type} [FloatOps F]

/-- The tap's weight spread over batch, row and column, at (n, c, t, h, v): w[c, t, 2, 2]. -/
theorem weight8_apply (w : (⟨S256x16x3x3, .f32⟩ : BufTy).Contents (Elt F))
    (n : Fin 4) (c : Fin 256) (t : Fin 16) (h v : Fin 56) :
    val_main_v81 (F := F) w (ix5 n c t h v) = w (ix4 c t (⟨2, by omega⟩ : Fin 3) (⟨2, by omega⟩ : Fin 3)) := by
  refine (val_main_v81_apply w _).trans ?_
  refine (val_main_v80_apply w _).trans ?_
  refine (val_main_v78_apply w _).trans ?_
  refine (val_main_v77_apply w _).trans (congrArg w ?_)
  funext a
  match a with
  | ⟨0, _⟩ => exact Fin.ext (by show (c.val * 16 + t.val) / 16 = c.val; have := t.isLt; omega)
  | ⟨1, _⟩ => exact Fin.ext (by show (c.val * 16 + t.val) / 1 % 16 = t.val; have := t.isLt; omega)
  | ⟨2, _⟩ => exact Fin.ext (by show 2 + 0 = 2; omega)
  | ⟨3, _⟩ => exact Fin.ext (by show 2 + 0 = 2; omega)

/-- The tap's window of the padded clip at (n, c, t, h, v): the padded clip at (n, c, t, 2 + h, 2 + v). -/
theorem window8_apply (x : (⟨S4x256x16x56x56, .f32⟩ : BufTy).Contents (Elt F))
    (n : Fin 4) (c : Fin 256) (t : Fin 16) (h v : Fin 56) :
    val_main_v76 (F := F) x (ix5 n c t h v)
      = val_main_v3 (F := F) x (ix5 n c t (shift (⟨2, by omega⟩ : Fin 3) h) (shift (⟨2, by omega⟩ : Fin 3) v)) := by
  refine (val_main_v76_apply x _).trans ?_
  generalize val_main_v3 (F := F) x = xp
  refine congrArg xp ?_
  funext a
  match a with
  | ⟨0, _⟩ => rfl
  | ⟨1, _⟩ => rfl
  | ⟨2, _⟩ => rfl
  | ⟨3, _⟩ => exact Fin.ext (by show 2 + h.val = 2 + h.val; omega)
  | ⟨4, _⟩ => exact Fin.ext (by show 2 + v.val = 2 + v.val; omega)

end AnyInstance

/-- The tap's group sums at (n, g, t, h, v). -/
theorem tap8_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v84 (F := Ideal) x w (ix5 n g t h v)
      = ∑ k : Fin 32, (x (ix5 n (gchan g k) (prev t) h v)
            * val_main_v3 (F := Ideal) x (ix5 n (gchan g k) t (shift (⟨2, by omega⟩ : Fin 3) h) (shift (⟨2, by omega⟩ : Fin 3) v)))
          * w (ix4 (gchan g k) t (⟨2, by omega⟩ : Fin 3) (⟨2, by omega⟩ : Fin 3)) := by
  refine (val_main_v84_apply x w _).trans ?_
  have hz : val_main_cst_7 (F := Ideal) (Shape.Idx.first h_S_) = 0 := Ideal.ofBits_zero_f32
  rw [hz, zero_add]
  refine Finset.sum_congr rfl fun k _ => ?_
  have e : idx_main_v84 (ix5 n g t h v) k = ix6 n g k t h v := by
    funext a
    match a with
    | ⟨0, _⟩ => rfl
    | ⟨1, _⟩ => rfl
    | ⟨2, _⟩ => rfl
    | ⟨3, _⟩ => rfl
    | ⟨4, _⟩ => rfl
    | ⟨5, _⟩ => rfl
  rw [e]
  unfold val_main_v83
  refine (split_apply _ _ n g k t h v).trans ?_
  show (val_main_v2 (F := Ideal) x (ix5 n (gchan g k) t h v) * val_main_v76 (F := Ideal) x (ix5 n (gchan g k) t h v))
      * val_main_v81 (F := Ideal) w (ix5 n (gchan g k) t h v) = _
  rw [delayed_apply, window8_apply, weight8_apply]

/-- The tap's group sums as a unit slab along a new tap axis, at (n, g, 0, t, h, v). -/
theorem slab8_apply (x : (⟨S4x256x16x56x56, .f32⟩ : BufTy).Contents (Elt Ideal))
    (w : (⟨S256x16x3x3, .f32⟩ : BufTy).Contents (Elt Ideal))
    (n : Fin 4) (g : Fin 8) (t : Fin 16) (h v : Fin 56) :
    val_main_v93 (F := Ideal) x w (ix6 n g (0 : Fin 1) t h v)
      = ∑ k : Fin 32, (x (ix5 n (gchan g k) (prev t) h v)
            * val_main_v3 (F := Ideal) x (ix5 n (gchan g k) t (shift (⟨2, by omega⟩ : Fin 3) h) (shift (⟨2, by omega⟩ : Fin 3) v)))
          * w (ix4 (gchan g k) t (⟨2, by omega⟩ : Fin 3) (⟨2, by omega⟩ : Fin 3)) := by
  refine (val_main_v93_apply x w _).trans ?_
  have e : idx_main_v93 (ix6 n g (0 : Fin 1) t h v) = ix5 n g t h v := by
    funext a
    match a with
    | ⟨0, _⟩ => rfl
    | ⟨1, _⟩ => rfl
    | ⟨2, _⟩ => rfl
    | ⟨3, _⟩ => rfl
    | ⟨4, _⟩ => rfl
  rw [e]
  exact tap8_apply x w n g t h v

end Cert.ReferenceIdeal.RefValue

end
-- ==== Proof.RefValue.lean ====
/-
  The reference's result is the specification's result array.

  The reference computes, for each of the nine taps, the 8 group sums of (delayed clip · shifted padded clip) · weight, puts the
  nine [4, 8, 16, 56, 56] results side by side along a new axis of extent 9 after the group axis and merges the group axis with it:
  output channel j holds group j / 9 at tap j % 9, and tap q sits in row q / 3, column q % 3 of the neighbourhood. Entry by entry
  that is the specification's sum over the group's 32 channels.
-/
import proofs.«164966_j19069654794413_2_alg».proof.Proof.ReadP
import proofs.«164966_j19069654794413_2_alg».proof.Proof.Spec
import proofs.«164966_j19069654794413_2_alg».proof.Proof.RefLayout
import proofs.«164966_j19069654794413_2_alg».proof.Proof.RefStack
import proofs.«164966_j19069654794413_2_alg».proof.Proof.RefTap0
import proofs.«164966_j19069654794413_2_alg».proof.Proof.RefTap1
import proofs.«164966_j19069654794413_2_alg».proof.Proof.RefTap2
import proofs.«164966_j19069654794413_2_alg».proof.Proof.RefTap3
import proofs.«164966_j19069654794413_2_alg».proof.Proof.RefTap4
import proofs.«164966_j19069654794413_2_alg».proof.Proof.RefTap5
import proofs.«164966_j19069654794413_2_alg».proof.Proof.RefTap6
import proofs.«164966_j19069654794413_2_alg».proof.Proof.RefTap7
import proofs.«164966_j19069654794413_2_alg».proof.Proof.RefTap8

noncomputable section

open scoped BigOperators

namespace Cert.ReferenceIdeal.RefValue

open Cert.ReferenceIdeal Cert.ReferenceIdeal.Gen Cert.ReferenceIdeal.Read Cert.ReferenceIdeal.RefLayout Cert.TapGroups
open Idealize.ShloMosaic Idealize.ShloMosaic.ValueIdx

/-- A tap's group sum, written with the group `j / 9` and the tap's two offsets, is the specification's sum at output
    channel `j`. -/
theorem sum_eq_term (x : (⟨5, ![4, 256, 16, 56, 56]⟩ : Shape).Idx → EReal) (xp : (⟨5, ![4, 256, 16, 58, 58]⟩ : Shape).Idx → EReal)
    (w : (⟨4, ![256, 16, 3, 3]⟩ : Shape).Idx → EReal) (n : Fin 4) (j : Fin 72) (t : Fin 16) (h v : Fin 56) (r s : Fin 3)
    (hr : tapRow j = r) (hs : tapCol j = s) :
    (∑ k : Fin 32, (x (ix5 n (gchan (group j) k) (prev t) h v) * xp (ix5 n (gchan (group j) k) t (shift r h) (shift s v)))
        * w (ix4 (gchan (group j) k) t r s))
      = ∑ k : Fin 32, term x xp w n j t h v k := by
  subst hr hs
  rfl

/-- The reference's result, as a function of the clip, its padded copy and the weight, is the specification's. -/
theorem reference_is_result (x : (⟨S4x256x16x56x56, .f32⟩ : BufTy).Contents (Elt Ideal))
    (w : (⟨S256x16x3x3, .f32⟩ : BufTy).Contents (Elt Ideal)) :
    Cert.ReferenceIdeal.Read.val_main_v95 (F := Ideal) x w
      = Cert.TapGroups.result x (Cert.ReferenceIdeal.Read.val_main_v3 (F := Ideal) x) w := by
  funext i
  obtain ⟨n, j, t, h, v, rfl⟩ : ∃ (n : Fin 4) (j : Fin 72) (t : Fin 16) (h v : Fin 56), i = ix5 n j t h v :=
    ⟨i 0, i 1, i 2, i 3, i 4, eq_ix5 i⟩
  refine Eq.trans ?_ (result_apply x _ w n j t h v).symm
  unfold val_main_v95
  refine (merge_apply _ _ n j t h v).trans ?_
  unfold val_main_v94
  refine (RefStack.stack9_apply _ _ _ _ _ _ _ _ _ _ n (group j) (tap j) t h v).trans ?_
  generalize hq : tap j = q
  have hq' : j.val % 9 = q.val := congrArg Fin.val hq
  match q, hq' with
  | ⟨0, _⟩, hq' =>
    have h0 : j.val % 9 = 0 := hq'
    exact (slab0_apply x w n (group j) t h v).trans (sum_eq_term x _ w n j t h v _ _
      (Fin.ext (by show j.val % 9 / 3 = 0; omega)) (Fin.ext (by show j.val % 9 % 3 = 0; omega)))
  | ⟨1, _⟩, hq' =>
    have h0 : j.val % 9 = 1 := hq'
    exact (slab1_apply x w n (group j) t h v).trans (sum_eq_term x _ w n j t h v _ _
      (Fin.ext (by show j.val % 9 / 3 = 0; omega)) (Fin.ext (by show j.val % 9 % 3 = 1; omega)))
  | ⟨2, _⟩, hq' =>
    have h0 : j.val % 9 = 2 := hq'
    exact (slab2_apply x w n (group j) t h v).trans (sum_eq_term x _ w n j t h v _ _
      (Fin.ext (by show j.val % 9 / 3 = 0; omega)) (Fin.ext (by show j.val % 9 % 3 = 2; omega)))
  | ⟨3, _⟩, hq' =>
    have h0 : j.val % 9 = 3 := hq'
    exact (slab3_apply x w n (group j) t h v).trans (sum_eq_term x _ w n j t h v _ _
      (Fin.ext (by show j.val % 9 / 3 = 1; omega)) (Fin.ext (by show j.val % 9 % 3 = 0; omega)))
  | ⟨4, _⟩, hq' =>
    have h0 : j.val % 9 = 4 := hq'
    exact (slab4_apply x w n (group j) t h v).trans (sum_eq_term x _ w n j t h v _ _
      (Fin.ext (by show j.val % 9 / 3 = 1; omega)) (Fin.ext (by show j.val % 9 % 3 = 1; omega)))
  | ⟨5, _⟩, hq' =>
    have h0 : j.val % 9 = 5 := hq'
    exact (slab5_apply x w n (group j) t h v).trans (sum_eq_term x _ w n j t h v _ _
      (Fin.ext (by show j.val % 9 / 3 = 1; omega)) (Fin.ext (by show j.val % 9 % 3 = 2; omega)))
  | ⟨6, _⟩, hq' =>
    have h0 : j.val % 9 = 6 := hq'
    exact (slab6_apply x w n (group j) t h v).trans (sum_eq_term x _ w n j t h v _ _
      (Fin.ext (by show j.val % 9 / 3 = 2; omega)) (Fin.ext (by show j.val % 9 % 3 = 0; omega)))
  | ⟨7, _⟩, hq' =>
    have h0 : j.val % 9 = 7 := hq'
    exact (slab7_apply x w n (group j) t h v).trans (sum_eq_term x _ w n j t h v _ _
      (Fin.ext (by show j.val % 9 / 3 = 2; omega)) (Fin.ext (by show j.val % 9 % 3 = 1; omega)))
  | ⟨8, _⟩, hq' =>
    have h0 : j.val % 9 = 8 := hq'
    exact (slab8_apply x w n (group j) t h v).trans (sum_eq_term x _ w n j t h v _ _
      (Fin.ext (by show j.val % 9 / 3 = 2; omega)) (Fin.ext (by show j.val % 9 % 3 = 2; omega)))

end Cert.ReferenceIdeal.RefValue

end
-- ==== Proof.Bridge.lean ====
/-
  The two idealized programs compute one function. The kernel's result array ends at `TapGroups.result` of the launched clip, the
  host's zero-padded copy of it and the launched weight (its run); the reference's result ends at its last stage of the launched
  arguments (its run), which is the same `TapGroups.result`, the reference's own padded clip being the same host pad of the same clip.
  No law of the extended reals beyond that is used: both programs multiply in the same order and sum the same 32 terms.
-/
import proofs.«164966_j19069654794413_2_alg».proof.Defs
import proofs.«164966_j19069654794413_2_alg».proof.Proof.Gen.Pre_finite_inputs
import proofs.«164966_j19069654794413_2_alg».proof.Proof.KernelRunIdeal
import proofs.«164966_j19069654794413_2_alg».proof.Proof.RefRun
import proofs.«164966_j19069654794413_2_alg».proof.Proof.RefValue

noncomputable section

namespace Cert.Proof.Bridge

open Idealize.ShloMosaic Idealize.ShloMosaic.TcCoe Idealize.SL.Sem

/-- The reference pads the clip by the same host operation as the kernel's program. -/
theorem padded_eq (x : (⟨5, ![4, 256, 16, 56, 56]⟩ : Shape).Idx → EReal) :
    Cert.ReferenceIdeal.Read.val_main_v3 (F := Ideal) x = Cert.KernelIdeal.Hand.padded x := rfl

/-- From memories agreeing on the clip and the weight, both idealized programs run to the end with the arguments unchanged and
    with equal results: each is `TapGroups.result` of the clip, its padded copy and the weight. -/
theorem algebraic : Cert.algebraic_KernelIdeal_ReferenceIdeal := by
  intro m ρ m' ρ' _ hagree
  refine ⟨_, Cert.KernelIdeal.Hand.run m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2, Cert.ReferenceIdeal.RefValue.reference_is_result, padded_eq]

end Cert.Proof.Bridge

end
-- ==== Proof.lean ====
/-
  The certificate of a grouped 3 × 3 temporal-product kernel against its reference.

  Both programs take a clip x of shape [4, 256, 16, 56, 56] (batch, channel, frame, row, column) and a weight w of shape
  [256, 16, 3, 3], and produce [4, 72, 16, 56, 56]: for each of 8 groups of 32 channels and each of the 9 taps (r, s) of a 3 × 3
  neighbourhood, the sum over the group's channels c of (x[c, t − 1, h, v] · xp[c, t, r + h, s + v]) · w[c, t, r, s], xp the clip padded by one
  zero on each side of rows and columns, frame 0 its own predecessor. The kernel's program pads on the host and launches one region
  over (batch, frame, two-group channel block) whose body forms the nine taps' group sums of its blocks; the reference slices, multiplies
  and sums whole arrays. At the ideal instance both are that one function (`TapGroups.result`), by their runs and nothing else:
  the products are taken in the same order and a group's 32 terms are summed from zero on both sides.

  The three frames are the programs' runs with the results dropped. The kernel's frame is proved by hand (two of its windows share the
  padded clip's array, whose full share is dealt to them in two halves), once for every float instance; the idealization rewrote no
  operation, so `preserves` is trivial.
-/
import proofs.«164966_j19069654794413_2_alg».proof.Defs
import proofs.«164966_j19069654794413_2_alg».proof.Proof.Gen.Kernel
import proofs.«164966_j19069654794413_2_alg».proof.Proof.Gen.KernelIdeal
import proofs.«164966_j19069654794413_2_alg».proof.Proof.Gen.ReferenceIdeal
import proofs.«164966_j19069654794413_2_alg».proof.Proof.Gen.Pre_finite_inputs
import proofs.«164966_j19069654794413_2_alg».proof.Proof.RunBits
import proofs.«164966_j19069654794413_2_alg».proof.Proof.RunIdeal
import proofs.«164966_j19069654794413_2_alg».proof.Proof.RefRun
import proofs.«164966_j19069654794413_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Hand.frame m ρ
theorem frame_kernelIdeal : Cert.frame_KernelIdeal := fun m ρ _ => Cert.KernelIdeal.Hand.frame m ρ
theorem frame_referenceIdeal : Cert.frame_ReferenceIdeal := fun m ρ _ =>
  (θ_run Cert.ReferenceIdeal.defs _ _).mono (fun _ h c => (h c).2) (Cert.ReferenceIdeal.Hand.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Bridge.algebraic⟩

end Cert.Proof

end
